-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S5324x2048 : Shape := ⟨2, ![5324, 2048]⟩
abbrev S2048x5324 : Shape := ⟨2, ![2048, 5324]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S5324x2048 : S_.BroadcastsInDim S5324x2048 (![] : Fin 0 → Fin S5324x2048.rank)
  reducesTo_S5324x2048_S_d0_1 : S5324x2048.ReducesTo [0, 1] S_
  bcast_S_S2048x5324 : S_.BroadcastsInDim S2048x5324 (![] : Fin 0 → Fin S2048x5324.rank)
  reducesTo_S2048x5324_S_d0_1 : S2048x5324.ReducesTo [0, 1] S_

variable [Facts]

def fn_part3 {F : FTy → Type} [FloatOps F] (main_v48 : IVec S_ 1) (main_v49 : FVec F S2048x5324 .f32) (main_v50 : FVec F S2048x5324 .f32) : IVec S_ 1 :=
  let main_v51 : IVec S2048x5324 1 := cmpf .olt main_v49 main_v50
  let main_c_19 : IVec S_ 1 := constantI S_ 1 1#1
  let main_v52 : IVec S_ 1 := (fun x v => Host.reduce IntOp.andi x v reducesTo_S2048x5324_S_d0_1 h_S_) main_v51 main_c_19
  let main_v53 : IVec S_ 1 := andi main_v48 main_v52
  main_v53

def fn_part2 {F : FTy → Type} [FloatOps F] (main_arg7 : FVec F S2048 .f32) (main_arg8 : FVec F S5324x2048 .f32) (main_arg9 : FVec F S5324x2048 .f32) (main_arg10 : FVec F S2048x5324 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S5324x2048 .f32 := Host.absf main_arg8
  let main_cst_14 : FVec F S_ .f32 := constant S_ .f32 0x7F800000#32
  let main_v40 : FVec F S5324x2048 .f32 := broadcastInDim S5324x2048 ![] bcast_S_S5324x2048 main_cst_14
  let main_v41 : IVec S5324x2048 1 := cmpf .olt main_v39 main_v40
  let main_c_15 : IVec S_ 1 := constantI S_ 1 1#1
  let main_v42 : IVec S_ 1 := (fun x v => Host.reduce IntOp.andi x v reducesTo_S5324x2048_S_d0_1 h_S_) main_v41 main_c_15
  let main_v43 : IVec S_ 1 := andi main_v38 main_v42
  let main_v44 : FVec F S5324x2048 .f32 := Host.absf main_arg9
  let main_cst_16 : FVec F S_ .f32 := constant S_ .f32 0x7F800000#32
  let main_v45 : FVec F S5324x2048 .f32 := broadcastInDim S5324x2048 ![] bcast_S_S5324x2048 main_cst_16
  let main_v46 : IVec S5324x2048 1 := cmpf .olt main_v44 main_v45
  let main_c_17 : IVec S_ 1 := constantI S_ 1 1#1
  let main_v47 : IVec S_ 1 := (fun x v => Host.reduce IntOp.andi x v reducesTo_S5324x2048_S_d0_1 h_S_) main_v46 main_c_17
  let main_v48 : IVec S_ 1 := andi main_v43 main_v47
  let main_v49 : FVec F S2048x5324 .f32 := Host.absf main_arg10
  let main_cst_18 : FVec F S_ .f32 := constant S_ .f32 0x7F800000#32
  let main_v50 : FVec F S2048x5324 .f32 := broadcastInDim S2048x5324 ![] bcast_S_S2048x5324 main_cst_18
  fn_part3 (F := F) main_v48 main_v49 main_v50

def fn_part1 {F : FTy → Type} [FloatOps F] (main_arg4 : FVec F S6144x2048 .f32) (main_arg5 : FVec F S6144 .f32) (main_arg6 : FVec F S2048x2048 .f32) (main_arg7 : FVec F S2048 .f32) (main_arg8 : FVec F S5324x2048 .f32) (main_arg9 : FVec F S5324x2048 .f32) (main_arg10 : FVec F S2048x5324 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S6144x2048 .f32 := Host.absf main_arg4
  let main_cst_6 : FVec F S_ .f32 := constant S_ .f32 0x7F800000#32
  let main_v20 : FVec F S6144x2048 .f32 := broadcastInDim S6144x2048 ![] bcast_S_S6144x2048 main_cst_6
  let main_v21 : IVec S6144x2048 1 := cmpf .olt main_v19 main_v20
  let main_c_7 : IVec S_ 1 := constantI S_ 1 1#1
  let main_v22 : IVec S_ 1 := (fun x v => Host.reduce IntOp.andi x v reducesTo_S6144x2048_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x2048 .f32) (main_arg1 : FVec F S16384x2048 .f32) (main_arg2 : FVec F S2048 .f32) (main_arg3 : FVec F S2048 .f32) (main_arg4 : FVec F S6144x2048 .f32) (main_arg5 : FVec F S6144 .f32) (main_arg6 : FVec F S2048x2048 .f32) (main_arg7 : FVec F S2048 .f32) (main_arg8 : FVec F S5324x2048 .f32) (main_arg9 : FVec F S5324x2048 .f32) (main_arg10 : FVec F S2048x5324 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S16384x2048 : Shape := ⟨2, ![16384, 2048]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S5324x2048 : Shape := ⟨2, ![5324, 2048]⟩
abbrev S2048x5324 : Shape := ⟨2, ![2048, 5324]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩
abbrev S5376x2048 : Shape := ⟨2, ![5376, 2048]⟩
abbrev S2048x5376 : Shape := ⟨2, ![2048, 5376]⟩
abbrev S512x2048 : Shape := ⟨2, ![512, 2048]⟩
abbrev S384x2048 : Shape := ⟨2, ![384, 2048]⟩
abbrev S2048x384 : Shape := ⟨2, ![2048, 384]⟩
abbrev S512x384 : Shape := ⟨2, ![512, 384]⟩

abbrev nBuf : Space → Nat
  | .hbm => 34
  | .vmem => 27
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S6144x2048, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S5324x2048, .f32⟩
  | .hbm, ⟨9, _⟩ => ⟨S5324x2048, .f32⟩
  | .hbm, ⟨10, _⟩ => ⟨S2048x5324, .f32⟩
  | .hbm, ⟨11, _⟩ => ⟨S2048x2048, .f32⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S16384x2048, .bf16⟩
  | .hbm, ⟨21, _⟩ => ⟨S_, .i32⟩
  | .hbm, ⟨22, _⟩ => ⟨S_, .f32⟩
  | .hbm, ⟨23, _⟩ => ⟨S5376x2048, .f32⟩
  | .hbm, ⟨24, _⟩ => ⟨S5376x2048, .bf16⟩
  | .hbm, ⟨25, _⟩ => ⟨S_, .i32⟩
  | .hbm, ⟨26, _⟩ => ⟨S_, .f32⟩
  | .hbm, ⟨27, _⟩ => ⟨S5376x2048, .f32⟩
  | .hbm, ⟨28, _⟩ => ⟨S5376x2048, .bf16⟩
  | .hbm, ⟨29, _⟩ => ⟨S_, .i32⟩
  | .hbm, ⟨30, _⟩ => ⟨S_, .f32⟩
  | .hbm, ⟨31, _⟩ => ⟨S2048x5376, .f32⟩
  | .hbm, ⟨32, _⟩ => ⟨S2048x5376, .bf16⟩
  | .hbm, ⟨33, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S384x2048, .bf16⟩
  | .local _ .vmem, ⟨19, _⟩ => ⟨S384x2048, .bf16⟩
  | .local _ .vmem, ⟨20, _⟩ => ⟨S384x2048, .bf16⟩
  | .local _ .vmem, ⟨21, _⟩ => ⟨S384x2048, .bf16⟩
  | .local _ .vmem, ⟨22, _⟩ => ⟨S2048x384, .bf16⟩
  | .local _ .vmem, ⟨23, _⟩ => ⟨S2048x384, .bf16⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_call2_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![32, 14], ![false, false]⟩

def k1_cond2 (i : grid1.Coords) : BitVec 1 :=
  let arg1 : BitVec 32 := BitVec.ofNat 32 (i 1).val
  let c13_i32 : BitVec 32 := 13#32
  let v23 : BitVec 1 := Scalar.cmpi .eq arg1 c13_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S384x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S384x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S6144x2048_S2048x2048_4096_0 : S6144x2048.Slices ![4096, 0] S2048x2048
  bitsLt_bf16_f32 : FTy.bits .bf16 < FTy.bits .f32
  slices_S6144_S2048_4096 : S6144.Slices ![4096] S2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S256x2048_S256x2048_0_0 : (Rect.unit (s := S256x2048) ![0, 0] S256x2048.size inb_S256x2048_S256x2048_0_0).PackedRows (EltTy.packing .bf16)
  pads_S5324x2048_S5376x2048_0520_000 : S5324x2048.Pads (![0, 0] : Fin 2 → Nat) ![52, 0] ![0, 0] S5376x2048
  h_S_ : 0 < S_.numel
  pads_S2048x5324_S2048x5376_000_0520 : S2048x5324.Pads (![0, 0] : Fin 2 → Nat) ![0, 52] ![0, 0] S2048x5376
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S384x2048_S384x2048_0_0 : ∀ a, (![0, 0] : Fin 2 → Nat) a + S384x2048.size a ≤ S384x2048.size a
  h_S384x2048 : 0 < S384x2048.numel
  shapeCasts_S384x2048_S384x2048 : S384x2048.ShapeCasts S384x2048
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  dot_S256x2048_S2048x2048_S256x2048_1_1_0_0_n_n_wf : DotDims.WF S256x2048 S2048x2048 S256x2048 [1] [1] [0] [0] [] []
  dot_S512x2048_S384x2048_S512x384_1_1_0_0_n_n_wf : DotDims.WF S512x2048 S384x2048 S512x384 [1] [1] [0] [0] [] []
  dot_S512x384_S2048x384_S512x2048_1_1_0_0_n_n_wf : DotDims.WF S512x384 S2048x384 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S16384x2048.size a
  hwx0_8 : ∀ i : grid0.Coords, EltTy.bits .f32 = 32 ∨ (Rect.block (s := S16384x2048) S256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S16384x2048.size a
  hwx0_9 : ∀ i : grid0.Coords, EltTy.bits .bf16 = 32 ∨ (Rect.block (s := S16384x2048) S256x2048.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .bf16 = 32 ∨ (Rect.block (s := S16384x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S384x2048.size a ≤ S5376x2048.size a
  hwx1_2 : ∀ i : grid1.Coords, EltTy.bits .bf16 = 32 ∨ (Rect.block (s := S5376x2048) S384x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S384x2048.size a ≤ S5376x2048.size a
  hwx1_3 : ∀ i : grid1.Coords, EltTy.bits .bf16 = 32 ∨ (Rect.block (s := S5376x2048) S384x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x384.size a ≤ S2048x5376.size a
  hwx1_4 : ∀ i : grid1.Coords, EltTy.bits .bf16 = 32 ∨ (Rect.block (s := S2048x5376) S2048x384.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S16384x2048.size a
  hwx1_5 : ∀ i : grid1.Coords, EltTy.bits .f32 = 32 ∨ (Rect.block (s := S16384x2048) S512x2048.size (cc1_transform_5 i) (hinb1_5 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S384x2048_S512x384_1_1_0_0_n_n : DotDims S512x2048 S384x2048 S512x384 where
  lhsContracting := [1]
  rhsContracting := [1]
  lhsNonContracting := [0]
  rhsNonContracting := [0]
  lhsBatch := []
  rhsBatch := []
  wf := dot_S512x2048_S384x2048_S512x384_1_1_0_0_n_n_wf
def dot_S512x384_S2048x384_S512x2048_1_1_0_0_n_n : DotDims S512x384 S2048x384 S512x2048 where
  lhsContracting := [1]
  rhsContracting := [1]
  lhsNonContracting := [0]
  rhsNonContracting := [0]
  lhsBatch := []
  rhsBatch := []
  wf := dot_S512x384_S2048x384_S512x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S256x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8_1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S384x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S384x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2048x384.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x2048 : Shape := ⟨2, ![16384, 2048]⟩
abbrev S2048 : Shape := ⟨1, ![2048]⟩
abbrev S6144x2048 : Shape := ⟨2, ![6144, 2048]⟩
abbrev S6144 : Shape := ⟨1, ![6144]⟩
abbrev S2048x2048 : Shape := ⟨2, ![2048, 2048]⟩
abbrev S5324x2048 : Shape := ⟨2, ![5324, 2048]⟩
abbrev S2048x5324 : Shape := ⟨2, ![2048, 5324]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5324 : Shape := ⟨2, ![16384, 5324]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S6144x2048, .f32⟩
  | .hbm, ⟨5, _⟩ => ⟨S6144, .f32⟩
  | .hbm, ⟨6, _⟩ => ⟨S2048x2048, .f32⟩
  | .hbm, ⟨7, _⟩ => ⟨S2048, .f32⟩
  | .hbm, ⟨8, _⟩ => ⟨S5324x2048, .f32⟩
  | .hbm, ⟨9, _⟩ => ⟨S5324x2048, .f32⟩
  | .hbm, ⟨10, _⟩ => ⟨S2048x5324, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S2048x2048, .f32⟩
  | .hbm, ⟨29, _⟩ => ⟨S2048, .f32⟩
  | .hbm, ⟨30, _⟩ => ⟨S2048x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S2048x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S2048x5324, .f32⟩
  | .hbm, ⟨58, _⟩ => ⟨S16384x5324, .f32⟩
  | .hbm, ⟨59, _⟩ => ⟨S16384x5324, .f32⟩
  | .hbm, ⟨60, _⟩ => ⟨S16384x5324, .f32⟩
  | .hbm, ⟨61, _⟩ => ⟨S_, .f32⟩
  | .hbm, ⟨62, _⟩ => ⟨S16384x5324, .f32⟩
  | .hbm, ⟨63, _⟩ => ⟨S16384x5324, .f32⟩
  | .hbm, ⟨64, _⟩ => ⟨S_, .f32⟩
  | .hbm, ⟨65, _⟩ => ⟨S16384x5324, .f32⟩
  | .hbm, ⟨66, _⟩ => ⟨S16384x5324, .f32⟩
  | .hbm, ⟨67, _⟩ => ⟨S16384x5324, .f32⟩
  | .hbm, ⟨68, _⟩ => ⟨S2048x5324, .f32⟩
  | .hbm, ⟨69, _⟩ => ⟨S16384x5324, .f32⟩
  | .hbm, ⟨70, _⟩ => ⟨S16384x5324, .f32⟩
  | .hbm, ⟨71, _⟩ => ⟨S5324x2048, .f32⟩
  | .hbm, ⟨72, _⟩ => ⟨S16384x2048, .f32⟩
  | .hbm, ⟨73, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S6144x2048_S2048x2048_4096_0 : S6144x2048.Slices ![4096, 0] S2048x2048
  slices_S6144_S2048_4096 : S6144.Slices ![4096] S2048
  transposes_S2048x2048_S2048x2048_1_0 : S2048x2048.Transposes [1, 0] S2048x2048
  transposes_S5324x2048_S2048x5324_1_0 : S5324x2048.Transposes [1, 0] S2048x5324
  bcast_S_S16384x5324 : S_.BroadcastsInDim S16384x5324 (![] : Fin 0 → Fin S16384x5324.rank)
  transposes_S2048x5324_S5324x2048_1_0 : S2048x5324.Transposes [1, 0] S5324x2048
  dot_S16384x2048_S2048x2048_S16384x2048_1_0_0_1_n_n_wf : DotDims.WF S16384x2048 S2048x2048 S16384x2048 [1] [0] [0] [1] [] []
  dot_S16384x2048_S2048x5324_S16384x5324_1_0_0_1_n_n_wf : DotDims.WF S16384x2048 S2048x5324 S16384x5324 [1] [0] [0] [1] [] []
  dot_S16384x5324_S5324x2048_S16384x2048_1_0_0_1_n_n_wf : DotDims.WF S16384x5324 S5324x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x5324_S16384x5324_1_0_0_1_n_n : DotDims S16384x2048 S2048x5324 S16384x5324 where
  lhsContracting := [1]
  rhsContracting := [0]
  lhsNonContracting := [0]
  rhsNonContracting := [1]
  lhsBatch := []
  rhsBatch := []
  wf := dot_S16384x2048_S2048x5324_S16384x5324_1_0_0_1_n_n_wf
def dot_S16384x5324_S5324x2048_S16384x2048_1_0_0_1_n_n : DotDims S16384x5324 S5324x2048 S16384x2048 where
  lhsContracting := [1]
  rhsContracting := [0]
  lhsNonContracting := [0]
  rhsNonContracting := [1]
  lhsBatch := []
  rhsBatch := []
  wf := dot_S16384x5324_S5324x2048_S16384x2048_1_0_0_1_n_n_wf

class Facts : Prop extends Facts₀ where

variable [Facts]
-- ==== Proof.KAttn.lean ====
/-
  The attention body at one grid point, as a statement about memory.

  The body reads eight blocks — a 256-row block of `x` and of `state`, the gain row, the value projection's matrix and
  bias row, the output projection's matrix and bias row, the second gain row — and stores two: the 256 rows after the
  attention half (`attnRes`) and the same rows re-scaled (`attnMid`). Both are whole-block stores of a pure term of
  the eight loads, so each output buffer ends holding that term, whatever it held before. The pipeline's account of
  the region follows from that: an input's buffer holds its block at every point, an output's what the body stored,
  nothing is carried from point to point. Everything is stated for the contents `V` the region is entered with.
-/
import proofs.«148756_j8615704396127_1_alg».proof.Proof.Gen.Kernel.Launch
import proofs.«148756_j8615704396127_1_alg».proof.Proof.Gen.Kernel.Skeleton
import proofs.«148756_j8615704396127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at grid point `t`, cut out of its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is read where the pipeline left it: whether or not point `t` fetched it, its current
    staging buffer holds its block at `t` (unfetched, the block index has not moved since the fetch). -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
/-- Input window 1 is read where the pipeline left it: whether or not point `t` fetched it, its current
    staging buffer holds its block at `t` (unfetched, the block index has not moved since the fetch). -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
/-- Input window 2 is read where the pipeline left it: whether or not point `t` fetched it, its current
    staging buffer holds its block at `t` (unfetched, the block index has not moved since the fetch). -/
theorem held0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)
/-- Input window 3 is read where the pipeline left it: whether or not point `t` fetched it, its current
    staging buffer holds its block at `t` (unfetched, the block index has not moved since the fetch). -/
theorem held0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)
/-- Input window 4 is read where the pipeline left it: whether or not point `t` fetched it, its current
    staging buffer holds its block at `t` (unfetched, the block index has not moved since the fetch). -/
theorem held0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)
/-- Input window 5 is read where the pipeline left it: whether or not point `t` fetched it, its current
    staging buffer holds its block at `t` (unfetched, the block index has not moved since the fetch). -/
theorem held0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)
/-- Input window 6 is read where the pipeline left it: whether or not point `t` fetched it, its current
    staging buffer holds its block at `t` (unfetched, the block index has not moved since the fetch). -/
theorem held0_6_of {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)
/-- Input window 7 is read where the pipeline left it: whether or not point `t` fetched it, its current
    staging buffer holds its block at `t` (unfetched, the block index has not moved since the fetch). -/
theorem held0_7_of {c : Dev nD} (dat : Dat τ (Elt F) Unit ℕ (UR sig nD τ) ℕ cfg0 c) (hA : dat.A 7 = V c (Pipeline.arrRef spec0 7))
    (hafter : ∀ t, dat.after 7 t = blockAt0 V c 7 t) (t : Fin cfg0.N) (d) : dat.before 7 t d = blockAt0 V c 7 t :=
  (dat.before_in_eq_fetched 7 rfl (fun _ => rfl) (fun _ _ _ => rfl) (fun t => by rw [hafter]; unfold Dat.blockOf blockAt0; rw [hA]; try rfl) t d).trans
    (by unfold Dat.fetched Dat.blockOf blockAt0; rw [hA]; try rfl)

/-! ## What the body stores -/

/-- Every access of the body is of a whole buffer. -/
abbrev whole256 : Rect S256x2048 := Rect.unit (s := S256x2048) ![0, 0] S256x2048.size inb_S256x2048_S256x2048_0_0
abbrev whole1 : Rect S1x2048 := Rect.unit (s := S1x2048) ![0, 0] S1x2048.size inb_S1x2048_S1x2048_0_0
abbrev wholeSq : Rect S2048x2048 := Rect.unit (s := S2048x2048) ![0, 0] S2048x2048.size inb_S2048x2048_S2048x2048_0_0

/-- The 256 rows after the attention half, from the seven blocks they depend on. -/
def attnResTerm (x0 x1 : Vec F S256x2048 .f32) (x2 : Vec F S1x2048 .f32) (x3 : Vec F S2048x2048 .bf16) (x4 : Vec F S1x2048 .f32)
    (x5 : Vec F S2048x2048 .bf16) (x6 : Vec F S1x2048 .f32) : FVec F S256x2048 .f32 :=
  k0_pay2 (View.ld x0 whole256) (View.ld x1 whole256) (View.ld x2 whole1) (View.ld x3 wholeSq) (View.ld x4 whole1) (View.ld x5 wholeSq) (View.ld x6 whole1)

/-- What the first output's buffer holds after the body: its one store, of the rows after the attention half. -/
def attnRes (x0 x1 : Vec F S256x2048 .f32) (x2 : Vec F S1x2048 .f32) (x3 : Vec F S2048x2048 .bf16) (x4 : Vec F S1x2048 .f32)
    (x5 : Vec F S2048x2048 .bf16) (x6 : Vec F S1x2048 .f32) : Vec F S256x2048 .f32 :=
  View.canon [⟨whole256, attnResTerm x0 x1 x2 x3 x4 x5 x6⟩]

/-- What the second output's buffer holds after the body: its one store, of those rows re-scaled with the second gain. -/
def attnMid (x0 x1 : Vec F S256x2048 .f32) (x2 : Vec F S1x2048 .f32) (x3 : Vec F S2048x2048 .bf16) (x4 : Vec F S1x2048 .f32)
    (x5 : Vec F S2048x2048 .bf16) (x6 x7 : Vec F S1x2048 .f32) : Vec F S256x2048 .bf16 :=
  View.canon [⟨whole256, k0_pay1 (attnResTerm x0 x1 x2 x3 x4 x5 x6) (k0_pay3 (View.ld x7 whole1))
    (k0_pay4 (View.ld x0 whole256) (View.ld x1 whole256) (View.ld x2 whole1) (View.ld x3 wholeSq) (View.ld x4 whole1) (View.ld x5 wholeSq) (View.ld x6 whole1))⟩]

/-- One store of the whole block covers the block. -/
theorem cover_f32 (p0 : Vec F S256x2048 .f32) (y : S256x2048.Idx) :
    ∃ pc ∈ ([⟨whole256, p0⟩] : List (View.Piece (Elt F) S256x2048 .f32)), y ∈ pc.1.set :=
  View.cover_of_tiled [⟨whole256, p0⟩] S256x2048.size (by rfl) y
theorem cover_bf16 (p0 : Vec F S256x2048 .bf16) (y : S256x2048.Idx) :
    ∃ pc ∈ ([⟨whole256, p0⟩] : List (View.Piece (Elt F) S256x2048 .bf16)), y ∈ pc.1.set :=
  View.cover_of_tiled [⟨whole256, p0⟩] S256x2048.size (by rfl) y

/-! ## The body's triple -/

set_option maxHeartbeats 4000000 in
/-- On whole buffers, the inputs' at known contents and the outputs' at anything, the body runs to its end, gives the
    inputs back as they were and leaves the outputs at `attnRes` and `attnMid` of the inputs. -/
theorem attn_triple (c : Dev nD) (E : Set ℕ) (i : grid0.Coords) (a0 : Memref sig .tc .vmem S256x2048 .f32) (ha0 : a0.IsWhole) (a1 : Memref sig .tc .vmem S256x2048 .f32) (ha1 : a1.IsWhole) (a2 : Memref sig .tc .vmem S1x2048 .f32) (ha2 : a2.IsWhole) (a3 : Memref sig .tc .vmem S2048x2048 .bf16) (ha3 : a3.IsWhole) (a4 : Memref sig .tc .vmem S1x2048 .f32) (ha4 : a4.IsWhole) (a5 : Memref sig .tc .vmem S2048x2048 .bf16) (ha5 : a5.IsWhole) (a6 : Memref sig .tc .vmem S1x2048 .f32) (ha6 : a6.IsWhole) (a7 : Memref sig .tc .vmem S1x2048 .f32) (ha7 : a7.IsWhole) (a8 : Memref sig .tc .vmem S256x2048 .f32) (ha8 : a8.IsWhole) (a9 : Memref sig .tc .vmem S256x2048 .bf16) (ha9 : a9.IsWhole)
    (x0 : Vec F S256x2048 .f32) (x1 : Vec F S256x2048 .f32) (x2 : Vec F S1x2048 .f32) (x3 : Vec F S2048x2048 .bf16) (x4 : Vec F S1x2048 .f32) (x5 : Vec F S2048x2048 .bf16) (x6 : Vec F S1x2048 .f32) (x7 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (attnRes x0 x1 x2 x3 x4 x5 x6)
            ∗ owns (c : Thread nD τ) a9 fullShare (attnMid x0 x1 x2 x3 x4 x5 x6 x7)) -∗ K ⟨⟩))
      ⊢ wp frame (wpE (defs₀ (F := F)) Variants.none c none) E (cc0__attn_kernel i a0 ha0 a1 ha1 a2 ha2 a3 ha3 a4 ha4 a5 ha5 a6 ha6 a7 ha7 a8 ha8 a9 ha9) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_f32 _)
  iexists _; isplitr
  swap; · iexact H9
  ipureintro
  try dsimp only
  exact View.read_writes_eq_canon _ _ _ (cover_bf16 _)

/-! ## The pipeline's account of the region -/

/-- Region 0 on core `c`: the arrays as the region finds them; after the body at point `t` an input's buffer holds its
    block and an output's what the body stored there; nothing but the untouched scoped buffers and the generator
    register is kept between points; nothing is owed. -/
def attnDat (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => blockAt0 V c 7 t
    | ⟨8, _⟩ => attnRes (blockAt0 V c 0 t) (blockAt0 V c 1 t) (blockAt0 V c 2 t) (blockAt0 V c 3 t) (blockAt0 V c 4 t) (blockAt0 V c 5 t) (blockAt0 V c 6 t)
    | ⟨9, _⟩ => attnMid (blockAt0 V c 0 t) (blockAt0 V c 1 t) (blockAt0 V c 2 t) (blockAt0 V c 3 t) (blockAt0 V c 4 t) (blockAt0 V c 5 t) (blockAt0 V c 6 t) (blockAt0 V c 7 t)
  Φ _ := Pipeline.ΦA spec0 c
  q _ := fullShare
  owed _ := 0

theorem attnDat_A (c : Dev nD) (w : Fin cfg0.W) : (attnDat V c).A w = V c (Pipeline.arrRef spec0 w) := by
  dsimp only [attnDat]

theorem attnDat_after_0 (c : Dev nD) (t : Fin cfg0.N) : (attnDat V c).after 0 t = blockAt0 V c 0 t := by dsimp only [attnDat]
theorem attnDat_after_1 (c : Dev nD) (t : Fin cfg0.N) : (attnDat V c).after 1 t = blockAt0 V c 1 t := by dsimp only [attnDat]
theorem attnDat_after_2 (c : Dev nD) (t : Fin cfg0.N) : (attnDat V c).after 2 t = blockAt0 V c 2 t := by dsimp only [attnDat]
theorem attnDat_after_3 (c : Dev nD) (t : Fin cfg0.N) : (attnDat V c).after 3 t = blockAt0 V c 3 t := by dsimp only [attnDat]
theorem attnDat_after_4 (c : Dev nD) (t : Fin cfg0.N) : (attnDat V c).after 4 t = blockAt0 V c 4 t := by dsimp only [attnDat]
theorem attnDat_after_5 (c : Dev nD) (t : Fin cfg0.N) : (attnDat V c).after 5 t = blockAt0 V c 5 t := by dsimp only [attnDat]
theorem attnDat_after_6 (c : Dev nD) (t : Fin cfg0.N) : (attnDat V c).after 6 t = blockAt0 V c 6 t := by dsimp only [attnDat]
theorem attnDat_after_7 (c : Dev nD) (t : Fin cfg0.N) : (attnDat V c).after 7 t = blockAt0 V c 7 t := by dsimp only [attnDat]
theorem attnDat_after_8 (c : Dev nD) (t : Fin cfg0.N) : (attnDat V c).after 8 t = attnRes (blockAt0 V c 0 t) (blockAt0 V c 1 t) (blockAt0 V c 2 t) (blockAt0 V c 3 t) (blockAt0 V c 4 t) (blockAt0 V c 5 t) (blockAt0 V c 6 t) := by dsimp only [attnDat]
theorem attnDat_after_9 (c : Dev nD) (t : Fin cfg0.N) : (attnDat V c).after 9 t = attnMid (blockAt0 V c 0 t) (blockAt0 V c 1 t) (blockAt0 V c 2 t) (blockAt0 V c 3 t) (blockAt0 V c 4 t) (blockAt0 V c 5 t) (blockAt0 V c 6 t) (blockAt0 V c 7 t) := by dsimp only [attnDat]

theorem held0_0 (c : Dev nD) (t : Fin cfg0.N) (d) : (attnDat V c).before 0 t d = blockAt0 V c 0 t :=
  held0_0_of V (attnDat V c) (attnDat_A V c 0) (attnDat_after_0 V c) t d
theorem held0_1 (c : Dev nD) (t : Fin cfg0.N) (d) : (attnDat V c).before 1 t d = blockAt0 V c 1 t :=
  held0_1_of V (attnDat V c) (attnDat_A V c 1) (attnDat_after_1 V c) t d
theorem held0_2 (c : Dev nD) (t : Fin cfg0.N) (d) : (attnDat V c).before 2 t d = blockAt0 V c 2 t :=
  held0_2_of V (attnDat V c) (attnDat_A V c 2) (attnDat_after_2 V c) t d
theorem held0_3 (c : Dev nD) (t : Fin cfg0.N) (d) : (attnDat V c).before 3 t d = blockAt0 V c 3 t :=
  held0_3_of V (attnDat V c) (attnDat_A V c 3) (attnDat_after_3 V c) t d
theorem held0_4 (c : Dev nD) (t : Fin cfg0.N) (d) : (attnDat V c).before 4 t d = blockAt0 V c 4 t :=
  held0_4_of V (attnDat V c) (attnDat_A V c 4) (attnDat_after_4 V c) t d
theorem held0_5 (c : Dev nD) (t : Fin cfg0.N) (d) : (attnDat V c).before 5 t d = blockAt0 V c 5 t :=
  held0_5_of V (attnDat V c) (attnDat_A V c 5) (attnDat_after_5 V c) t d
theorem held0_6 (c : Dev nD) (t : Fin cfg0.N) (d) : (attnDat V c).before 6 t d = blockAt0 V c 6 t :=
  held0_6_of V (attnDat V c) (attnDat_A V c 6) (attnDat_after_6 V c) t d
theorem held0_7 (c : Dev nD) (t : Fin cfg0.N) (d) : (attnDat V c).before 7 t d = blockAt0 V c 7 t :=
  held0_7_of V (attnDat V c) (attnDat_A V c 7) (attnDat_after_7 V c) t d

/-! ## The body obligation -/

/-- What the pipeline calls the body with at point `t`, window by window, -/
def attnPre (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d))
    ∗ (∃ d, owns (c : Thread nD τ) (st0_4 t) fullShare ((attnDat V c).before 4 t d))
    ∗ (∃ d, owns (c : Thread nD τ) (st0_5 t) fullShare ((attnDat V c).before 5 t d))
    ∗ (∃ d, owns (c : Thread nD τ) (st0_6 t) fullShare ((attnDat V c).before 6 t d))
    ∗ (∃ d, owns (c : Thread nD τ) (st0_7 t) fullShare ((attnDat V c).before 7 t d))
    ∗ (∃ d, owns (c : Thread nD τ) (st0_8 t) fullShare ((attnDat V c).before 8 t d))
    ∗ (∃ d, owns (c : Thread nD τ) (st0_9 t) fullShare ((attnDat V c).before 9 t d)))

/-- and what it expects back. -/
def attnPost (c : Dev nD) (t : Fin cfg0.N) : sProp 𝕄 :=
  iprop((attnDat V c).Φ t.succ ∗ (attnDat V c).owesAt () t.succ
    ∗ owns (c : Thread nD τ) (st0_0 t) fullShare ((attnDat V c).after 0 t)
    ∗ owns (c : Thread nD τ) (st0_1 t) fullShare ((attnDat V c).after 1 t)
    ∗ owns (c : Thread nD τ) (st0_2 t) fullShare ((attnDat V c).after 2 t)
    ∗ owns (c : Thread nD τ) (st0_3 t) fullShare ((attnDat V c).after 3 t)
    ∗ owns (c : Thread nD τ) (st0_4 t) fullShare ((attnDat V c).after 4 t)
    ∗ owns (c : Thread nD τ) (st0_5 t) fullShare ((attnDat V c).after 5 t)
    ∗ owns (c : Thread nD τ) (st0_6 t) fullShare ((attnDat V c).after 6 t)
    ∗ owns (c : Thread nD τ) (st0_7 t) fullShare ((attnDat V c).after 7 t)
    ∗ owns (c : Thread nD τ) (st0_8 t) fullShare ((attnDat V c).after 8 t)
    ∗ owns (c : Thread nD τ) (st0_9 t) fullShare ((attnDat V c).after 9 t))

set_option maxHeartbeats 2000000 in
/-- At any point the inputs' buffers hold their blocks, so the triple applies; what is kept between points and what is
    owed pass through untouched. -/
theorem attn_point (c : Dev nD) (t : Fin cfg0.N) :
    attnPre V c t ⊢ wp frame (wpE (defs₀ (F := F)) Variants.none c none) Set.univ (bodyAt0 t) (fun _ => attnPost V c t) := by
  unfold attnPre attnPost bodyAt0
  simp only [held0_0, held0_1, held0_2, held0_3, held0_4, held0_5, held0_6, held0_7]
  rw [show (attnDat V c).Φ t.succ = (attnDat V c).Φ t.castSucc from rfl,
    show (attnDat V c).owesAt () t.succ = (attnDat V c).owesAt () t.castSucc from rfl,
    attnDat_after_0, attnDat_after_1, attnDat_after_2, attnDat_after_3, attnDat_after_4, attnDat_after_5, attnDat_after_6, attnDat_after_7,
    attnDat_after_8, attnDat_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (attn_triple c Set.univ _ _ _ _ _ _ _ _ _ _ _ _ _ _ _ _ _ _ _ _ _ (blockAt0 V c 0 t) (blockAt0 V c 1 t) (blockAt0 V c 2 t) (blockAt0 V c 3 t) (blockAt0 V c 4 t) (blockAt0 V c 5 t) (blockAt0 V c 6 t) (blockAt0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 0, at every point. -/
theorem attn_obligation (c : Dev nD) : BodyObligation (attnDat (F := F) V c) (defs₀ (F := F)) Variants.none () Set.univ := fun t => by
  rw [bigSep_W0, bigSep_W0]
  exact attn_point V c t

end Cert.Kernel.Hand

end
-- ==== Proof.KFfn.lean ====
/-
  The feed-forward body at one grid point, as a statement about memory, and what it carries from point to point.

  The grid is 32 row blocks by 14 hidden tiles, the tile index running fastest. At a point the body adds, into a
  scratch accumulator of 512 rows, the contribution of one tile of 384 hidden numbers: the two hidden projections
  of the re-scaled rows against the tile's rows of the two weight matrices, gated, times the tile's columns of the
  third. At a row block's first tile the accumulator is first set to zero; at its last tile the accumulator plus
  the residual rows is stored to the output block, which the pipeline then writes back — at the other tiles the
  output's buffer is not touched and not written back. So there are three cases of the body (first, middle, last
  tile), and the scratch after point `n` is a function of the blocks seen so far (`ffnAcc`): zero plus the tiles
  of the current row block up to `n`. The region's invariant names the scratch at that function.
-/
import proofs.«148756_j8615704396127_1_alg».proof.Proof.Gen.Kernel.Launch
import proofs.«148756_j8615704396127_1_alg».proof.Proof.Gen.Kernel.Skeleton
import proofs.«148756_j8615704396127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at grid point `t`, cut out of its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is read where the pipeline left it: its current staging buffer holds its block at `t`, fetched there or not. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
/-- Input window 1 is read where the pipeline left it: its current staging buffer holds its block at `t`, fetched there or not. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
/-- Input window 2 is read where the pipeline left it: its current staging buffer holds its block at `t`, fetched there or not. -/
theorem held1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)
/-- Input window 3 is read where the pipeline left it: its current staging buffer holds its block at `t`, fetched there or not. -/
theorem held1_3_of {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)
/-- Input window 4 is read where the pipeline left it: its current staging buffer holds its block at `t`, fetched there or not. -/
theorem held1_4_of {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

/-! ## The tile's position, from the grid point -/

/-- The body's first test: the tile index is 0. -/
abbrev isFirst (i : grid1.Coords) : Prop := (Scalar.cmpi .ne (Scalar.extui (Scalar.cmpi .eq (BitVec.ofNat 32 (i 1).val) 0#32)) 0#32) = 1#1
/-- The body's second test: the tile index is 13. -/
abbrev isLast (i : grid1.Coords) : Prop := k1_cond2 i = 1#1

/-- In the order the grid is walked, the first tiles are the points ≡ 0 and the last tiles the points ≡ 13 (mod 14). -/
theorem first_iff : ∀ t : Fin cfg1.N, isFirst (grid1.coords t) ↔ t.val % 14 = 0 :=
  (by decide +kernel : ∀ t : Fin grid1.N, isFirst (grid1.coords t) ↔ t.val % 14 = 0)
theorem last_iff : ∀ t : Fin cfg1.N, isLast (grid1.coords t) ↔ t.val % 14 = 13 :=
  (by decide +kernel : ∀ t : Fin grid1.N, isLast (grid1.coords t) ↔ t.val % 14 = 13)

/-- The inputs are staged at every point; the output's buffer is in use exactly at the last tiles, and only there is
    it written back. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem idle1_5 : ∀ t : Fin cfg1.N, ¬isLast (grid1.coords t) → cfg1.idle 5 (grid1.coords t) = true := by decide +kernel
theorem noflush1_5 : ∀ t : Fin cfg1.N, ¬isLast (grid1.coords t) → (cfg1.win 5).flush t = false := by decide +kernel
theorem live1_5 : ∀ t : Fin cfg1.N, isLast (grid1.coords t) → cfg1.idle 5 (grid1.coords t) = false := by decide +kernel

/-! ## The body's three cases -/

/-- Every access of the body is of a whole buffer at offset zero. -/
theorem off0 : (![0, 0] : Fin 2 → Nat) = fun _ => 0 := by funext a; fin_cases a <;> rfl

/-- One store of the whole block covers the block, also when an earlier whole store lies under it. -/
theorem cover1 (p0 : Vec F S512x2048 .f32) (y : S512x2048.Idx) :
    ∃ pc ∈ ([⟨Rect.unit (s := S512x2048) ![0, 0] S512x2048.size inb_S512x2048_S512x2048_0_0, p0⟩] : List (View.Piece (Elt F) S512x2048 .f32)), y ∈ pc.1.set :=
  ⟨_, List.mem_singleton_self _, View.mem_set_unit_zero off0 inb_S512x2048_S512x2048_0_0 y⟩
theorem cover2 (p0 p1 : Vec F S512x2048 .f32) (y : S512x2048.Idx) :
    ∃ pc ∈ ([⟨Rect.unit (s := S512x2048) ![0, 0] S512x2048.size inb_S512x2048_S512x2048_0_0, p0⟩,
        ⟨Rect.unit (s := S512x2048) ![0, 0] S512x2048.size inb_S512x2048_S512x2048_0_0, p1⟩] : List (View.Piece (Elt F) S512x2048 .f32)), y ∈ pc.1.set :=
  ⟨_, List.mem_cons_self .., View.mem_set_unit_zero off0 inb_S512x2048_S512x2048_0_0 y⟩

set_option maxHeartbeats 4000000 in
/-- FIRST TILE. The scratch, whatever it held, ends at the tile's contribution added to zero; the output's buffer is not
    touched. -/
theorem ffn_first (c : Dev nD) (E : Set ℕ) (i : grid1.Coords) (a2 : Memref sig .tc .vmem S512x2048 .bf16) (ha2 : a2.IsWhole) (a3 : Memref sig .tc .vmem S512x2048 .f32) (ha3 : a3.IsWhole)
    (a4 : Memref sig .tc .vmem S384x2048 .bf16) (ha4 : a4.IsWhole) (a5 : Memref sig .tc .vmem S384x2048 .bf16) (ha5 : a5.IsWhole)
    (a6 : Memref sig .tc .vmem S2048x384 .bf16) (ha6 : a6.IsWhole) (a7 : Memref sig .tc .vmem S512x2048 .f32) (ha7 : a7.IsWhole)
    (a8 : Memref sig .tc .vmem S512x2048 .f32) (ha8 : a8.IsWhole)
    (hc0 : isFirst i) (hc1 : ¬isLast i) (x0 : Vec F S512x2048 .bf16) (x1 : Vec F S512x2048 .f32) (x2 x3 : Vec F S384x2048 .bf16) (x4 : Vec F S2048x384 .bf16) (y : Vec F S512x2048 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y ∗ (∃ d, owns (c : Thread nD τ) a8 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y
            ∗ owns (c : Thread nD τ) a8 fullShare (k1_pay2 x0 x2 x3 x4 (k1_pay1 (F := F)))) -∗ K ⟨⟩))
      ⊢ wp frame (wpE (defs₀ (F := F)) Variants.none c none) E (cc1__ffn_kernel i a2 ha2 a3 ha3 a4 ha4 a5 ha5 a6 ha6 a7 ha7 a8 ha8) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%ds, %fs, -, HS⟩, Hk⟩
  subst hf0 hf1 hf2 hf3 hf4 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact HS
  ipureintro
  sl_unfold_words
  rw [View.read_writes_eq_canon _ _ _ (cover2 _ _), View.canon_cons_unit_zero off0, View.readCov_unit_zero _ off0]
  simp only [View.readAt_eq_ld, View.ld_unit_zero (S := S512x2048) off0, View.ld_unit_zero (S := S384x2048) off0, View.ld_unit_zero (S := S2048x384) off0]

set_option maxHeartbeats 4000000 in
/-- MIDDLE TILE. The scratch at `xs` ends at `xs` plus the tile's contribution; the output's buffer is not touched. -/
theorem ffn_mid (c : Dev nD) (E : Set ℕ) (i : grid1.Coords) (a2 : Memref sig .tc .vmem S512x2048 .bf16) (ha2 : a2.IsWhole) (a3 : Memref sig .tc .vmem S512x2048 .f32) (ha3 : a3.IsWhole)
    (a4 : Memref sig .tc .vmem S384x2048 .bf16) (ha4 : a4.IsWhole) (a5 : Memref sig .tc .vmem S384x2048 .bf16) (ha5 : a5.IsWhole)
    (a6 : Memref sig .tc .vmem S2048x384 .bf16) (ha6 : a6.IsWhole) (a7 : Memref sig .tc .vmem S512x2048 .f32) (ha7 : a7.IsWhole)
    (a8 : Memref sig .tc .vmem S512x2048 .f32) (ha8 : a8.IsWhole)
    (hc0 : ¬isFirst i) (hc1 : ¬isLast i) (x0 : Vec F S512x2048 .bf16) (x1 : Vec F S512x2048 .f32) (x2 x3 : Vec F S384x2048 .bf16) (x4 : Vec F S2048x384 .bf16) (y xs : Vec F S512x2048 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y ∗ owns (c : Thread nD τ) a8 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y
            ∗ owns (c : Thread nD τ) a8 fullShare (k1_pay2 x0 x2 x3 x4 xs)) -∗ K ⟨⟩))
      ⊢ wp frame (wpE (defs₀ (F := F)) Variants.none c none) E (cc1__ffn_kernel i a2 ha2 a3 ha3 a4 ha4 a5 ha5 a6 ha6 a7 ha7 a8 ha8) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%fs, %hfs, HS⟩, Hk⟩
  subst hf0 hf1 hf2 hf3 hf4 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact HS
  ipureintro
  sl_unfold_words
  rw [View.read_writes_eq_canon _ _ _ (cover1 _), View.canon_unit_zero off0]
  simp only [View.readAt_eq_ld, View.ld_unit_zero (S := S512x2048) off0, View.ld_unit_zero (S := S384x2048) off0, View.ld_unit_zero (S := S2048x384) off0]

set_option maxHeartbeats 4000000 in
/-- LAST TILE. The scratch at `xs` ends at `xs` plus the tile's contribution, and the output's buffer, whatever it held,
    at that plus the residual rows. -/
theorem ffn_last (c : Dev nD) (E : Set ℕ) (i : grid1.Coords) (a2 : Memref sig .tc .vmem S512x2048 .bf16) (ha2 : a2.IsWhole) (a3 : Memref sig .tc .vmem S512x2048 .f32) (ha3 : a3.IsWhole)
    (a4 : Memref sig .tc .vmem S384x2048 .bf16) (ha4 : a4.IsWhole) (a5 : Memref sig .tc .vmem S384x2048 .bf16) (ha5 : a5.IsWhole)
    (a6 : Memref sig .tc .vmem S2048x384 .bf16) (ha6 : a6.IsWhole) (a7 : Memref sig .tc .vmem S512x2048 .f32) (ha7 : a7.IsWhole)
    (a8 : Memref sig .tc .vmem S512x2048 .f32) (ha8 : a8.IsWhole)
    (hc0 : ¬isFirst i) (hc1 : isLast i) (x0 : Vec F S512x2048 .bf16) (x1 : Vec F S512x2048 .f32) (x2 x3 : Vec F S384x2048 .bf16) (x4 : Vec F S2048x384 .bf16) (xs : Vec F S512x2048 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ (∃ d, owns (c : Thread nD τ) a7 fullShare d) ∗ owns (c : Thread nD τ) a8 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare (k1_pay3 (k1_pay2 x0 x2 x3 x4 xs) x1)
            ∗ owns (c : Thread nD τ) a8 fullShare (k1_pay2 x0 x2 x3 x4 xs)) -∗ K ⟨⟩))
      ⊢ wp frame (wpE (defs₀ (F := F)) Variants.none c none) E (cc1__ffn_kernel i a2 ha2 a3 ha3 a4 ha4 a5 ha5 a6 ha6 a7 ha7 a8 ha8) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%fs, %hfs, HS⟩, Hk⟩
  subst hf0 hf1 hf2 hf3 hf4 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_words
    rw [View.read_writes_eq_canon _ _ _ (cover1 _), View.canon_unit_zero off0, View.readCov_unit_zero _ off0]
    simp only [View.readAt_eq_ld, View.ld_unit_zero (S := S512x2048) off0, View.ld_unit_zero (S := S384x2048) off0, View.ld_unit_zero (S := S2048x384) off0]
  iexists _; isplitr
  swap; · iexact HS
  ipureintro
  sl_unfold_words
  rw [View.read_writes_eq_canon _ _ _ (cover1 _), View.canon_unit_zero off0]
  simp only [View.readAt_eq_ld, View.ld_unit_zero (S := S512x2048) off0, View.ld_unit_zero (S := S384x2048) off0, View.ld_unit_zero (S := S2048x384) off0]

/-! ## What the scratch holds after each point -/

/-- The accumulator after point `n`: the point's tile added to zero at a first tile, to what the point before left
    otherwise. -/
def ffnAcc (c : Dev nD) : (n : ℕ) → n < cfg1.N → Vec F S512x2048 .f32
  | 0, h => k1_pay2 (blockAt1 V c 0 ⟨0, h⟩) (blockAt1 V c 2 ⟨0, h⟩) (blockAt1 V c 3 ⟨0, h⟩) (blockAt1 V c 4 ⟨0, h⟩) (k1_pay1 (F := F))
  | n + 1, h => k1_pay2 (blockAt1 V c 0 ⟨n + 1, h⟩) (blockAt1 V c 2 ⟨n + 1, h⟩) (blockAt1 V c 3 ⟨n + 1, h⟩) (blockAt1 V c 4 ⟨n + 1, h⟩)
      (if (n + 1) % 14 = 0 then k1_pay1 (F := F) else ffnAcc c n (Nat.lt_of_succ_lt h))

theorem ffnAcc_first (c : Dev nD) (t : Fin cfg1.N) (h : t.val % 14 = 0) :
    ffnAcc V c t.val t.isLt = k1_pay2 (blockAt1 V c 0 t) (blockAt1 V c 2 t) (blockAt1 V c 3 t) (blockAt1 V c 4 t) (k1_pay1 (F := F)) := by
  obtain ⟨n, hn⟩ := t
  cases n with
  | zero => rfl
  | succ n => show k1_pay2 _ _ _ _ (if (n + 1) % 14 = 0 then _ else _) = _; rw [if_pos h]

theorem ffnAcc_later (c : Dev nD) (t : Fin cfg1.N) (h : ¬t.val % 14 = 0) :
    ffnAcc V c t.val t.isLt = k1_pay2 (blockAt1 V c 0 t) (blockAt1 V c 2 t) (blockAt1 V c 3 t) (blockAt1 V c 4 t)
      (ffnAcc V c (t.val - 1) (Nat.lt_of_le_of_lt (Nat.sub_le _ _) t.isLt)) := by
  obtain ⟨n, hn⟩ := t
  cases n with
  | zero => exact absurd (Nat.zero_mod _) h
  | succ n => show k1_pay2 _ _ _ _ (if (n + 1) % 14 = 0 then _ else _) = _; rw [if_neg h]; rfl

/-! ## The invariant -/

/-- The scratch as a memref: a whole scoped buffer of the kernel's own. -/
abbrev scratchM : Memref sig .tc .vmem S512x2048 .f32 := Memref.whole cc1_scratch0

/-- The scoped buffers of the core that this region neither stages nor uses (the other region's staging buffers), each
    whole at some contents. -/
def otherScoped (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg9_1), ((c : Thread nD τ).loc cc0_stg9_1) ↦{fullShare} f))

/-- Before point `n`: at the region's entry, every scoped buffer that is no staging buffer of this region at anything;
    afterwards the same with the scratch at what the point before left. The generator register rides along. -/
def ffnInv (c : Dev nD) : (n : ℕ) → n ≤ cfg1.N → sProp 𝕄
  | 0, _ => Pipeline.ΦA spec1 c
  | n + 1, hn => iprop(otherScoped (F := F) c ∗ owns (c : Thread nD τ) scratchM fullShare (ffnAcc V c n hn) ∗ (∃ r, prngReg c r))

theorem ffnInv_succ (c : Dev nD) (n : ℕ) (hn : n < cfg1.N) :
    ffnInv V c (n + 1) hn = iprop(otherScoped (F := F) c ∗ owns (c : Thread nD τ) scratchM fullShare (ffnAcc V c n hn) ∗ (∃ r, prngReg c r)) := rfl

theorem ffnInv_zero (c : Dev nD) (n : ℕ) (h : n ≤ cfg1.N) (hz : n = 0) : ffnInv V c n h = Pipeline.ΦA spec1 c := by
  subst hz; rfl

theorem ffnInv_pos (c : Dev nD) (n : ℕ) (h : n ≤ cfg1.N) (hz : n ≠ 0) :
    ffnInv V c n h = iprop(otherScoped (F := F) c ∗ owns (c : Thread nD τ) scratchM fullShare (ffnAcc V c (n - 1) (by omega)) ∗ (∃ r, prngReg c r)) := by
  cases n with
  | zero => exact absurd rfl hz
  | succ n => rfl

/-- The entry invariant, with the scratch singled out; -/
theorem entry_split (c : Dev nD) :
    (Pipeline.ΦA spec1 c : sProp 𝕄) ⊢ iprop(otherScoped (F := F) c ∗ (∃ d, owns (c : Thread nD τ) scratchM fullShare d) ∗ (∃ r, prngReg c r)) := by
  unfold Pipeline.ΦA otherScoped; rw [scopedRest1_eq]; simp only [owns_whole]
  iintro ⟨⟨A0, A1, A2, A3, A4, A5, A6, A7, A8, A9, A10, A11, A12, A13, HS⟩, Hg⟩
  isplitl [A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [HS]; · iexact HS
  iexact Hg

/-- and back: the scratch's contents forgotten. -/
theorem entry_join (c : Dev nD) :
    iprop(otherScoped (F := F) c ∗ (∃ d, owns (c : Thread nD τ) scratchM fullShare d) ∗ (∃ r, prngReg c r)) ⊢ (Pipeline.ΦA spec1 c : sProp 𝕄) := by
  unfold Pipeline.ΦA otherScoped; rw [scopedRest1_eq]; simp only [owns_whole]
  iintro ⟨⟨A0, A1, A2, A3, A4, A5, A6, A7, A8, A9, A10, A11, A12, A13⟩, HS, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact HS

/-! ## The pipeline's account of the region -/

/-- Region 1 on core `c`: the arrays as the region finds them; after the body an input's buffer holds its block; the
    output's holds the accumulator plus the residual rows (what the last tile stores — at the other tiles the buffer is
    not in use and this is never consulted); between points the invariant names the scratch; nothing is owed. -/
def ffnDat (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => k1_pay3 (ffnAcc V c t.val t.isLt) (blockAt1 V c 1 t)
  Φ t := ffnInv V c t.val (Nat.le_of_lt_succ t.isLt)
  q _ := fullShare
  owed _ := 0

theorem ffnDat_A (c : Dev nD) (w : Fin cfg1.W) : (ffnDat V c).A w = V c (Pipeline.arrRef spec1 w) := by
  dsimp only [ffnDat]

theorem ffnDat_after_0 (c : Dev nD) (t : Fin cfg1.N) : (ffnDat V c).after 0 t = blockAt1 V c 0 t := by dsimp only [ffnDat]
theorem ffnDat_after_1 (c : Dev nD) (t : Fin cfg1.N) : (ffnDat V c).after 1 t = blockAt1 V c 1 t := by dsimp only [ffnDat]
theorem ffnDat_after_2 (c : Dev nD) (t : Fin cfg1.N) : (ffnDat V c).after 2 t = blockAt1 V c 2 t := by dsimp only [ffnDat]
theorem ffnDat_after_3 (c : Dev nD) (t : Fin cfg1.N) : (ffnDat V c).after 3 t = blockAt1 V c 3 t := by dsimp only [ffnDat]
theorem ffnDat_after_4 (c : Dev nD) (t : Fin cfg1.N) : (ffnDat V c).after 4 t = blockAt1 V c 4 t := by dsimp only [ffnDat]
theorem ffnDat_after_5 (c : Dev nD) (t : Fin cfg1.N) : (ffnDat V c).after 5 t = k1_pay3 (ffnAcc V c t.val t.isLt) (blockAt1 V c 1 t) := by dsimp only [ffnDat]

theorem held1_0 (c : Dev nD) (t : Fin cfg1.N) (d) : (ffnDat V c).before 0 t d = blockAt1 V c 0 t :=
  held1_0_of V (ffnDat V c) (ffnDat_A V c 0) (ffnDat_after_0 V c) t d
theorem held1_1 (c : Dev nD) (t : Fin cfg1.N) (d) : (ffnDat V c).before 1 t d = blockAt1 V c 1 t :=
  held1_1_of V (ffnDat V c) (ffnDat_A V c 1) (ffnDat_after_1 V c) t d
theorem held1_2 (c : Dev nD) (t : Fin cfg1.N) (d) : (ffnDat V c).before 2 t d = blockAt1 V c 2 t :=
  held1_2_of V (ffnDat V c) (ffnDat_A V c 2) (ffnDat_after_2 V c) t d
theorem held1_3 (c : Dev nD) (t : Fin cfg1.N) (d) : (ffnDat V c).before 3 t d = blockAt1 V c 3 t :=
  held1_3_of V (ffnDat V c) (ffnDat_A V c 3) (ffnDat_after_3 V c) t d
theorem held1_4 (c : Dev nD) (t : Fin cfg1.N) (d) : (ffnDat V c).before 4 t d = blockAt1 V c 4 t :=
  held1_4_of V (ffnDat V c) (ffnDat_A V c 4) (ffnDat_after_4 V c) t d

theorem ffnDat_Phi_start (c : Dev nD) (t : Fin cfg1.N) :
    (ffnDat V c).Φ t.castSucc = ffnInv V c t.val (Nat.le_of_lt t.isLt) := by
  dsimp only [ffnDat]; simp only [Fin.coe_castSucc]

/-- Whatever the point, the invariant at its start holds the scratch at something; -/
theorem start_any (c : Dev nD) (t : Fin cfg1.N) :
    (ffnDat V c).Φ t.castSucc ⊢ iprop(otherScoped (F := F) c ∗ (∃ d, owns (c : Thread nD τ) scratchM fullShare d) ∗ (∃ r, prngReg c r)) := by
  rw [ffnDat_Phi_start]
  by_cases hz : t.val = 0
  · rw [ffnInv_zero V c _ _ hz]; exact entry_split c
  · rw [ffnInv_pos V c _ _ hz]
    iintro ⟨Ho, HS, Hg⟩
    isplitl [Ho]; · iexact Ho
    isplitl [HS]; · iexists _; iexact HS
    iexact Hg

/-- and after the first point of the grid, at what the point before left. -/
theorem start_later (c : Dev nD) (t : Fin cfg1.N) (hz : t.val ≠ 0) :
    (ffnDat V c).Φ t.castSucc = iprop(otherScoped (F := F) c ∗ owns (c : Thread nD τ) scratchM fullShare (ffnAcc V c (t.val - 1) (Nat.lt_of_le_of_lt (Nat.sub_le _ _) t.isLt)) ∗ (∃ r, prngReg c r)) := by
  rw [ffnDat_Phi_start, ffnInv_pos V c _ _ hz]

/-! ## The body obligation -/

/-- What the pipeline calls the body with at point `t`, window by window, -/
def ffnPre (c : Dev nD) (t : Fin cfg1.N) : sProp 𝕄 :=
  iprop((ffnDat V c).Φ t.castSucc ∗ (ffnDat V c).owesAt () t.castSucc
    ∗ (∃ d, owns (c : Thread nD τ) (st1_0 t) fullShare ((ffnDat V c).before 0 t d))
    ∗ (∃ d, owns (c : Thread nD τ) (st1_1 t) fullShare ((ffnDat V c).before 1 t d))
    ∗ (∃ d, owns (c : Thread nD τ) (st1_2 t) fullShare ((ffnDat V c).before 2 t d))
    ∗ (∃ d, owns (c : Thread nD τ) (st1_3 t) fullShare ((ffnDat V c).before 3 t d))
    ∗ (∃ d, owns (c : Thread nD τ) (st1_4 t) fullShare ((ffnDat V c).before 4 t d))
    ∗ (∃ d, owns (c : Thread nD τ) (st1_5 t) fullShare ((ffnDat V c).before 5 t d)))

/-- and what it expects back. -/
def ffnPost (c : Dev nD) (t : Fin cfg1.N) : sProp 𝕄 :=
  iprop((ffnDat V c).Φ t.succ ∗ (ffnDat V c).owesAt () t.succ
    ∗ (ffnDat V c).leavesExact 0 t
    ∗ (ffnDat V c).leavesExact 1 t
    ∗ (ffnDat V c).leavesExact 2 t
    ∗ (ffnDat V c).leavesExact 3 t
    ∗ (ffnDat V c).leavesExact 4 t
    ∗ (ffnDat V c).leavesExact 5 t)

/-- An input's buffer is handed back holding its block. -/
theorem leaves1_0 (c : Dev nD) (t : Fin cfg1.N) :
    (ffnDat V c).leavesExact 0 t = owns (c : Thread nD τ) (st1_0 t) fullShare (blockAt1 V c 0 t) := by
  unfold Dat.leavesExact; rw [live1_0 t, ffnDat_after_0]
theorem leaves1_1 (c : Dev nD) (t : Fin cfg1.N) :
    (ffnDat V c).leavesExact 1 t = owns (c : Thread nD τ) (st1_1 t) fullShare (blockAt1 V c 1 t) := by
  unfold Dat.leavesExact; rw [live1_1 t, ffnDat_after_1]
theorem leaves1_2 (c : Dev nD) (t : Fin cfg1.N) :
    (ffnDat V c).leavesExact 2 t = owns (c : Thread nD τ) (st1_2 t) fullShare (blockAt1 V c 2 t) := by
  unfold Dat.leavesExact; rw [live1_2 t, ffnDat_after_2]
theorem leaves1_3 (c : Dev nD) (t : Fin cfg1.N) :
    (ffnDat V c).leavesExact 3 t = owns (c : Thread nD τ) (st1_3 t) fullShare (blockAt1 V c 3 t) := by
  unfold Dat.leavesExact; rw [live1_3 t, ffnDat_after_3]
theorem leaves1_4 (c : Dev nD) (t : Fin cfg1.N) :
    (ffnDat V c).leavesExact 4 t = owns (c : Thread nD τ) (st1_4 t) fullShare (blockAt1 V c 4 t) := by
  unfold Dat.leavesExact; rw [live1_4 t, ffnDat_after_4]

set_option maxHeartbeats 4000000 in
/-- At any point the inputs' buffers hold their blocks; the tile's position selects the case; the invariant hands the
    body the scratch at what the point before left (at anything, before a first tile) and takes it back at this point's
    accumulator. -/
theorem ffn_point (c : Dev nD) (t : Fin cfg1.N) :
    ffnPre V c t ⊢ wp frame (wpE (defs₀ (F := F)) Variants.none c none) Set.univ (bodyAt1 t) (fun _ => ffnPost V c t) := by
  unfold ffnPre ffnPost bodyAt1
  simp only [held1_0, held1_1, held1_2, held1_3, held1_4]
  rw [show (ffnDat V c).owesAt () t.succ = (ffnDat V c).owesAt () t.castSucc from rfl,
    show (ffnDat V c).Φ t.succ = ffnInv V c (t.val + 1) t.isLt from rfl, ffnInv_succ,
    leaves1_0, leaves1_1, leaves1_2, leaves1_3, leaves1_4]
  by_cases hF : t.val % 14 = 0
  · have hL : ¬t.val % 14 = 13 := by omega
    rw [Dat.leavesExact_idle (ffnDat V c) 5 t (idle1_5 t fun h => hL ((last_iff t).mp h)) (noflush1_5 t fun h => hL ((last_iff t).mp h)),
      ffnAcc_first V c t hF]
    iintro ⟨HΦ, Ho, ⟨%d0, H0⟩, ⟨%d1, H1⟩, ⟨%d2, H2⟩, ⟨%d3, H3⟩, ⟨%d4, H4⟩, ⟨%d5, H5⟩⟩
    ihave HΦ' := (start_any V c t) $$ HΦ
    icases HΦ' with ⟨Hoth, HS, Hg⟩
    iapply (ffn_first c Set.univ (grid1.coords t) _ _ _ _ _ _ _ _ _ _ _ _ _ _ ((first_iff t).mpr hF) (fun h => hL ((last_iff t).mp h))
      (blockAt1 V c 0 t) (blockAt1 V c 1 t) (blockAt1 V c 2 t) (blockAt1 V c 3 t) (blockAt1 V c 4 t) _ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => hF (by rw [h])
    rw [start_later V c t hz, ffnAcc_later V c t hF]
    by_cases hL : t.val % 14 = 13
    · rw [show (ffnDat V c).leavesExact 5 t = owns (c : Thread nD τ) (st1_5 t) fullShare ((ffnDat V c).after 5 t) from by
          unfold Dat.leavesExact; rw [live1_5 t ((last_iff t).mpr hL)], ffnDat_after_5, ffnAcc_later V c t hF]
      iintro ⟨⟨Hoth, HS, Hg⟩, Ho, ⟨%d0, H0⟩, ⟨%d1, H1⟩, ⟨%d2, H2⟩, ⟨%d3, H3⟩, ⟨%d4, H4⟩, ⟨%d5, H5⟩⟩
      iapply (ffn_last c Set.univ (grid1.coords t) _ _ _ _ _ _ _ _ _ _ _ _ _ _ (fun h => hF ((first_iff t).mp h)) ((last_iff t).mpr hL)
        (blockAt1 V c 0 t) (blockAt1 V c 1 t) (blockAt1 V c 2 t) (blockAt1 V c 3 t) (blockAt1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (ffnDat V c) 5 t (idle1_5 t fun h => hL ((last_iff t).mp h)) (noflush1_5 t fun h => hL ((last_iff t).mp h))]
      iintro ⟨⟨Hoth, HS, Hg⟩, Ho, ⟨%d0, H0⟩, ⟨%d1, H1⟩, ⟨%d2, H2⟩, ⟨%d3, H3⟩, ⟨%d4, H4⟩, ⟨%d5, H5⟩⟩
      iapply (ffn_mid c Set.univ (grid1.coords t) _ _ _ _ _ _ _ _ _ _ _ _ _ _ (fun h => hF ((first_iff t).mp h)) (fun h => hL ((last_iff t).mp h))
        (blockAt1 V c 0 t) (blockAt1 V c 1 t) (blockAt1 V c 2 t) (blockAt1 V c 3 t) (blockAt1 V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation for region 1, at every point. -/
theorem ffn_obligation (c : Dev nD) : BodyObligation (ffnDat (F := F) V c) (defs₀ (F := F)) Variants.none () Set.univ := fun t => by
  rw [bigSep_W1, bigSep_W1]
  exact ffn_point V c t

/-- What the launch hands the region is the invariant before the first point; -/
theorem ffn_enter (c : Dev nD) : Pipeline.ΦA spec1 c ⊢ (ffnDat V c).Φ 0 := by
  rw [show (ffnDat V c).Φ 0 = Pipeline.ΦA spec1 c from rfl]
  try exact Idealize.SL.BI.Entails.refl _

/-- and after the last point the invariant gives it back, the scratch's contents forgotten. -/
theorem ffn_leave (c : Dev nD) : (ffnDat V c).Φ (Fin.last cfg1.N) ⊢ Pipeline.ΦA spec1 c := by
  have hN : cfg1.N = 448 := N_1
  rw [show (ffnDat V c).Φ (Fin.last cfg1.N) = ffnInv V c (Fin.last cfg1.N).val (Nat.le_of_lt_succ (Fin.last cfg1.N).isLt) from rfl,
    ffnInv_pos V c _ _ (by rw [Fin.val_last]; omega)]
  iintro ⟨Ho, HS, Hg⟩
  iapply (entry_join (F := F) c)
  isplitl [Ho]; · iexact Ho
  isplitl [HS]; · iexists _; iexact HS
  iexact Hg

end Cert.Kernel.Hand

end
-- ==== Proof.KRun.lean ====
/-
  The whole program as a run: ten segments — the host operations that slice, narrow and re-lay the weights, the
  attention region, the host operations that pad the three feed-forward matrices, the feed-forward region — and what
  every unscoped buffer holds at each boundary between them.

  The contents are a fold from the launch memory: after a stretch of host operations, the operations applied; after a
  region, its arrays at what the pipeline's write-backs leave (an input array unchanged, an output array the blocks
  written back) and every other buffer as it was. Each region is entered from "every unscoped buffer at the boundary's
  contents, the generator register at some state, nothing owed" and left at the same with the next contents. The run
  ends with every unscoped buffer at the last contents; read at the argument arrays these are the launch contents, and
  at the result array what the feed-forward region's write-backs leave.
-/
import proofs.«148756_j8615704396127_1_alg».proof.Proof.KAttn
import proofs.«148756_j8615704396127_1_alg».proof.Proof.KFfn
import proofs.«148756_j8615704396127_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the first stretch of host operations: where the attention region is entered. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the attention region: its arrays at what the pipeline leaves, the rest as entered. -/
def W2 (c : Dev nD) : Valuation τ sig (Elt F) :=
  Pipeline.withArrays spec0 c (W1 m c) fun w => (attnDat (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
/-- Where the feed-forward region is entered. -/
abbrev V9 : (c : Dev nD) → (b : Ref sig .tc) → Buf (Elt F) ((c : Thread nD τ).loc b) := fun c b => W9 m c b
/-- After the feed-forward region: the end. -/
def W10 (c : Dev nD) : Valuation τ sig (Elt F) :=
  Pipeline.withArrays spec1 c (W9 m c) fun w => (ffnDat (V9 m) c).arrAt w cfg1.N
abbrev V10 : (c : Dev nD) → (b : Ref sig .tc) → Buf (Elt F) ((c : Thread nD τ).loc b) := fun c b => W10 m c b

theorem W2_arr (c : Dev nD) (w : Fin cfg0.W) :
    W2 m c (Proc.devRef .tc (Pipeline.arrRef spec0 w)) = (attnDat (V1 m) c).arrAt w cfg0.N := by
  unfold W2; exact Pipeline.withArrays_arr spec0 launch0.win.arr_inj c _ _ w
theorem W2_other (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_arr (c : Dev nD) (w : Fin cfg1.W) :
    W10 m c (Proc.devRef .tc (Pipeline.arrRef spec1 w)) = (ffnDat (V9 m) c).arrAt w cfg1.N := by
  unfold W10; exact Pipeline.withArrays_arr spec1 launch1.win.arr_inj c _ _ w
theorem W10_other (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

/-- What a region leaves in its arrays, and that it leaves the other buffers alone. -/
theorem left0 (c : Dev nD) (w : Fin cfg0.W) : (attnDat (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_other m c b fun w e => hb (Finset.mem_image.mpr ⟨w, Finset.mem_univ _, e⟩)
theorem left1 (c : Dev nD) (w : Fin cfg1.W) : (ffnDat (V9 m) c).arrAt w cfg1.N = V10 m c (Pipeline.arrRef spec1 w) :=
  (W10_arr m c w).symm
theorem kept1 (c : Dev nD) : ∀ b, b ∉ Finset.univ.image (Pipeline.arrRef spec1) → V10 m c b = V9 m c b :=
  fun b hb => W10_other m c b fun w e => hb (Finset.mem_image.mpr ⟨w, Finset.mem_univ _, e⟩)

/-! ## A buffer nothing writes ends as launched -/

/-- A buffer that no host operation writes and no region stages holds its launch contents at the end. -/
theorem W10_untouched (c : Dev nD) (b : Ref sig .tc)
    (h0 : b ∉ hostOps0_W) (h1 : b ∉ hostOps1_W) (h2 : b ∉ hostOps1_1_W) (h3 : b ∉ hostOps1_2_W) (h4 : b ∉ hostOps1_3_W)
    (h5 : b ∉ hostOps1_4_W) (h6 : b ∉ hostOps1_5_W) (h7 : b ∉ hostOps1_6_W)
    (ha : ∀ w, Pipeline.arrRef spec0 w ≠ b) (hb : ∀ w, Pipeline.arrRef spec1 w ≠ b) :
    W10 m c (Proc.devRef .tc b) = m ((c : Thread nD τ).loc b) :=
  (W10_other m c b hb).trans <| (StableHlo.after_of_writes_sub hostOps1_6 _ hostOps1_6_writes h7).trans <|
    (StableHlo.after_of_writes_sub hostOps1_5 _ hostOps1_5_writes h6).trans <|
    (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans <|
    (W2_other m c b ha).trans <| (StableHlo.after_of_writes_sub hostOps0 _ hostOps0_writes h0).trans rfl

/-- An array the attention region only reads (a staged input) that nothing else writes ends as launched too. -/
theorem W10_read0 (c : Dev nD) (w : Fin cfg0.W) (hin : (cfg0.win w).isOut = false)
    (h0 : Pipeline.arrRef spec0 w ∉ hostOps0_W) (h1 : Pipeline.arrRef spec0 w ∉ hostOps1_W) (h2 : Pipeline.arrRef spec0 w ∉ hostOps1_1_W)
    (h3 : Pipeline.arrRef spec0 w ∉ hostOps1_2_W) (h4 : Pipeline.arrRef spec0 w ∉ hostOps1_3_W) (h5 : Pipeline.arrRef spec0 w ∉ hostOps1_4_W)
    (h6 : Pipeline.arrRef spec0 w ∉ hostOps1_5_W) (h7 : Pipeline.arrRef spec0 w ∉ hostOps1_6_W)
    (hb : ∀ w', Pipeline.arrRef spec1 w' ≠ Pipeline.arrRef spec0 w) :
    W10 m c (Proc.devRef .tc (Pipeline.arrRef spec0 w)) = m ((c : Thread nD τ).loc (Pipeline.arrRef spec0 w)) :=
  (W10_other m c _ hb).trans <| (StableHlo.after_of_writes_sub hostOps1_6 _ hostOps1_6_writes h7).trans <|
    (StableHlo.after_of_writes_sub hostOps1_5 _ hostOps1_5_writes h6).trans <|
    (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans <|
    (W2_arr m c w).trans <| ((attnDat (V1 m) c).arrAt_in w hin _).trans <| (attnDat_A (V1 m) c w).trans <|
    (StableHlo.after_of_writes_sub hostOps0 _ hostOps0_writes h0).trans rfl

/-! ## The regions' proof data and the state that rides along -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => attnDat (V1 m) c
  | ⟨1, _⟩ => fun c => ffnDat (V9 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state and nothing owed. -/
abbrev Rest (c : Dev nD) : sProp 𝕄 := iprop((∃ r, prngReg c r) ∗ ∃ W, owes (c : Thread nD τ) (0 : CellTallies nD τ sig Unit) W)
/-- A stretch of host operations from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The end: every unscoped buffer at the last contents, the generator register at some state. -/
abbrev Tend (c : Dev nD) : sProp 𝕄 := iprop(StableHlo.held (c : Thread nD τ) (Pipeline.ucRefs τ sig) (W10 m c) ∗ ∃ r, prngReg c r)

set_option backward.isDefEq.respectTransparency.types false in
/-- Region 0 between its two boundaries: its arrays are taken out of the unscoped buffers at `W1` and put back at
    `W2`; the generator register goes into the region's invariant and comes back; nothing is owed; the kernel has
    no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (attn_obligation (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between its two boundaries: its arrays are taken out of the unscoped buffers at `W9` and put back at
    `W10`; the generator register goes into the region's invariant and comes back; nothing is owed; the kernel has
    no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ffn_obligation (V9 m) c).loose
  hwaits := Pipeline.hwaits_of_owed_zero _ _ _ _ L lv 1 fun _ _ => rfl
  pre c := iprop(StableHlo.held (c : Thread nD τ) (Pipeline.ucRefs τ sig) (W9 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (ffn_enter (V9 m) c)
    unfold Pipeline.ΦA
    iintro ⟨Hp, -, Hr⟩
    isplitl [Hr]; · iexact Hr
    iexact Hp
  hout c := by
    rw [Pipeline.ownSems0_none]
    refine BIBase.Entails.trans (ffn_leave (V9 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (stretch hostOps0 hostOps0_sub hostOps0_fresh (W0 m)),
    .region (region0 m),
    .host (stretch hostOps1 hostOps1_sub hostOps1_fresh (W2 m)),
    .host (stretch hostOps1_1 hostOps1_1_sub hostOps1_1_fresh (W3 m)),
    .host (stretch hostOps1_2 hostOps1_2_sub hostOps1_2_fresh (W4 m)),
    .host (stretch hostOps1_3 hostOps1_3_sub hostOps1_3_fresh (W5 m)),
    .host (stretch hostOps1_4 hostOps1_4_sub hostOps1_4_fresh (W6 m)),
    .host (stretch hostOps1_5 hostOps1_5_sub hostOps1_5_fresh (W7 m)),
    .host (stretch hostOps1_6 hostOps1_6_sub hostOps1_6_fresh (W8 m)),
    .region (region1 m) ]

theorem main_is_segs (c : Dev nD) : main (F := F) c = Pipeline.Seg.run (segs m) := (main_chain c).trans (by chain_rfl)

set_option backward.isDefEq.respectTransparency.types false in
/-- THE RUN. From any memory with zero counters every weakly fair execution terminates, nothing faulting, and at the
    end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.Kernel.Hand

end
-- ==== Proof.KFrame.lean ====
/-
  The run read at the arrays the claims speak of: every argument array ends holding its launch contents — the two
  the attention region stages are only read, the others no segment touches — and the result array ends holding what
  the feed-forward region's write-backs leave.
-/
import proofs.«148756_j8615704396127_1_alg».proof.Proof.KRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Every weakly fair execution terminates, nothing faulting; the result array ends at what the feed-forward region
    leaves, and every argument array as launched. -/
theorem run_named : θ_run defs (onTc (τ := τ) (main (F := F))) ⟨m, fun _ => 0, ρ⟩ (fun r => ∀ c : Dev nD,
      r.2.mem ((c.tc : Thread nD τ).loc main_v15) = (ffnDat (V9 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v15 (by decide))).trans (W10_arr m c 5),
      (h c _ (mem_uc main_arg0 (by decide))).trans (W10_read0 m c 0 rfl (by decide) (by decide) (by decide) (by decide) (by decide) (by decide) (by decide) (by decide) (by decide)),
      (h c _ (mem_uc main_arg1 (by decide))).trans (W10_read0 m c 1 rfl (by decide) (by decide) (by decide) (by decide) (by decide) (by decide) (by decide) (by decide) (by decide)),
      (h c _ (mem_uc main_arg2 (by decide))).trans (W10_untouched m c main_arg2 (by decide) (by decide) (by decide) (by decide) (by decide) (by decide) (by decide) (by decide) (by decide) (by decide)),
      (h c _ (mem_uc main_arg3 (by decide))).trans (W10_untouched m c main_arg3 (by decide) (by decide) (by decide) (by decide) (by decide) (by decide) (by decide) (by decide) (by decide) (by decide)),
      (h c _ (mem_uc main_arg4 (by decide))).trans (W10_untouched m c main_arg4 (by decide) (by decide) (by decide) (by decide) (by decide) (by decide) (by decide) (by decide) (by decide) (by decide)),
      (h c _ (mem_uc main_arg5 (by decide))).trans (W10_untouched m c main_arg5 (by decide) (by decide) (by decide) (by decide) (by decide) (by decide) (by decide) (by decide) (by decide) (by decide)),
      (h c _ (mem_uc main_arg6 (by decide))).trans (W10_untouched m c main_arg6 (by decide) (by decide) (by decide) (by decide) (by decide) (by decide) (by decide) (by decide) (by decide) (by decide)),
      (h c _ (mem_uc main_arg7 (by decide))).trans (W10_untouched m c main_arg7 (by decide) (by decide) (by decide) (by decide) (by decide) (by decide) (by decide) (by decide) (by decide) (by decide)),
      (h c _ (mem_uc main_arg8 (by decide))).trans (W10_untouched m c main_arg8 (by decide) (by decide) (by decide) (by decide) (by decide) (by decide) (by decide) (by decide) (by decide) (by decide)),
      (h c _ (mem_uc main_arg9 (by decide))).trans (W10_untouched m c main_arg9 (by decide) (by decide) (by decide) (by decide) (by decide) (by decide) (by decide) (by decide) (by decide) (by decide)),
      (h c _ (mem_uc main_arg10 (by decide))).trans (W10_untouched m c main_arg10 (by decide) (by decide) (by decide) (by decide) (by decide) (by decide) (by decide) (by decide) (by decide) (by decide))⟩) (run_all m ρ)

/-- The frame: the same run, the result forgotten. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_named m ρ)

end Cert.Kernel.Hand

end
-- ==== Proof.KIAttn.lean ====
/-
  The attention body at one grid point, as a statement about memory.

  The body reads eight blocks — a 256-row block of `x` and of `state`, the gain row, the value projection's matrix and
  bias row, the output projection's matrix and bias row, the second gain row — and stores two: the 256 rows after the
  attention half (`attnRes`) and the same rows re-scaled (`attnMid`). Both are whole-block stores of a pure term of
  the eight loads, so each output buffer ends holding that term, whatever it held before. The pipeline's account of
  the region follows from that: an input's buffer holds its block at every point, an output's what the body stored,
  nothing is carried from point to point. Everything is stated for the contents `V` the region is entered with.
-/
import proofs.«148756_j8615704396127_1_alg».proof.Proof.Gen.KernelIdeal.Launch
import proofs.«148756_j8615704396127_1_alg».proof.Proof.Gen.KernelIdeal.Skeleton
import proofs.«148756_j8615704396127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at grid point `t`, cut out of its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is read where the pipeline left it: whether or not point `t` fetched it, its current
    staging buffer holds its block at `t` (unfetched, the block index has not moved since the fetch). -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
/-- Input window 1 is read where the pipeline left it: whether or not point `t` fetched it, its current
    staging buffer holds its block at `t` (unfetched, the block index has not moved since the fetch). -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
/-- Input window 2 is read where the pipeline left it: whether or not point `t` fetched it, its current
    staging buffer holds its block at `t` (unfetched, the block index has not moved since the fetch). -/
theorem held0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)
/-- Input window 3 is read where the pipeline left it: whether or not point `t` fetched it, its current
    staging buffer holds its block at `t` (unfetched, the block index has not moved since the fetch). -/
theorem held0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)
/-- Input window 4 is read where the pipeline left it: whether or not point `t` fetched it, its current
    staging buffer holds its block at `t` (unfetched, the block index has not moved since the fetch). -/
theorem held0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)
/-- Input window 5 is read where the pipeline left it: whether or not point `t` fetched it, its current
    staging buffer holds its block at `t` (unfetched, the block index has not moved since the fetch). -/
theorem held0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)
/-- Input window 6 is read where the pipeline left it: whether or not point `t` fetched it, its current
    staging buffer holds its block at `t` (unfetched, the block index has not moved since the fetch). -/
theorem held0_6_of {c : Dev nD} (dat : Dat τ (Elt F) Unit ℕ (UR sig nD τ) ℕ cfg0 c) (hA : dat.A 6 = V c (Pipeline.arrRef spec0 6))
    (hafter : ∀ t, dat.after 6 t = blockAt0 V c 6 t) (t : Fin cfg0.N) (d) : dat.before 6 t d = blockAt0 V c 6 t :=
  (dat.before_in_eq_fetched 6 rfl (fun _ => rfl) (fun _ _ _ => rfl) (fun t => by rw [hafter]; unfold Dat.blockOf blockAt0; rw [hA]; try rfl) t d).trans
    (by unfold Dat.fetched Dat.blockOf blockAt0; rw [hA]; try rfl)
/-- Input window 7 is read where the pipeline left it: whether or not point `t` fetched it, its current
    staging buffer holds its block at `t` (unfetched, the block index has not moved since the fetch). -/
theorem held0_7_of {c : Dev nD} (dat : Dat τ (Elt F) Unit ℕ (UR sig nD τ) ℕ cfg0 c) (hA : dat.A 7 = V c (Pipeline.arrRef spec0 7))
    (hafter : ∀ t, dat.after 7 t = blockAt0 V c 7 t) (t : Fin cfg0.N) (d) : dat.before 7 t d = blockAt0 V c 7 t :=
  (dat.before_in_eq_fetched 7 rfl (fun _ => rfl) (fun _ _ _ => rfl) (fun t => by rw [hafter]; unfold Dat.blockOf blockAt0; rw [hA]; try rfl) t d).trans
    (by unfold Dat.fetched Dat.blockOf blockAt0; rw [hA]; try rfl)

/-! ## What the body stores -/

/-- Every access of the body is of a whole buffer. -/
abbrev whole256 : Rect S256x2048 := Rect.unit (s := S256x2048) ![0, 0] S256x2048.size inb_S256x2048_S256x2048_0_0
abbrev whole1 : Rect S1x2048 := Rect.unit (s := S1x2048) ![0, 0] S1x2048.size inb_S1x2048_S1x2048_0_0
abbrev wholeSq : Rect S2048x2048 := Rect.unit (s := S2048x2048) ![0, 0] S2048x2048.size inb_S2048x2048_S2048x2048_0_0

/-- The 256 rows after the attention half, from the seven blocks they depend on. -/
def attnResTerm (x0 x1 : Vec F S256x2048 .f32) (x2 : Vec F S1x2048 .f32) (x3 : Vec F S2048x2048 .bf16) (x4 : Vec F S1x2048 .f32)
    (x5 : Vec F S2048x2048 .bf16) (x6 : Vec F S1x2048 .f32) : FVec F S256x2048 .f32 :=
  k0_pay2 (View.ld x0 whole256) (View.ld x1 whole256) (View.ld x2 whole1) (View.ld x3 wholeSq) (View.ld x4 whole1) (View.ld x5 wholeSq) (View.ld x6 whole1)

/-- What the first output's buffer holds after the body: its one store, of the rows after the attention half. -/
def attnRes (x0 x1 : Vec F S256x2048 .f32) (x2 : Vec F S1x2048 .f32) (x3 : Vec F S2048x2048 .bf16) (x4 : Vec F S1x2048 .f32)
    (x5 : Vec F S2048x2048 .bf16) (x6 : Vec F S1x2048 .f32) : Vec F S256x2048 .f32 :=
  View.canon [⟨whole256, attnResTerm x0 x1 x2 x3 x4 x5 x6⟩]

/-- What the second output's buffer holds after the body: its one store, of those rows re-scaled with the second gain. -/
def attnMid (x0 x1 : Vec F S256x2048 .f32) (x2 : Vec F S1x2048 .f32) (x3 : Vec F S2048x2048 .bf16) (x4 : Vec F S1x2048 .f32)
    (x5 : Vec F S2048x2048 .bf16) (x6 x7 : Vec F S1x2048 .f32) : Vec F S256x2048 .bf16 :=
  View.canon [⟨whole256, k0_pay1 (attnResTerm x0 x1 x2 x3 x4 x5 x6) (k0_pay3 (View.ld x7 whole1))
    (k0_pay4 (View.ld x0 whole256) (View.ld x1 whole256) (View.ld x2 whole1) (View.ld x3 wholeSq) (View.ld x4 whole1) (View.ld x5 wholeSq) (View.ld x6 whole1))⟩]

/-- One store of the whole block covers the block. -/
theorem cover_f32 (p0 : Vec F S256x2048 .f32) (y : S256x2048.Idx) :
    ∃ pc ∈ ([⟨whole256, p0⟩] : List (View.Piece (Elt F) S256x2048 .f32)), y ∈ pc.1.set :=
  View.cover_of_tiled [⟨whole256, p0⟩] S256x2048.size (by rfl) y
theorem cover_bf16 (p0 : Vec F S256x2048 .bf16) (y : S256x2048.Idx) :
    ∃ pc ∈ ([⟨whole256, p0⟩] : List (View.Piece (Elt F) S256x2048 .bf16)), y ∈ pc.1.set :=
  View.cover_of_tiled [⟨whole256, p0⟩] S256x2048.size (by rfl) y

/-! ## The body's triple -/

set_option maxHeartbeats 4000000 in
/-- On whole buffers, the inputs' at known contents and the outputs' at anything, the body runs to its end, gives the
    inputs back as they were and leaves the outputs at `attnRes` and `attnMid` of the inputs. -/
theorem attn_triple (c : Dev nD) (E : Set ℕ) (i : grid0.Coords) (a0 : Memref sig .tc .vmem S256x2048 .f32) (ha0 : a0.IsWhole) (a1 : Memref sig .tc .vmem S256x2048 .f32) (ha1 : a1.IsWhole) (a2 : Memref sig .tc .vmem S1x2048 .f32) (ha2 : a2.IsWhole) (a3 : Memref sig .tc .vmem S2048x2048 .bf16) (ha3 : a3.IsWhole) (a4 : Memref sig .tc .vmem S1x2048 .f32) (ha4 : a4.IsWhole) (a5 : Memref sig .tc .vmem S2048x2048 .bf16) (ha5 : a5.IsWhole) (a6 : Memref sig .tc .vmem S1x2048 .f32) (ha6 : a6.IsWhole) (a7 : Memref sig .tc .vmem S1x2048 .f32) (ha7 : a7.IsWhole) (a8 : Memref sig .tc .vmem S256x2048 .f32) (ha8 : a8.IsWhole) (a9 : Memref sig .tc .vmem S256x2048 .bf16) (ha9 : a9.IsWhole)
    (x0 : Vec F S256x2048 .f32) (x1 : Vec F S256x2048 .f32) (x2 : Vec F S1x2048 .f32) (x3 : Vec F S2048x2048 .bf16) (x4 : Vec F S1x2048 .f32) (x5 : Vec F S2048x2048 .bf16) (x6 : Vec F S1x2048 .f32) (x7 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (attnRes x0 x1 x2 x3 x4 x5 x6)
            ∗ owns (c : Thread nD τ) a9 fullShare (attnMid x0 x1 x2 x3 x4 x5 x6 x7)) -∗ K ⟨⟩))
      ⊢ wp frame (wpE (defs₀ (F := F)) Variants.none c none) E (cc0__attn_kernel i a0 ha0 a1 ha1 a2 ha2 a3 ha3 a4 ha4 a5 ha5 a6 ha6 a7 ha7 a8 ha8 a9 ha9) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_f32 _)
  iexists _; isplitr
  swap; · iexact H9
  ipureintro
  try dsimp only
  exact View.read_writes_eq_canon _ _ _ (cover_bf16 _)

/-! ## The pipeline's account of the region -/

/-- Region 0 on core `c`: the arrays as the region finds them; after the body at point `t` an input's buffer holds its
    block and an output's what the body stored there; nothing but the untouched scoped buffers and the generator
    register is kept between points; nothing is owed. -/
def attnDat (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => blockAt0 V c 6 t
    | ⟨7, _⟩ => blockAt0 V c 7 t
    | ⟨8, _⟩ => attnRes (blockAt0 V c 0 t) (blockAt0 V c 1 t) (blockAt0 V c 2 t) (blockAt0 V c 3 t) (blockAt0 V c 4 t) (blockAt0 V c 5 t) (blockAt0 V c 6 t)
    | ⟨9, _⟩ => attnMid (blockAt0 V c 0 t) (blockAt0 V c 1 t) (blockAt0 V c 2 t) (blockAt0 V c 3 t) (blockAt0 V c 4 t) (blockAt0 V c 5 t) (blockAt0 V c 6 t) (blockAt0 V c 7 t)
  Φ _ := Pipeline.ΦA spec0 c
  q _ := fullShare
  owed _ := 0

theorem attnDat_A (c : Dev nD) (w : Fin cfg0.W) : (attnDat V c).A w = V c (Pipeline.arrRef spec0 w) := by
  dsimp only [attnDat]

theorem attnDat_after_0 (c : Dev nD) (t : Fin cfg0.N) : (attnDat V c).after 0 t = blockAt0 V c 0 t := by dsimp only [attnDat]
theorem attnDat_after_1 (c : Dev nD) (t : Fin cfg0.N) : (attnDat V c).after 1 t = blockAt0 V c 1 t := by dsimp only [attnDat]
theorem attnDat_after_2 (c : Dev nD) (t : Fin cfg0.N) : (attnDat V c).after 2 t = blockAt0 V c 2 t := by dsimp only [attnDat]
theorem attnDat_after_3 (c : Dev nD) (t : Fin cfg0.N) : (attnDat V c).after 3 t = blockAt0 V c 3 t := by dsimp only [attnDat]
theorem attnDat_after_4 (c : Dev nD) (t : Fin cfg0.N) : (attnDat V c).after 4 t = blockAt0 V c 4 t := by dsimp only [attnDat]
theorem attnDat_after_5 (c : Dev nD) (t : Fin cfg0.N) : (attnDat V c).after 5 t = blockAt0 V c 5 t := by dsimp only [attnDat]
theorem attnDat_after_6 (c : Dev nD) (t : Fin cfg0.N) : (attnDat V c).after 6 t = blockAt0 V c 6 t := by dsimp only [attnDat]
theorem attnDat_after_7 (c : Dev nD) (t : Fin cfg0.N) : (attnDat V c).after 7 t = blockAt0 V c 7 t := by dsimp only [attnDat]
theorem attnDat_after_8 (c : Dev nD) (t : Fin cfg0.N) : (attnDat V c).after 8 t = attnRes (blockAt0 V c 0 t) (blockAt0 V c 1 t) (blockAt0 V c 2 t) (blockAt0 V c 3 t) (blockAt0 V c 4 t) (blockAt0 V c 5 t) (blockAt0 V c 6 t) := by dsimp only [attnDat]
theorem attnDat_after_9 (c : Dev nD) (t : Fin cfg0.N) : (attnDat V c).after 9 t = attnMid (blockAt0 V c 0 t) (blockAt0 V c 1 t) (blockAt0 V c 2 t) (blockAt0 V c 3 t) (blockAt0 V c 4 t) (blockAt0 V c 5 t) (blockAt0 V c 6 t) (blockAt0 V c 7 t) := by dsimp only [attnDat]

theorem held0_0 (c : Dev nD) (t : Fin cfg0.N) (d) : (attnDat V c).before 0 t d = blockAt0 V c 0 t :=
  held0_0_of V (attnDat V c) (attnDat_A V c 0) (attnDat_after_0 V c) t d
theorem held0_1 (c : Dev nD) (t : Fin cfg0.N) (d) : (attnDat V c).before 1 t d = blockAt0 V c 1 t :=
  held0_1_of V (attnDat V c) (attnDat_A V c 1) (attnDat_after_1 V c) t d
theorem held0_2 (c : Dev nD) (t : Fin cfg0.N) (d) : (attnDat V c).before 2 t d = blockAt0 V c 2 t :=
  held0_2_of V (attnDat V c) (attnDat_A V c 2) (attnDat_after_2 V c) t d
theorem held0_3 (c : Dev nD) (t : Fin cfg0.N) (d) : (attnDat V c).before 3 t d = blockAt0 V c 3 t :=
  held0_3_of V (attnDat V c) (attnDat_A V c 3) (attnDat_after_3 V c) t d
theorem held0_4 (c : Dev nD) (t : Fin cfg0.N) (d) : (attnDat V c).before 4 t d = blockAt0 V c 4 t :=
  held0_4_of V (attnDat V c) (attnDat_A V c 4) (attnDat_after_4 V c) t d
theorem held0_5 (c : Dev nD) (t : Fin cfg0.N) (d) : (attnDat V c).before 5 t d = blockAt0 V c 5 t :=
  held0_5_of V (attnDat V c) (attnDat_A V c 5) (attnDat_after_5 V c) t d
theorem held0_6 (c : Dev nD) (t : Fin cfg0.N) (d) : (attnDat V c).before 6 t d = blockAt0 V c 6 t :=
  held0_6_of V (attnDat V c) (attnDat_A V c 6) (attnDat_after_6 V c) t d
theorem held0_7 (c : Dev nD) (t : Fin cfg0.N) (d) : (attnDat V c).before 7 t d = blockAt0 V c 7 t :=
  held0_7_of V (attnDat V c) (attnDat_A V c 7) (attnDat_after_7 V c) t d

/-! ## The body obligation -/

/-- What the pipeline calls the body with at point `t`, window by window, -/
def attnPre (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d))
    ∗ (∃ d, owns (c : Thread nD τ) (st0_4 t) fullShare ((attnDat V c).before 4 t d))
    ∗ (∃ d, owns (c : Thread nD τ) (st0_5 t) fullShare ((attnDat V c).before 5 t d))
    ∗ (∃ d, owns (c : Thread nD τ) (st0_6 t) fullShare ((attnDat V c).before 6 t d))
    ∗ (∃ d, owns (c : Thread nD τ) (st0_7 t) fullShare ((attnDat V c).before 7 t d))
    ∗ (∃ d, owns (c : Thread nD τ) (st0_8 t) fullShare ((attnDat V c).before 8 t d))
    ∗ (∃ d, owns (c : Thread nD τ) (st0_9 t) fullShare ((attnDat V c).before 9 t d)))

/-- and what it expects back. -/
def attnPost (c : Dev nD) (t : Fin cfg0.N) : sProp 𝕄 :=
  iprop((attnDat V c).Φ t.succ ∗ (attnDat V c).owesAt () t.succ
    ∗ owns (c : Thread nD τ) (st0_0 t) fullShare ((attnDat V c).after 0 t)
    ∗ owns (c : Thread nD τ) (st0_1 t) fullShare ((attnDat V c).after 1 t)
    ∗ owns (c : Thread nD τ) (st0_2 t) fullShare ((attnDat V c).after 2 t)
    ∗ owns (c : Thread nD τ) (st0_3 t) fullShare ((attnDat V c).after 3 t)
    ∗ owns (c : Thread nD τ) (st0_4 t) fullShare ((attnDat V c).after 4 t)
    ∗ owns (c : Thread nD τ) (st0_5 t) fullShare ((attnDat V c).after 5 t)
    ∗ owns (c : Thread nD τ) (st0_6 t) fullShare ((attnDat V c).after 6 t)
    ∗ owns (c : Thread nD τ) (st0_7 t) fullShare ((attnDat V c).after 7 t)
    ∗ owns (c : Thread nD τ) (st0_8 t) fullShare ((attnDat V c).after 8 t)
    ∗ owns (c : Thread nD τ) (st0_9 t) fullShare ((attnDat V c).after 9 t))

set_option maxHeartbeats 2000000 in
/-- At any point the inputs' buffers hold their blocks, so the triple applies; what is kept between points and what is
    owed pass through untouched. -/
theorem attn_point (c : Dev nD) (t : Fin cfg0.N) :
    attnPre V c t ⊢ wp frame (wpE (defs₀ (F := F)) Variants.none c none) Set.univ (bodyAt0 t) (fun _ => attnPost V c t) := by
  unfold attnPre attnPost bodyAt0
  simp only [held0_0, held0_1, held0_2, held0_3, held0_4, held0_5, held0_6, held0_7]
  rw [show (attnDat V c).Φ t.succ = (attnDat V c).Φ t.castSucc from rfl,
    show (attnDat V c).owesAt () t.succ = (attnDat V c).owesAt () t.castSucc from rfl,
    attnDat_after_0, attnDat_after_1, attnDat_after_2, attnDat_after_3, attnDat_after_4, attnDat_after_5, attnDat_after_6, attnDat_after_7,
    attnDat_after_8, attnDat_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (attn_triple c Set.univ _ _ _ _ _ _ _ _ _ _ _ _ _ _ _ _ _ _ _ _ _ (blockAt0 V c 0 t) (blockAt0 V c 1 t) (blockAt0 V c 2 t) (blockAt0 V c 3 t) (blockAt0 V c 4 t) (blockAt0 V c 5 t) (blockAt0 V c 6 t) (blockAt0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for region 0, at every point. -/
theorem attn_obligation (c : Dev nD) : BodyObligation (attnDat (F := F) V c) (defs₀ (F := F)) Variants.none () Set.univ := fun t => by
  rw [bigSep_W0, bigSep_W0]
  exact attn_point V c t

end Cert.KernelIdeal.Hand

end
-- ==== Proof.KIFfn.lean ====
/-
  The feed-forward body at one grid point, as a statement about memory, and what it carries from point to point.

  The grid is 32 row blocks by 14 hidden tiles, the tile index running fastest. At a point the body adds, into a
  scratch accumulator of 512 rows, the contribution of one tile of 384 hidden numbers: the two hidden projections
  of the re-scaled rows against the tile's rows of the two weight matrices, gated, times the tile's columns of the
  third. At a row block's first tile the accumulator is first set to zero; at its last tile the accumulator plus
  the residual rows is stored to the output block, which the pipeline then writes back — at the other tiles the
  output's buffer is not touched and not written back. So there are three cases of the body (first, middle, last
  tile), and the scratch after point `n` is a function of the blocks seen so far (`ffnAcc`): zero plus the tiles
  of the current row block up to `n`. The region's invariant names the scratch at that function.
-/
import proofs.«148756_j8615704396127_1_alg».proof.Proof.Gen.KernelIdeal.Launch
import proofs.«148756_j8615704396127_1_alg».proof.Proof.Gen.KernelIdeal.Skeleton
import proofs.«148756_j8615704396127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the pipeline stages -/

/-- Window `w`'s block at grid point `t`, cut out of its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is read where the pipeline left it: its current staging buffer holds its block at `t`, fetched there or not. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
/-- Input window 1 is read where the pipeline left it: its current staging buffer holds its block at `t`, fetched there or not. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
/-- Input window 2 is read where the pipeline left it: its current staging buffer holds its block at `t`, fetched there or not. -/
theorem held1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)
/-- Input window 3 is read where the pipeline left it: its current staging buffer holds its block at `t`, fetched there or not. -/
theorem held1_3_of {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)
/-- Input window 4 is read where the pipeline left it: its current staging buffer holds its block at `t`, fetched there or not. -/
theorem held1_4_of {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

/-! ## The tile's position, from the grid point -/

/-- The body's first test: the tile index is 0. -/
abbrev isFirst (i : grid1.Coords) : Prop := (Scalar.cmpi .ne (Scalar.extui (Scalar.cmpi .eq (BitVec.ofNat 32 (i 1).val) 0#32)) 0#32) = 1#1
/-- The body's second test: the tile index is 13. -/
abbrev isLast (i : grid1.Coords) : Prop := k1_cond2 i = 1#1

/-- In the order the grid is walked, the first tiles are the points ≡ 0 and the last tiles the points ≡ 13 (mod 14). -/
theorem first_iff : ∀ t : Fin cfg1.N, isFirst (grid1.coords t) ↔ t.val % 14 = 0 :=
  (by decide +kernel : ∀ t : Fin grid1.N, isFirst (grid1.coords t) ↔ t.val % 14 = 0)
theorem last_iff : ∀ t : Fin cfg1.N, isLast (grid1.coords t) ↔ t.val % 14 = 13 :=
  (by decide +kernel : ∀ t : Fin grid1.N, isLast (grid1.coords t) ↔ t.val % 14 = 13)

/-- The inputs are staged at every point; the output's buffer is in use exactly at the last tiles, and only there is
    it written back. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem idle1_5 : ∀ t : Fin cfg1.N, ¬isLast (grid1.coords t) → cfg1.idle 5 (grid1.coords t) = true := by decide +kernel
theorem noflush1_5 : ∀ t : Fin cfg1.N, ¬isLast (grid1.coords t) → (cfg1.win 5).flush t = false := by decide +kernel
theorem live1_5 : ∀ t : Fin cfg1.N, isLast (grid1.coords t) → cfg1.idle 5 (grid1.coords t) = false := by decide +kernel

/-! ## The body's three cases -/

/-- Every access of the body is of a whole buffer at offset zero. -/
theorem off0 : (![0, 0] : Fin 2 → Nat) = fun _ => 0 := by funext a; fin_cases a <;> rfl

/-- One store of the whole block covers the block, also when an earlier whole store lies under it. -/
theorem cover1 (p0 : Vec F S512x2048 .f32) (y : S512x2048.Idx) :
    ∃ pc ∈ ([⟨Rect.unit (s := S512x2048) ![0, 0] S512x2048.size inb_S512x2048_S512x2048_0_0, p0⟩] : List (View.Piece (Elt F) S512x2048 .f32)), y ∈ pc.1.set :=
  ⟨_, List.mem_singleton_self _, View.mem_set_unit_zero off0 inb_S512x2048_S512x2048_0_0 y⟩
theorem cover2 (p0 p1 : Vec F S512x2048 .f32) (y : S512x2048.Idx) :
    ∃ pc ∈ ([⟨Rect.unit (s := S512x2048) ![0, 0] S512x2048.size inb_S512x2048_S512x2048_0_0, p0⟩,
        ⟨Rect.unit (s := S512x2048) ![0, 0] S512x2048.size inb_S512x2048_S512x2048_0_0, p1⟩] : List (View.Piece (Elt F) S512x2048 .f32)), y ∈ pc.1.set :=
  ⟨_, List.mem_cons_self .., View.mem_set_unit_zero off0 inb_S512x2048_S512x2048_0_0 y⟩

set_option maxHeartbeats 4000000 in
/-- FIRST TILE. The scratch, whatever it held, ends at the tile's contribution added to zero; the output's buffer is not
    touched. -/
theorem ffn_first (c : Dev nD) (E : Set ℕ) (i : grid1.Coords) (a2 : Memref sig .tc .vmem S512x2048 .bf16) (ha2 : a2.IsWhole) (a3 : Memref sig .tc .vmem S512x2048 .f32) (ha3 : a3.IsWhole)
    (a4 : Memref sig .tc .vmem S384x2048 .bf16) (ha4 : a4.IsWhole) (a5 : Memref sig .tc .vmem S384x2048 .bf16) (ha5 : a5.IsWhole)
    (a6 : Memref sig .tc .vmem S2048x384 .bf16) (ha6 : a6.IsWhole) (a7 : Memref sig .tc .vmem S512x2048 .f32) (ha7 : a7.IsWhole)
    (a8 : Memref sig .tc .vmem S512x2048 .f32) (ha8 : a8.IsWhole)
    (hc0 : isFirst i) (hc1 : ¬isLast i) (x0 : Vec F S512x2048 .bf16) (x1 : Vec F S512x2048 .f32) (x2 x3 : Vec F S384x2048 .bf16) (x4 : Vec F S2048x384 .bf16) (y : Vec F S512x2048 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y ∗ (∃ d, owns (c : Thread nD τ) a8 fullShare d)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y
            ∗ owns (c : Thread nD τ) a8 fullShare (k1_pay2 x0 x2 x3 x4 (k1_pay1 (F := F)))) -∗ K ⟨⟩))
      ⊢ wp frame (wpE (defs₀ (F := F)) Variants.none c none) E (cc1__ffn_kernel i a2 ha2 a3 ha3 a4 ha4 a5 ha5 a6 ha6 a7 ha7 a8 ha8) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%ds, %fs, -, HS⟩, Hk⟩
  subst hf0 hf1 hf2 hf3 hf4 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact HS
  ipureintro
  sl_unfold_words
  rw [View.read_writes_eq_canon _ _ _ (cover2 _ _), View.canon_cons_unit_zero off0, View.readCov_unit_zero _ off0]
  simp only [View.readAt_eq_ld, View.ld_unit_zero (S := S512x2048) off0, View.ld_unit_zero (S := S384x2048) off0, View.ld_unit_zero (S := S2048x384) off0]

set_option maxHeartbeats 4000000 in
/-- MIDDLE TILE. The scratch at `xs` ends at `xs` plus the tile's contribution; the output's buffer is not touched. -/
theorem ffn_mid (c : Dev nD) (E : Set ℕ) (i : grid1.Coords) (a2 : Memref sig .tc .vmem S512x2048 .bf16) (ha2 : a2.IsWhole) (a3 : Memref sig .tc .vmem S512x2048 .f32) (ha3 : a3.IsWhole)
    (a4 : Memref sig .tc .vmem S384x2048 .bf16) (ha4 : a4.IsWhole) (a5 : Memref sig .tc .vmem S384x2048 .bf16) (ha5 : a5.IsWhole)
    (a6 : Memref sig .tc .vmem S2048x384 .bf16) (ha6 : a6.IsWhole) (a7 : Memref sig .tc .vmem S512x2048 .f32) (ha7 : a7.IsWhole)
    (a8 : Memref sig .tc .vmem S512x2048 .f32) (ha8 : a8.IsWhole)
    (hc0 : ¬isFirst i) (hc1 : ¬isLast i) (x0 : Vec F S512x2048 .bf16) (x1 : Vec F S512x2048 .f32) (x2 x3 : Vec F S384x2048 .bf16) (x4 : Vec F S2048x384 .bf16) (y xs : Vec F S512x2048 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y ∗ owns (c : Thread nD τ) a8 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare y
            ∗ owns (c : Thread nD τ) a8 fullShare (k1_pay2 x0 x2 x3 x4 xs)) -∗ K ⟨⟩))
      ⊢ wp frame (wpE (defs₀ (F := F)) Variants.none c none) E (cc1__ffn_kernel i a2 ha2 a3 ha3 a4 ha4 a5 ha5 a6 ha6 a7 ha7 a8 ha8) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%fs, %hfs, HS⟩, Hk⟩
  subst hf0 hf1 hf2 hf3 hf4 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  iexists _; isplitr
  swap; · iexact HS
  ipureintro
  sl_unfold_words
  rw [View.read_writes_eq_canon _ _ _ (cover1 _), View.canon_unit_zero off0]
  simp only [View.readAt_eq_ld, View.ld_unit_zero (S := S512x2048) off0, View.ld_unit_zero (S := S384x2048) off0, View.ld_unit_zero (S := S2048x384) off0]

set_option maxHeartbeats 4000000 in
/-- LAST TILE. The scratch at `xs` ends at `xs` plus the tile's contribution, and the output's buffer, whatever it held,
    at that plus the residual rows. -/
theorem ffn_last (c : Dev nD) (E : Set ℕ) (i : grid1.Coords) (a2 : Memref sig .tc .vmem S512x2048 .bf16) (ha2 : a2.IsWhole) (a3 : Memref sig .tc .vmem S512x2048 .f32) (ha3 : a3.IsWhole)
    (a4 : Memref sig .tc .vmem S384x2048 .bf16) (ha4 : a4.IsWhole) (a5 : Memref sig .tc .vmem S384x2048 .bf16) (ha5 : a5.IsWhole)
    (a6 : Memref sig .tc .vmem S2048x384 .bf16) (ha6 : a6.IsWhole) (a7 : Memref sig .tc .vmem S512x2048 .f32) (ha7 : a7.IsWhole)
    (a8 : Memref sig .tc .vmem S512x2048 .f32) (ha8 : a8.IsWhole)
    (hc0 : ¬isFirst i) (hc1 : isLast i) (x0 : Vec F S512x2048 .bf16) (x1 : Vec F S512x2048 .f32) (x2 x3 : Vec F S384x2048 .bf16) (x4 : Vec F S2048x384 .bf16) (xs : Vec F S512x2048 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ (∃ d, owns (c : Thread nD τ) a7 fullShare d) ∗ owns (c : Thread nD τ) a8 fullShare xs
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare (k1_pay3 (k1_pay2 x0 x2 x3 x4 xs) x1)
            ∗ owns (c : Thread nD τ) a8 fullShare (k1_pay2 x0 x2 x3 x4 xs)) -∗ K ⟨⟩))
      ⊢ wp frame (wpE (defs₀ (F := F)) Variants.none c none) E (cc1__ffn_kernel i a2 ha2 a3 ha3 a4 ha4 a5 ha5 a6 ha6 a7 ha7 a8 ha8) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%fs, %hfs, HS⟩, Hk⟩
  subst hf0 hf1 hf2 hf3 hf4 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_words
    rw [View.read_writes_eq_canon _ _ _ (cover1 _), View.canon_unit_zero off0, View.readCov_unit_zero _ off0]
    simp only [View.readAt_eq_ld, View.ld_unit_zero (S := S512x2048) off0, View.ld_unit_zero (S := S384x2048) off0, View.ld_unit_zero (S := S2048x384) off0]
  iexists _; isplitr
  swap; · iexact HS
  ipureintro
  sl_unfold_words
  rw [View.read_writes_eq_canon _ _ _ (cover1 _), View.canon_unit_zero off0]
  simp only [View.readAt_eq_ld, View.ld_unit_zero (S := S512x2048) off0, View.ld_unit_zero (S := S384x2048) off0, View.ld_unit_zero (S := S2048x384) off0]

/-! ## What the scratch holds after each point -/

/-- The accumulator after point `n`: the point's tile added to zero at a first tile, to what the point before left
    otherwise. -/
def ffnAcc (c : Dev nD) : (n : ℕ) → n < cfg1.N → Vec F S512x2048 .f32
  | 0, h => k1_pay2 (blockAt1 V c 0 ⟨0, h⟩) (blockAt1 V c 2 ⟨0, h⟩) (blockAt1 V c 3 ⟨0, h⟩) (blockAt1 V c 4 ⟨0, h⟩) (k1_pay1 (F := F))
  | n + 1, h => k1_pay2 (blockAt1 V c 0 ⟨n + 1, h⟩) (blockAt1 V c 2 ⟨n + 1, h⟩) (blockAt1 V c 3 ⟨n + 1, h⟩) (blockAt1 V c 4 ⟨n + 1, h⟩)
      (if (n + 1) % 14 = 0 then k1_pay1 (F := F) else ffnAcc c n (Nat.lt_of_succ_lt h))

theorem ffnAcc_first (c : Dev nD) (t : Fin cfg1.N) (h : t.val % 14 = 0) :
    ffnAcc V c t.val t.isLt = k1_pay2 (blockAt1 V c 0 t) (blockAt1 V c 2 t) (blockAt1 V c 3 t) (blockAt1 V c 4 t) (k1_pay1 (F := F)) := by
  obtain ⟨n, hn⟩ := t
  cases n with
  | zero => rfl
  | succ n => show k1_pay2 _ _ _ _ (if (n + 1) % 14 = 0 then _ else _) = _; rw [if_pos h]

theorem ffnAcc_later (c : Dev nD) (t : Fin cfg1.N) (h : ¬t.val % 14 = 0) :
    ffnAcc V c t.val t.isLt = k1_pay2 (blockAt1 V c 0 t) (blockAt1 V c 2 t) (blockAt1 V c 3 t) (blockAt1 V c 4 t)
      (ffnAcc V c (t.val - 1) (Nat.lt_of_le_of_lt (Nat.sub_le _ _) t.isLt)) := by
  obtain ⟨n, hn⟩ := t
  cases n with
  | zero => exact absurd (Nat.zero_mod _) h
  | succ n => show k1_pay2 _ _ _ _ (if (n + 1) % 14 = 0 then _ else _) = _; rw [if_neg h]; rfl

/-! ## The invariant -/

/-- The scratch as a memref: a whole scoped buffer of the kernel's own. -/
abbrev scratchM : Memref sig .tc .vmem S512x2048 .f32 := Memref.whole cc1_scratch0

/-- The scoped buffers of the core that this region neither stages nor uses (the other region's staging buffers), each
    whole at some contents. -/
def otherScoped (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg8_1), ((c : Thread nD τ).loc cc0_stg8_1) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_stg9_1), ((c : Thread nD τ).loc cc0_stg9_1) ↦{fullShare} f))

/-- Before point `n`: at the region's entry, every scoped buffer that is no staging buffer of this region at anything;
    afterwards the same with the scratch at what the point before left. The generator register rides along. -/
def ffnInv (c : Dev nD) : (n : ℕ) → n ≤ cfg1.N → sProp 𝕄
  | 0, _ => Pipeline.ΦA spec1 c
  | n + 1, hn => iprop(otherScoped (F := F) c ∗ owns (c : Thread nD τ) scratchM fullShare (ffnAcc V c n hn) ∗ (∃ r, prngReg c r))

theorem ffnInv_succ (c : Dev nD) (n : ℕ) (hn : n < cfg1.N) :
    ffnInv V c (n + 1) hn = iprop(otherScoped (F := F) c ∗ owns (c : Thread nD τ) scratchM fullShare (ffnAcc V c n hn) ∗ (∃ r, prngReg c r)) := rfl

theorem ffnInv_zero (c : Dev nD) (n : ℕ) (h : n ≤ cfg1.N) (hz : n = 0) : ffnInv V c n h = Pipeline.ΦA spec1 c := by
  subst hz; rfl

theorem ffnInv_pos (c : Dev nD) (n : ℕ) (h : n ≤ cfg1.N) (hz : n ≠ 0) :
    ffnInv V c n h = iprop(otherScoped (F := F) c ∗ owns (c : Thread nD τ) scratchM fullShare (ffnAcc V c (n - 1) (by omega)) ∗ (∃ r, prngReg c r)) := by
  cases n with
  | zero => exact absurd rfl hz
  | succ n => rfl

/-- The entry invariant, with the scratch singled out; -/
theorem entry_split (c : Dev nD) :
    (Pipeline.ΦA spec1 c : sProp 𝕄) ⊢ iprop(otherScoped (F := F) c ∗ (∃ d, owns (c : Thread nD τ) scratchM fullShare d) ∗ (∃ r, prngReg c r)) := by
  unfold Pipeline.ΦA otherScoped; rw [scopedRest1_eq]; simp only [owns_whole]
  iintro ⟨⟨A0, A1, A2, A3, A4, A5, A6, A7, A8, A9, A10, A11, A12, A13, HS⟩, Hg⟩
  isplitl [A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [HS]; · iexact HS
  iexact Hg

/-- and back: the scratch's contents forgotten. -/
theorem entry_join (c : Dev nD) :
    iprop(otherScoped (F := F) c ∗ (∃ d, owns (c : Thread nD τ) scratchM fullShare d) ∗ (∃ r, prngReg c r)) ⊢ (Pipeline.ΦA spec1 c : sProp 𝕄) := by
  unfold Pipeline.ΦA otherScoped; rw [scopedRest1_eq]; simp only [owns_whole]
  iintro ⟨⟨A0, A1, A2, A3, A4, A5, A6, A7, A8, A9, A10, A11, A12, A13⟩, HS, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact HS

/-! ## The pipeline's account of the region -/

/-- Region 1 on core `c`: the arrays as the region finds them; after the body an input's buffer holds its block; the
    output's holds the accumulator plus the residual rows (what the last tile stores — at the other tiles the buffer is
    not in use and this is never consulted); between points the invariant names the scratch; nothing is owed. -/
def ffnDat (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => k1_pay3 (ffnAcc V c t.val t.isLt) (blockAt1 V c 1 t)
  Φ t := ffnInv V c t.val (Nat.le_of_lt_succ t.isLt)
  q _ := fullShare
  owed _ := 0

theorem ffnDat_A (c : Dev nD) (w : Fin cfg1.W) : (ffnDat V c).A w = V c (Pipeline.arrRef spec1 w) := by
  dsimp only [ffnDat]

theorem ffnDat_after_0 (c : Dev nD) (t : Fin cfg1.N) : (ffnDat V c).after 0 t = blockAt1 V c 0 t := by dsimp only [ffnDat]
theorem ffnDat_after_1 (c : Dev nD) (t : Fin cfg1.N) : (ffnDat V c).after 1 t = blockAt1 V c 1 t := by dsimp only [ffnDat]
theorem ffnDat_after_2 (c : Dev nD) (t : Fin cfg1.N) : (ffnDat V c).after 2 t = blockAt1 V c 2 t := by dsimp only [ffnDat]
theorem ffnDat_after_3 (c : Dev nD) (t : Fin cfg1.N) : (ffnDat V c).after 3 t = blockAt1 V c 3 t := by dsimp only [ffnDat]
theorem ffnDat_after_4 (c : Dev nD) (t : Fin cfg1.N) : (ffnDat V c).after 4 t = blockAt1 V c 4 t := by dsimp only [ffnDat]
theorem ffnDat_after_5 (c : Dev nD) (t : Fin cfg1.N) : (ffnDat V c).after 5 t = k1_pay3 (ffnAcc V c t.val t.isLt) (blockAt1 V c 1 t) := by dsimp only [ffnDat]

theorem held1_0 (c : Dev nD) (t : Fin cfg1.N) (d) : (ffnDat V c).before 0 t d = blockAt1 V c 0 t :=
  held1_0_of V (ffnDat V c) (ffnDat_A V c 0) (ffnDat_after_0 V c) t d
theorem held1_1 (c : Dev nD) (t : Fin cfg1.N) (d) : (ffnDat V c).before 1 t d = blockAt1 V c 1 t :=
  held1_1_of V (ffnDat V c) (ffnDat_A V c 1) (ffnDat_after_1 V c) t d
theorem held1_2 (c : Dev nD) (t : Fin cfg1.N) (d) : (ffnDat V c).before 2 t d = blockAt1 V c 2 t :=
  held1_2_of V (ffnDat V c) (ffnDat_A V c 2) (ffnDat_after_2 V c) t d
theorem held1_3 (c : Dev nD) (t : Fin cfg1.N) (d) : (ffnDat V c).before 3 t d = blockAt1 V c 3 t :=
  held1_3_of V (ffnDat V c) (ffnDat_A V c 3) (ffnDat_after_3 V c) t d
theorem held1_4 (c : Dev nD) (t : Fin cfg1.N) (d) : (ffnDat V c).before 4 t d = blockAt1 V c 4 t :=
  held1_4_of V (ffnDat V c) (ffnDat_A V c 4) (ffnDat_after_4 V c) t d

theorem ffnDat_Phi_start (c : Dev nD) (t : Fin cfg1.N) :
    (ffnDat V c).Φ t.castSucc = ffnInv V c t.val (Nat.le_of_lt t.isLt) := by
  dsimp only [ffnDat]; simp only [Fin.coe_castSucc]

/-- Whatever the point, the invariant at its start holds the scratch at something; -/
theorem start_any (c : Dev nD) (t : Fin cfg1.N) :
    (ffnDat V c).Φ t.castSucc ⊢ iprop(otherScoped (F := F) c ∗ (∃ d, owns (c : Thread nD τ) scratchM fullShare d) ∗ (∃ r, prngReg c r)) := by
  rw [ffnDat_Phi_start]
  by_cases hz : t.val = 0
  · rw [ffnInv_zero V c _ _ hz]; exact entry_split c
  · rw [ffnInv_pos V c _ _ hz]
    iintro ⟨Ho, HS, Hg⟩
    isplitl [Ho]; · iexact Ho
    isplitl [HS]; · iexists _; iexact HS
    iexact Hg

/-- and after the first point of the grid, at what the point before left. -/
theorem start_later (c : Dev nD) (t : Fin cfg1.N) (hz : t.val ≠ 0) :
    (ffnDat V c).Φ t.castSucc = iprop(otherScoped (F := F) c ∗ owns (c : Thread nD τ) scratchM fullShare (ffnAcc V c (t.val - 1) (Nat.lt_of_le_of_lt (Nat.sub_le _ _) t.isLt)) ∗ (∃ r, prngReg c r)) := by
  rw [ffnDat_Phi_start, ffnInv_pos V c _ _ hz]

/-! ## The body obligation -/

/-- What the pipeline calls the body with at point `t`, window by window, -/
def ffnPre (c : Dev nD) (t : Fin cfg1.N) : sProp 𝕄 :=
  iprop((ffnDat V c).Φ t.castSucc ∗ (ffnDat V c).owesAt () t.castSucc
    ∗ (∃ d, owns (c : Thread nD τ) (st1_0 t) fullShare ((ffnDat V c).before 0 t d))
    ∗ (∃ d, owns (c : Thread nD τ) (st1_1 t) fullShare ((ffnDat V c).before 1 t d))
    ∗ (∃ d, owns (c : Thread nD τ) (st1_2 t) fullShare ((ffnDat V c).before 2 t d))
    ∗ (∃ d, owns (c : Thread nD τ) (st1_3 t) fullShare ((ffnDat V c).before 3 t d))
    ∗ (∃ d, owns (c : Thread nD τ) (st1_4 t) fullShare ((ffnDat V c).before 4 t d))
    ∗ (∃ d, owns (c : Thread nD τ) (st1_5 t) fullShare ((ffnDat V c).before 5 t d)))

/-- and what it expects back. -/
def ffnPost (c : Dev nD) (t : Fin cfg1.N) : sProp 𝕄 :=
  iprop((ffnDat V c).Φ t.succ ∗ (ffnDat V c).owesAt () t.succ
    ∗ (ffnDat V c).leavesExact 0 t
    ∗ (ffnDat V c).leavesExact 1 t
    ∗ (ffnDat V c).leavesExact 2 t
    ∗ (ffnDat V c).leavesExact 3 t
    ∗ (ffnDat V c).leavesExact 4 t
    ∗ (ffnDat V c).leavesExact 5 t)

/-- An input's buffer is handed back holding its block. -/
theorem leaves1_0 (c : Dev nD) (t : Fin cfg1.N) :
    (ffnDat V c).leavesExact 0 t = owns (c : Thread nD τ) (st1_0 t) fullShare (blockAt1 V c 0 t) := by
  unfold Dat.leavesExact; rw [live1_0 t, ffnDat_after_0]
theorem leaves1_1 (c : Dev nD) (t : Fin cfg1.N) :
    (ffnDat V c).leavesExact 1 t = owns (c : Thread nD τ) (st1_1 t) fullShare (blockAt1 V c 1 t) := by
  unfold Dat.leavesExact; rw [live1_1 t, ffnDat_after_1]
theorem leaves1_2 (c : Dev nD) (t : Fin cfg1.N) :
    (ffnDat V c).leavesExact 2 t = owns (c : Thread nD τ) (st1_2 t) fullShare (blockAt1 V c 2 t) := by
  unfold Dat.leavesExact; rw [live1_2 t, ffnDat_after_2]
theorem leaves1_3 (c : Dev nD) (t : Fin cfg1.N) :
    (ffnDat V c).leavesExact 3 t = owns (c : Thread nD τ) (st1_3 t) fullShare (blockAt1 V c 3 t) := by
  unfold Dat.leavesExact; rw [live1_3 t, ffnDat_after_3]
theorem leaves1_4 (c : Dev nD) (t : Fin cfg1.N) :
    (ffnDat V c).leavesExact 4 t = owns (c : Thread nD τ) (st1_4 t) fullShare (blockAt1 V c 4 t) := by
  unfold Dat.leavesExact; rw [live1_4 t, ffnDat_after_4]

set_option maxHeartbeats 4000000 in
/-- At any point the inputs' buffers hold their blocks; the tile's position selects the case; the invariant hands the
    body the scratch at what the point before left (at anything, before a first tile) and takes it back at this point's
    accumulator. -/
theorem ffn_point (c : Dev nD) (t : Fin cfg1.N) :
    ffnPre V c t ⊢ wp frame (wpE (defs₀ (F := F)) Variants.none c none) Set.univ (bodyAt1 t) (fun _ => ffnPost V c t) := by
  unfold ffnPre ffnPost bodyAt1
  simp only [held1_0, held1_1, held1_2, held1_3, held1_4]
  rw [show (ffnDat V c).owesAt () t.succ = (ffnDat V c).owesAt () t.castSucc from rfl,
    show (ffnDat V c).Φ t.succ = ffnInv V c (t.val + 1) t.isLt from rfl, ffnInv_succ,
    leaves1_0, leaves1_1, leaves1_2, leaves1_3, leaves1_4]
  by_cases hF : t.val % 14 = 0
  · have hL : ¬t.val % 14 = 13 := by omega
    rw [Dat.leavesExact_idle (ffnDat V c) 5 t (idle1_5 t fun h => hL ((last_iff t).mp h)) (noflush1_5 t fun h => hL ((last_iff t).mp h)),
      ffnAcc_first V c t hF]
    iintro ⟨HΦ, Ho, ⟨%d0, H0⟩, ⟨%d1, H1⟩, ⟨%d2, H2⟩, ⟨%d3, H3⟩, ⟨%d4, H4⟩, ⟨%d5, H5⟩⟩
    ihave HΦ' := (start_any V c t) $$ HΦ
    icases HΦ' with ⟨Hoth, HS, Hg⟩
    iapply (ffn_first c Set.univ (grid1.coords t) _ _ _ _ _ _ _ _ _ _ _ _ _ _ ((first_iff t).mpr hF) (fun h => hL ((last_iff t).mp h))
      (blockAt1 V c 0 t) (blockAt1 V c 1 t) (blockAt1 V c 2 t) (blockAt1 V c 3 t) (blockAt1 V c 4 t) _ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => hF (by rw [h])
    rw [start_later V c t hz, ffnAcc_later V c t hF]
    by_cases hL : t.val % 14 = 13
    · rw [show (ffnDat V c).leavesExact 5 t = owns (c : Thread nD τ) (st1_5 t) fullShare ((ffnDat V c).after 5 t) from by
          unfold Dat.leavesExact; rw [live1_5 t ((last_iff t).mpr hL)], ffnDat_after_5, ffnAcc_later V c t hF]
      iintro ⟨⟨Hoth, HS, Hg⟩, Ho, ⟨%d0, H0⟩, ⟨%d1, H1⟩, ⟨%d2, H2⟩, ⟨%d3, H3⟩, ⟨%d4, H4⟩, ⟨%d5, H5⟩⟩
      iapply (ffn_last c Set.univ (grid1.coords t) _ _ _ _ _ _ _ _ _ _ _ _ _ _ (fun h => hF ((first_iff t).mp h)) ((last_iff t).mpr hL)
        (blockAt1 V c 0 t) (blockAt1 V c 1 t) (blockAt1 V c 2 t) (blockAt1 V c 3 t) (blockAt1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (ffnDat V c) 5 t (idle1_5 t fun h => hL ((last_iff t).mp h)) (noflush1_5 t fun h => hL ((last_iff t).mp h))]
      iintro ⟨⟨Hoth, HS, Hg⟩, Ho, ⟨%d0, H0⟩, ⟨%d1, H1⟩, ⟨%d2, H2⟩, ⟨%d3, H3⟩, ⟨%d4, H4⟩, ⟨%d5, H5⟩⟩
      iapply (ffn_mid c Set.univ (grid1.coords t) _ _ _ _ _ _ _ _ _ _ _ _ _ _ (fun h => hF ((first_iff t).mp h)) (fun h => hL ((last_iff t).mp h))
        (blockAt1 V c 0 t) (blockAt1 V c 1 t) (blockAt1 V c 2 t) (blockAt1 V c 3 t) (blockAt1 V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation for region 1, at every point. -/
theorem ffn_obligation (c : Dev nD) : BodyObligation (ffnDat (F := F) V c) (defs₀ (F := F)) Variants.none () Set.univ := fun t => by
  rw [bigSep_W1, bigSep_W1]
  exact ffn_point V c t

/-- What the launch hands the region is the invariant before the first point; -/
theorem ffn_enter (c : Dev nD) : Pipeline.ΦA spec1 c ⊢ (ffnDat V c).Φ 0 := by
  rw [show (ffnDat V c).Φ 0 = Pipeline.ΦA spec1 c from rfl]
  try exact Idealize.SL.BI.Entails.refl _

/-- and after the last point the invariant gives it back, the scratch's contents forgotten. -/
theorem ffn_leave (c : Dev nD) : (ffnDat V c).Φ (Fin.last cfg1.N) ⊢ Pipeline.ΦA spec1 c := by
  have hN : cfg1.N = 448 := N_1
  rw [show (ffnDat V c).Φ (Fin.last cfg1.N) = ffnInv V c (Fin.last cfg1.N).val (Nat.le_of_lt_succ (Fin.last cfg1.N).isLt) from rfl,
    ffnInv_pos V c _ _ (by rw [Fin.val_last]; omega)]
  iintro ⟨Ho, HS, Hg⟩
  iapply (entry_join (F := F) c)
  isplitl [Ho]; · iexact Ho
  isplitl [HS]; · iexists _; iexact HS
  iexact Hg

end Cert.KernelIdeal.Hand

end
-- ==== Proof.KIRun.lean ====
/-
  The whole program as a run: ten segments — the host operations that slice, narrow and re-lay the weights, the
  attention region, the host operations that pad the three feed-forward matrices, the feed-forward region — and what
  every unscoped buffer holds at each boundary between them.

  The contents are a fold from the launch memory: after a stretch of host operations, the operations applied; after a
  region, its arrays at what the pipeline's write-backs leave (an input array unchanged, an output array the blocks
  written back) and every other buffer as it was. Each region is entered from "every unscoped buffer at the boundary's
  contents, the generator register at some state, nothing owed" and left at the same with the next contents. The run
  ends with every unscoped buffer at the last contents; read at the argument arrays these are the launch contents, and
  at the result array what the feed-forward region's write-backs leave.
-/
import proofs.«148756_j8615704396127_1_alg».proof.Proof.KIAttn
import proofs.«148756_j8615704396127_1_alg».proof.Proof.KIFfn
import proofs.«148756_j8615704396127_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => m (c, b)
/-- After the first stretch of host operations: where the attention region is entered. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the attention region: its arrays at what the pipeline leaves, the rest as entered. -/
def W2 (c : Dev nD) : Valuation τ sig (Elt F) :=
  Pipeline.withArrays spec0 c (W1 m c) fun w => (attnDat (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
/-- Where the feed-forward region is entered. -/
abbrev V9 : (c : Dev nD) → (b : Ref sig .tc) → Buf (Elt F) ((c : Thread nD τ).loc b) := fun c b => W9 m c b
/-- After the feed-forward region: the end. -/
def W10 (c : Dev nD) : Valuation τ sig (Elt F) :=
  Pipeline.withArrays spec1 c (W9 m c) fun w => (ffnDat (V9 m) c).arrAt w cfg1.N
abbrev V10 : (c : Dev nD) → (b : Ref sig .tc) → Buf (Elt F) ((c : Thread nD τ).loc b) := fun c b => W10 m c b

theorem W2_arr (c : Dev nD) (w : Fin cfg0.W) :
    W2 m c (Proc.devRef .tc (Pipeline.arrRef spec0 w)) = (attnDat (V1 m) c).arrAt w cfg0.N := by
  unfold W2; exact Pipeline.withArrays_arr spec0 launch0.win.arr_inj c _ _ w
theorem W2_other (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_arr (c : Dev nD) (w : Fin cfg1.W) :
    W10 m c (Proc.devRef .tc (Pipeline.arrRef spec1 w)) = (ffnDat (V9 m) c).arrAt w cfg1.N := by
  unfold W10; exact Pipeline.withArrays_arr spec1 launch1.win.arr_inj c _ _ w
theorem W10_other (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

/-- What a region leaves in its arrays, and that it leaves the other buffers alone. -/
theorem left0 (c : Dev nD) (w : Fin cfg0.W) : (attnDat (V1 m) c).arrAt w cfg0.N = V2 m c (Pipeline.arrRef spec0 w) :=
  (W2_arr m c w).symm
theorem kept0 (c : Dev nD) : ∀ b, b ∉ Finset.univ.image (Pipeline.arrRef spec0) → V2 m c b = V1 m c b :=
  fun b hb => W2_other m c b fun w e => hb (Finset.mem_image.mpr ⟨w, Finset.mem_univ _, e⟩)
theorem left1 (c : Dev nD) (w : Fin cfg1.W) : (ffnDat (V9 m) c).arrAt w cfg1.N = V10 m c (Pipeline.arrRef spec1 w) :=
  (W10_arr m c w).symm
theorem kept1 (c : Dev nD) : ∀ b, b ∉ Finset.univ.image (Pipeline.arrRef spec1) → V10 m c b = V9 m c b :=
  fun b hb => W10_other m c b fun w e => hb (Finset.mem_image.mpr ⟨w, Finset.mem_univ _, e⟩)

/-! ## A buffer nothing writes ends as launched -/

/-- A buffer that no host operation writes and no region stages holds its launch contents at the end. -/
theorem W10_untouched (c : Dev nD) (b : Ref sig .tc)
    (h0 : b ∉ hostOps0_W) (h1 : b ∉ hostOps1_W) (h2 : b ∉ hostOps1_1_W) (h3 : b ∉ hostOps1_2_W) (h4 : b ∉ hostOps1_3_W)
    (h5 : b ∉ hostOps1_4_W) (h6 : b ∉ hostOps1_5_W) (h7 : b ∉ hostOps1_6_W)
    (ha : ∀ w, Pipeline.arrRef spec0 w ≠ b) (hb : ∀ w, Pipeline.arrRef spec1 w ≠ b) :
    W10 m c (Proc.devRef .tc b) = m ((c : Thread nD τ).loc b) :=
  (W10_other m c b hb).trans <| (StableHlo.after_of_writes_sub hostOps1_6 _ hostOps1_6_writes h7).trans <|
    (StableHlo.after_of_writes_sub hostOps1_5 _ hostOps1_5_writes h6).trans <|
    (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans <|
    (W2_other m c b ha).trans <| (StableHlo.after_of_writes_sub hostOps0 _ hostOps0_writes h0).trans rfl

/-- An array the attention region only reads (a staged input) that nothing else writes ends as launched too. -/
theorem W10_read0 (c : Dev nD) (w : Fin cfg0.W) (hin : (cfg0.win w).isOut = false)
    (h0 : Pipeline.arrRef spec0 w ∉ hostOps0_W) (h1 : Pipeline.arrRef spec0 w ∉ hostOps1_W) (h2 : Pipeline.arrRef spec0 w ∉ hostOps1_1_W)
    (h3 : Pipeline.arrRef spec0 w ∉ hostOps1_2_W) (h4 : Pipeline.arrRef spec0 w ∉ hostOps1_3_W) (h5 : Pipeline.arrRef spec0 w ∉ hostOps1_4_W)
    (h6 : Pipeline.arrRef spec0 w ∉ hostOps1_5_W) (h7 : Pipeline.arrRef spec0 w ∉ hostOps1_6_W)
    (hb : ∀ w', Pipeline.arrRef spec1 w' ≠ Pipeline.arrRef spec0 w) :
    W10 m c (Proc.devRef .tc (Pipeline.arrRef spec0 w)) = m ((c : Thread nD τ).loc (Pipeline.arrRef spec0 w)) :=
  (W10_other m c _ hb).trans <| (StableHlo.after_of_writes_sub hostOps1_6 _ hostOps1_6_writes h7).trans <|
    (StableHlo.after_of_writes_sub hostOps1_5 _ hostOps1_5_writes h6).trans <|
    (StableHlo.after_of_writes_sub hostOps1_4 _ hostOps1_4_writes h5).trans <|
    (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans <|
    (W2_arr m c w).trans <| ((attnDat (V1 m) c).arrAt_in w hin _).trans <| (attnDat_A (V1 m) c w).trans <|
    (StableHlo.after_of_writes_sub hostOps0 _ hostOps0_writes h0).trans rfl

/-! ## The regions' proof data and the state that rides along -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => attnDat (V1 m) c
  | ⟨1, _⟩ => fun c => ffnDat (V9 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state and nothing owed. -/
abbrev Rest (c : Dev nD) : sProp 𝕄 := iprop((∃ r, prngReg c r) ∗ ∃ W, owes (c : Thread nD τ) (0 : CellTallies nD τ sig Unit) W)
/-- A stretch of host operations from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The end: every unscoped buffer at the last contents, the generator register at some state. -/
abbrev Tend (c : Dev nD) : sProp 𝕄 := iprop(StableHlo.held (c : Thread nD τ) (Pipeline.ucRefs τ sig) (W10 m c) ∗ ∃ r, prngReg c r)

set_option backward.isDefEq.respectTransparency.types false in
/-- Region 0 between its two boundaries: its arrays are taken out of the unscoped buffers at `W1` and put back at
    `W2`; the generator register goes into the region's invariant and comes back; nothing is owed; the kernel has
    no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (attn_obligation (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between its two boundaries: its arrays are taken out of the unscoped buffers at `W9` and put back at
    `W10`; the generator register goes into the region's invariant and comes back; nothing is owed; the kernel has
    no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ffn_obligation (V9 m) c).loose
  hwaits := Pipeline.hwaits_of_owed_zero _ _ _ _ L lv 1 fun _ _ => rfl
  pre c := iprop(StableHlo.held (c : Thread nD τ) (Pipeline.ucRefs τ sig) (W9 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (ffn_enter (V9 m) c)
    unfold Pipeline.ΦA
    iintro ⟨Hp, -, Hr⟩
    isplitl [Hr]; · iexact Hr
    iexact Hp
  hout c := by
    rw [Pipeline.ownSems0_none]
    refine BIBase.Entails.trans (ffn_leave (V9 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (stretch hostOps0 hostOps0_sub hostOps0_fresh (W0 m)),
    .region (region0 m),
    .host (stretch hostOps1 hostOps1_sub hostOps1_fresh (W2 m)),
    .host (stretch hostOps1_1 hostOps1_1_sub hostOps1_1_fresh (W3 m)),
    .host (stretch hostOps1_2 hostOps1_2_sub hostOps1_2_fresh (W4 m)),
    .host (stretch hostOps1_3 hostOps1_3_sub hostOps1_3_fresh (W5 m)),
    .host (stretch hostOps1_4 hostOps1_4_sub hostOps1_4_fresh (W6 m)),
    .host (stretch hostOps1_5 hostOps1_5_sub hostOps1_5_fresh (W7 m)),
    .host (stretch hostOps1_6 hostOps1_6_sub hostOps1_6_fresh (W8 m)),
    .region (region1 m) ]

theorem main_is_segs (c : Dev nD) : main (F := F) c = Pipeline.Seg.run (segs m) := (main_chain c).trans (by chain_rfl)

set_option backward.isDefEq.respectTransparency.types false in
/-- THE RUN. From any memory with zero counters every weakly fair execution terminates, nothing faulting, and at the
    end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.KernelIdeal.Hand

end
-- ==== Proof.KIFrame.lean ====
/-
  The run read at the arrays the claims speak of: every argument array ends holding its launch contents — the two
  the attention region stages are only read, the others no segment touches — and the result array ends holding what
  the feed-forward region's write-backs leave.
-/
import proofs.«148756_j8615704396127_1_alg».proof.Proof.KIRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Every weakly fair execution terminates, nothing faulting; the result array ends at what the feed-forward region
    leaves, and every argument array as launched. -/
theorem run_named : θ_run defs (onTc (τ := τ) (main (F := F))) ⟨m, fun _ => 0, ρ⟩ (fun r => ∀ c : Dev nD,
      r.2.mem ((c.tc : Thread nD τ).loc main_v15) = (ffnDat (V9 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v15 (by decide))).trans (W10_arr m c 5),
      (h c _ (mem_uc main_arg0 (by decide))).trans (W10_read0 m c 0 rfl (by decide) (by decide) (by decide) (by decide) (by decide) (by decide) (by decide) (by decide) (by decide)),
      (h c _ (mem_uc main_arg1 (by decide))).trans (W10_read0 m c 1 rfl (by decide) (by decide) (by decide) (by decide) (by decide) (by decide) (by decide) (by decide) (by decide)),
      (h c _ (mem_uc main_arg2 (by decide))).trans (W10_untouched m c main_arg2 (by decide) (by decide) (by decide) (by decide) (by decide) (by decide) (by decide) (by decide) (by decide) (by decide)),
      (h c _ (mem_uc main_arg3 (by decide))).trans (W10_untouched m c main_arg3 (by decide) (by decide) (by decide) (by decide) (by decide) (by decide) (by decide) (by decide) (by decide) (by decide)),
      (h c _ (mem_uc main_arg4 (by decide))).trans (W10_untouched m c main_arg4 (by decide) (by decide) (by decide) (by decide) (by decide) (by decide) (by decide) (by decide) (by decide) (by decide)),
      (h c _ (mem_uc main_arg5 (by decide))).trans (W10_untouched m c main_arg5 (by decide) (by decide) (by decide) (by decide) (by decide) (by decide) (by decide) (by decide) (by decide) (by decide)),
      (h c _ (mem_uc main_arg6 (by decide))).trans (W10_untouched m c main_arg6 (by decide) (by decide) (by decide) (by decide) (by decide) (by decide) (by decide) (by decide) (by decide) (by decide)),
      (h c _ (mem_uc main_arg7 (by decide))).trans (W10_untouched m c main_arg7 (by decide) (by decide) (by decide) (by decide) (by decide) (by decide) (by decide) (by decide) (by decide) (by decide)),
      (h c _ (mem_uc main_arg8 (by decide))).trans (W10_untouched m c main_arg8 (by decide) (by decide) (by decide) (by decide) (by decide) (by decide) (by decide) (by decide) (by decide) (by decide)),
      (h c _ (mem_uc main_arg9 (by decide))).trans (W10_untouched m c main_arg9 (by decide) (by decide) (by decide) (by decide) (by decide) (by decide) (by decide) (by decide) (by decide) (by decide)),
      (h c _ (mem_uc main_arg10 (by decide))).trans (W10_untouched m c main_arg10 (by decide) (by decide) (by decide) (by decide) (by decide) (by decide) (by decide) (by decide) (by decide) (by decide))⟩) (run_all m ρ)

/-- The frame: the same run, the result forgotten. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_named m ρ)

end Cert.KernelIdeal.Hand

end
-- ==== Proof.BlockSpec.lean ====
/-
  The block's result as ONE function of its eleven argument arrays, entry by entry, on the extended reals.

  Everything is row-wise. For a row `r` and a gain `g`, the row scaled to unit length (its length floored at a
  small constant), times `2048^(-1/2)` (as the f32 nearest it), times the gain:
      `rms r g q = r q / max (sqrt (∑ k, r k * r k)) eps * scale * g q`.
  The attention half of the block is two affine maps of the scaled input row `a`, added back to it:
      `rowVal a g wv bv q = (∑ k, rms a g k * wv q k) + bv q`      (the value projection),
      `rowAtt v ow ob q   = (∑ k, v k * ow q k) + ob q`            (the output projection),
      `rowRes … q         = a q + rowAtt (rowVal a g wv bv) ow ob q`.
  The feed-forward half gates one projection of the re-scaled row `u = rms (rowRes …) g2` by the other, through
  `t ↦ t * logistic t`, and projects the gated numbers back:
      `hid u y z = silu (∑ k, u k * y k) * (∑ k, u k * z k)`,
      `rowOut s u w1 w2 w3 q = s q + ∑ j, hid u (w1 j) (w2 j) * w3 q j`.
  `out` is `rowOut` of row `p` of `x + state`, the value projection being the last 2048 rows of the stacked
  input projection and of its bias. Both programs are proved equal to `out`; nothing here mentions either.
-/
import Idealize.ShloMosaic.PureOps.Ideal
import Idealize.ShloMosaic.Lib.ValueIdx

noncomputable section

namespace Cert.BlockSpec

open Idealize.ShloMosaic

/-- The floor under a row's length: the f32 nearest `1e-12`, the same word in both programs. -/
def eps : EReal := Ideal.ofBits .f32 0x2B8CBCCC#32

/-- The f32 nearest `2048^(-1/2)`, the same word in both programs. -/
def scale : EReal := Ideal.ofBits .f32 0x3CB504F3#32

/-- The sum of a row's squares. -/
def sumsq (r : Fin 2048 → EReal) : EReal := ∑ k : Fin 2048, r k * r k

/-- One entry of a row scaled to unit length (its length floored at `eps`), times `scale`, times a gain. -/
def rms (r g : Fin 2048 → EReal) (q : Fin 2048) : EReal :=
  Ideal.div (r q) (max (Ideal.sqrt (sumsq r)) eps) * scale * g q

/-- `t ↦ t * logistic t`. -/
def silu (t : EReal) : EReal := t * Ideal.logistic t

/-- The value projection of the scaled row: weights `wv q k`, bias `bv q`. -/
def rowVal (a g : Fin 2048 → EReal) (wv : Fin 2048 → Fin 2048 → EReal) (bv : Fin 2048 → EReal) (q : Fin 2048) : EReal :=
  (∑ k : Fin 2048, rms a g k * wv q k) + bv q

/-- The output projection of a value row: weights `ow q k`, bias `ob q`. -/
def rowAtt (v : Fin 2048 → EReal) (ow : Fin 2048 → Fin 2048 → EReal) (ob : Fin 2048 → EReal) (q : Fin 2048) : EReal :=
  (∑ k : Fin 2048, v k * ow q k) + ob q

/-- The row after the attention half: the input row plus its attention output. -/
def rowRes (a g : Fin 2048 → EReal) (wv : Fin 2048 → Fin 2048 → EReal) (bv : Fin 2048 → EReal)
    (ow : Fin 2048 → Fin 2048 → EReal) (ob : Fin 2048 → EReal) (q : Fin 2048) : EReal :=
  a q + rowAtt (rowVal a g wv bv) ow ob q

/-- One gated hidden number, from the re-scaled row `u` and one row of each of the two hidden projections. -/
def hid (u y z : Fin 2048 → EReal) : EReal :=
  silu (∑ k : Fin 2048, u k * y k) * (∑ k : Fin 2048, u k * z k)

/-- The row after the feed-forward half, over `H` hidden numbers: the row `s` plus the gated numbers projected back. -/
def rowOut {H : Nat} (s u : Fin 2048 → EReal) (w1 w2 : Fin H → Fin 2048 → EReal) (w3 : Fin 2048 → Fin H → EReal)
    (q : Fin 2048) : EReal :=
  s q + ∑ j : Fin H, hid u (w1 j) (w2 j) * w3 q j

/-- Row `4096 + q` of a `6144`-row array: the value projection's slice of the stacked input projection. -/
def vrow (q : Fin 2048) : Fin 6144 := ⟨4096 + q.val, by have := q.isLt; omega⟩

section
variable (x st : Fin 16384 → Fin 2048 → EReal) (g1 g2 : Fin 2048 → EReal)
  (inw : Fin 6144 → Fin 2048 → EReal) (inb : Fin 6144 → EReal)
  (outw : Fin 2048 → Fin 2048 → EReal) (outb : Fin 2048 → EReal)
  (w1 w2 : Fin 5324 → Fin 2048 → EReal) (w3 : Fin 2048 → Fin 5324 → EReal)

/-- The input row: `x + state`. -/
def inrow (p : Fin 16384) (q : Fin 2048) : EReal := x p q + st p q

/-- The row after the attention half. -/
def res (p : Fin 16384) : Fin 2048 → EReal :=
  rowRes (inrow x st p) g1 (fun q k => inw (vrow q) k) (fun q => inb (vrow q)) outw outb

/-- The re-scaled row the feed-forward half reads. -/
def mid (p : Fin 16384) : Fin 2048 → EReal :=
  rms (res x st g1 inw inb outw outb p) g2

/-- The block's result. -/
def out (p : Fin 16384) (q : Fin 2048) : EReal :=
  rowOut (res x st g1 inw inb outw outb p) (mid x st g1 g2 inw inb outw outb p) w1 w2 w3 q

end

/-- Arrays of one and of two axes as functions of an index. -/
abbrev Arr1 (n : Nat) : Type := (⟨1, ![n]⟩ : Shape).Idx → EReal
abbrev Arr2 (n0 n1 : Nat) : Type := (⟨2, ![n0, n1]⟩ : Shape).Idx → EReal

/-- An array of one axis as a function of its coordinate, and one of two axes as a function of two. -/
def un1 {n : Nat} (A : Arr1 n) (a : Fin n) : EReal := A (ValueIdx.ix1 a)
def un2 {n0 n1 : Nat} (A : Arr2 n0 n1) (a : Fin n0) (b : Fin n1) : EReal := A (ValueIdx.ix2 a b)

/-- The block's result as an array, from the argument arrays. -/
def outArr (X St : Arr2 16384 2048) (G1 G2 : Arr1 2048) (Inw : Arr2 6144 2048) (Inb : Arr1 6144)
    (Outw : Arr2 2048 2048) (Outb : Arr1 2048) (W1 W2 : Arr2 5324 2048) (W3 : Arr2 2048 5324) : Arr2 16384 2048 :=
  fun i => out (un2 X) (un2 St) (un1 G1) (un1 G2) (un2 Inw) (un1 Inb) (un2 Outw) (un1 Outb) (un2 W1) (un2 W2) (un2 W3) (i 0) (i 1)

end Cert.BlockSpec

end
-- ==== Proof.PayDot.lean ====
/-
  Each of the kernel's three matrix products contracts the last axis of both operands into a zero
  accumulator; read at an index of the result it is the sum of products along that axis.
-/
import proofs.«148756_j8615704396127_1_alg».proof.Proof.Gen.KernelIdeal.Skeleton
import proofs.«148756_j8615704396127_1_alg».proof.Proof.BlockSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option synthInstance.maxSize 4096

noncomputable section

namespace Cert.KernelPay

open Idealize.ShloMosaic Idealize.SL.Sem Cert.KernelIdeal Cert.KernelIdeal.Gen
open Idealize.ShloMosaic.ValueIdx (ix1 ix2)

/-- The contraction of the last axis of both operands into a zero accumulator, read at `(p, j)`:
`∑ k, l (p, k) * r (j, k)`. -/
theorem dot_attn_apply (l : FVec Ideal S256x2048 .bf16) (r : FVec Ideal S2048x2048 .bf16) (p : Fin 256) (j : Fin 2048) :
    matmul dot_S256x2048_S2048x2048_S256x2048_1_1_0_0_n_n none l r (constant S256x2048 .f32 0x00000000#32) (ix2 p j)
      = ∑ k : Fin 2048, l (ix2 p k) * r (ix2 j k) := by
  refine (Ideal.matmul_constant_zero_apply dot_S256x2048_S2048x2048_S256x2048_1_1_0_0_n_n none l r (ix2 p j)).trans ?_
  rw [← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 p j) ((ValueIdx.contrEquiv1 dot_S256x2048_S2048x2048_S256x2048_1_1_0_0_n_n 2048 rfl rfl).symm k) = ix2 p k := funext fun a => Fin.ext (by
    match a with
    | ⟨0, _⟩ =>
      show (dot_S256x2048_S2048x2048_S256x2048_1_1_0_0_n_n.lhsIdx _ _ 0).val = p.val
      unfold DotDims.lhsIdx
      rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
      rfl
    | ⟨1, _⟩ => exact (dot_S256x2048_S2048x2048_S256x2048_1_1_0_0_n_n.lhsIdx_val_of_single rfl _ _).trans hk)
  have er : dot_S256x2048_S2048x2048_S256x2048_1_1_0_0_n_n.rhsIdx (ix2 p j) ((ValueIdx.contrEquiv1 dot_S256x2048_S2048x2048_S256x2048_1_1_0_0_n_n 2048 rfl rfl).symm k) = ix2 j k := funext fun a => Fin.ext (by
    match a with
    | ⟨0, _⟩ =>
      show (dot_S256x2048_S2048x2048_S256x2048_1_1_0_0_n_n.rhsIdx _ _ 0).val = j.val
      unfold DotDims.rhsIdx
      rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
      rfl
    | ⟨1, _⟩ => exact (dot_S256x2048_S2048x2048_S256x2048_1_1_0_0_n_n.rhsIdx_val_of_single rfl _ _).trans hk)
  rw [el, er]

/-- The contraction of the last axis of both operands into a zero accumulator, read at `(p, j)`:
`∑ k, l (p, k) * r (j, k)`. -/
theorem dot_up_apply (l : FVec Ideal S512x2048 .bf16) (r : FVec Ideal S384x2048 .bf16) (p : Fin 512) (j : Fin 384) :
    matmul dot_S512x2048_S384x2048_S512x384_1_1_0_0_n_n none l r (constant S512x384 .f32 0x00000000#32) (ix2 p j)
      = ∑ k : Fin 2048, l (ix2 p k) * r (ix2 j k) := by
  refine (Ideal.matmul_constant_zero_apply dot_S512x2048_S384x2048_S512x384_1_1_0_0_n_n none l r (ix2 p j)).trans ?_
  rw [← Equiv.sum_comp (ValueIdx.contrEquiv1 dot_S512x2048_S384x2048_S512x384_1_1_0_0_n_n 2048 rfl rfl).symm]
  refine Finset.sum_congr rfl fun k _ => ?_
  have hk := ValueIdx.contrEquiv1_symm_val dot_S512x2048_S384x2048_S512x384_1_1_0_0_n_n 2048 rfl rfl k
  have el : dot_S512x2048_S384x2048_S512x384_1_1_0_0_n_n.lhsIdx (ix2 p j) ((ValueIdx.contrEquiv1 dot_S512x2048_S384x2048_S512x384_1_1_0_0_n_n 2048 rfl rfl).symm k) = ix2 p k := funext fun a => Fin.ext (by
    match a with
    | ⟨0, _⟩ =>
      show (dot_S512x2048_S384x2048_S512x384_1_1_0_0_n_n.lhsIdx _ _ 0).val = p.val
      unfold DotDims.lhsIdx
      rw [dif_neg (show ¬(0 : Fin S512x2048.rank) ∈ dot_S512x2048_S384x2048_S512x384_1_1_0_0_n_n.lhsBatch by decide), dif_pos (show (0 : Fin S512x2048.rank) ∈ dot_S512x2048_S384x2048_S512x384_1_1_0_0_n_n.lhsNonContracting by decide)]
      rfl
    | ⟨1, _⟩ => exact (dot_S512x2048_S384x2048_S512x384_1_1_0_0_n_n.lhsIdx_val_of_single rfl _ _).trans hk)
  have er : dot_S512x2048_S384x2048_S512x384_1_1_0_0_n_n.rhsIdx (ix2 p j) ((ValueIdx.contrEquiv1 dot_S512x2048_S384x2048_S512x384_1_1_0_0_n_n 2048 rfl rfl).symm k) = ix2 j k := funext fun a => Fin.ext (by
    match a with
    | ⟨0, _⟩ =>
      show (dot_S512x2048_S384x2048_S512x384_1_1_0_0_n_n.rhsIdx _ _ 0).val = j.val
      unfold DotDims.rhsIdx
      rw [dif_neg (show ¬(0 : Fin S384x2048.rank) ∈ dot_S512x2048_S384x2048_S512x384_1_1_0_0_n_n.rhsBatch by decide), dif_pos (show (0 : Fin S384x2048.rank) ∈ dot_S512x2048_S384x2048_S512x384_1_1_0_0_n_n.rhsNonContracting by decide)]
      rfl
    | ⟨1, _⟩ => exact (dot_S512x2048_S384x2048_S512x384_1_1_0_0_n_n.rhsIdx_val_of_single rfl _ _).trans hk)
  rw [el, er]

/-- The contraction of the last axis of both operands into a zero accumulator, read at `(p, j)`:
`∑ k, l (p, k) * r (j, k)`. -/
theorem dot_down_apply (l : FVec Ideal S512x384 .bf16) (r : FVec Ideal S2048x384 .bf16) (p : Fin 512) (j : Fin 2048) :
    matmul dot_S512x384_S2048x384_S512x2048_1_1_0_0_n_n none l r (constant S512x2048 .f32 0x00000000#32) (ix2 p j)
      = ∑ k : Fin 384, l (ix2 p k) * r (ix2 j k) := by
  refine (Ideal.matmul_constant_zero_apply dot_S512x384_S2048x384_S512x2048_1_1_0_0_n_n none l r (ix2 p j)).trans ?_
  rw [← Equiv.sum_comp (ValueIdx.contrEquiv1 dot_S512x384_S2048x384_S512x2048_1_1_0_0_n_n 384 rfl rfl).symm]
  refine Finset.sum_congr rfl fun k _ => ?_
  have hk := ValueIdx.contrEquiv1_symm_val dot_S512x384_S2048x384_S512x2048_1_1_0_0_n_n 384 rfl rfl k
  have el : dot_S512x384_S2048x384_S512x2048_1_1_0_0_n_n.lhsIdx (ix2 p j) ((ValueIdx.contrEquiv1 dot_S512x384_S2048x384_S512x2048_1_1_0_0_n_n 384 rfl rfl).symm k) = ix2 p k := funext fun a => Fin.ext (by
    match a with
    | ⟨0, _⟩ =>
      show (dot_S512x384_S2048x384_S512x2048_1_1_0_0_n_n.lhsIdx _ _ 0).val = p.val
      unfold DotDims.lhsIdx
      rw [dif_neg (show ¬(0 : Fin S512x384.rank) ∈ dot_S512x384_S2048x384_S512x2048_1_1_0_0_n_n.lhsBatch by decide), dif_pos (show (0 : Fin S512x384.rank) ∈ dot_S512x384_S2048x384_S512x2048_1_1_0_0_n_n.lhsNonContracting by decide)]
      rfl
    | ⟨1, _⟩ => exact (dot_S512x384_S2048x384_S512x2048_1_1_0_0_n_n.lhsIdx_val_of_single rfl _ _).trans hk)
  have er : dot_S512x384_S2048x384_S512x2048_1_1_0_0_n_n.rhsIdx (ix2 p j) ((ValueIdx.contrEquiv1 dot_S512x384_S2048x384_S512x2048_1_1_0_0_n_n 384 rfl rfl).symm k) = ix2 j k := funext fun a => Fin.ext (by
    match a with
    | ⟨0, _⟩ =>
      show (dot_S512x384_S2048x384_S512x2048_1_1_0_0_n_n.rhsIdx _ _ 0).val = j.val
      unfold DotDims.rhsIdx
      rw [dif_neg (show ¬(0 : Fin S2048x384.rank) ∈ dot_S512x384_S2048x384_S512x2048_1_1_0_0_n_n.rhsBatch by decide), dif_pos (show (0 : Fin S2048x384.rank) ∈ dot_S512x384_S2048x384_S512x2048_1_1_0_0_n_n.rhsNonContracting by decide)]
      rfl
    | ⟨1, _⟩ => exact (dot_S512x384_S2048x384_S512x2048_1_1_0_0_n_n.rhsIdx_val_of_single rfl _ _).trans hk)
  rw [el, er]

end Cert.KernelPay

end
-- ==== Proof.PayFfn.lean ====
/-
  The feed-forward kernel's arithmetic at the ideal values, one block at a time: the zero block, one hidden
  tile's contribution added to the accumulator, and the accumulator plus the residual block.
-/
import proofs.«148756_j8615704396127_1_alg».proof.Proof.Gen.KernelIdeal.Skeleton
import proofs.«148756_j8615704396127_1_alg».proof.Proof.BlockSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«148756_j8615704396127_1_alg».proof.Proof.PayDot
set_option synthInstance.maxSize 4096

noncomputable section

namespace Cert.KernelPay

open Idealize.ShloMosaic Idealize.SL.Sem Cert.KernelIdeal Cert.KernelIdeal.Gen
open Idealize.ShloMosaic.ValueIdx (ix1 ix2)

/-- The accumulator's initial block is zero everywhere. -/
theorem k1_pay1_apply (i : S512x2048.Idx) : k1_pay1 (F := Ideal) i = 0 := by
  unfold k1_pay1
  simp only [shapeCast_self]
  exact Ideal.ofBits_zero_f32

/-- The last step adds the residual block to the accumulator, entry by entry. -/
theorem k1_pay3_apply (acc h : Vec Ideal S512x2048 .f32) (i : S512x2048.Idx) :
    k1_pay3 acc h i = acc i + h i := by
  unfold k1_pay3
  simp only [shapeCast_self]
  rfl

/-- One step adds to the accumulator, at row `p` and column `d`, the tile's `384` gated hidden numbers of
row `p`, each times its weight towards column `d`. -/
theorem step_apply (u : Vec Ideal S512x2048 .bf16) (y z : Vec Ideal S384x2048 .bf16) (w : Vec Ideal S2048x384 .bf16)
    (acc : Vec Ideal S512x2048 .f32) (p : Fin 512) (d : Fin 2048) :
    k1_pay2 u y z w acc (ix2 p d)
      = acc (ix2 p d) + ∑ j : Fin 384,
          BlockSpec.hid (fun k => u (ix2 p k)) (fun k => y (ix2 j k)) (fun k => z (ix2 j k)) * w (ix2 d j) := by
  unfold k1_pay2
  simp only [shapeCast_self]
  rw [ValueIdx.addf_apply, dot_down_apply]
  refine congrArg (acc (ix2 p d) + ·) (Finset.sum_congr rfl fun j _ => ?_)
  have hlog : ∀ (V : FVec Ideal S512x384 .f32) (i : S512x384.Idx), logistic V i = Ideal.logistic (V i) :=
    fun _ _ => rfl
  rw [ValueIdx.truncf_apply, ValueIdx.mulf_apply, ValueIdx.mulf_apply, hlog, dot_up_apply, dot_up_apply]
  rfl

end Cert.KernelPay

end
-- ==== Proof.KIFfnValue.lean ====
/-
  What the feed-forward region leaves in its output array, at the ideal instance.

  Point `t` of the grid is tile `t % 14` of row block `t / 14`: it stages rows `512 (t / 14) ..` of the re-scaled
  rows and of the residual rows, rows `384 (t % 14) ..` of the two padded hidden projections and columns
  `384 (t % 14) ..` of the padded third. The tile adds, to entry `(p, d)` of the accumulator,
  `∑ j < 384, hid (row) (w1 row j) (w2 row j) * w3 (d, j)` over its own 384 hidden numbers. By induction along a row
  block, after tile `k` the accumulator holds the sum of tiles `0 .. k`; after the last tile the stored block is that
  sum over all 14 tiles plus the residual rows; and the 32 row blocks cover the array.
-/
import proofs.«148756_j8615704396127_1_alg».proof.Proof.KIFfn
import proofs.«148756_j8615704396127_1_alg».proof.Proof.PayFfn
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## Where a point's blocks lie -/

theorem lt448 (t : Fin cfg1.N) : t.val < 448 := lt_of_lt_of_eq t.isLt (show cfg1.N = 448 from N_1)

/-- The printed index maps over the grid: the row windows move with the row block, the hidden windows with the tile. -/
theorem grid1_index : ∀ t : Fin cfg1.N,
    win1_0.index t (0 : Fin 2) = t.val / 14 ∧ win1_0.index t (1 : Fin 2) = 0
    ∧ win1_1.index t (0 : Fin 2) = t.val / 14 ∧ win1_1.index t (1 : Fin 2) = 0
    ∧ win1_2.index t (0 : Fin 2) = t.val % 14 ∧ win1_2.index t (1 : Fin 2) = 0
    ∧ win1_3.index t (0 : Fin 2) = t.val % 14 ∧ win1_3.index t (1 : Fin 2) = 0
    ∧ win1_4.index t (0 : Fin 2) = 0 ∧ win1_4.index t (1 : Fin 2) = t.val % 14
    ∧ win1_5.index t (0 : Fin 2) = t.val / 14 ∧ win1_5.index t (1 : Fin 2) = 0 :=
  (by decide +kernel : ∀ t : Fin grid1.N, _)

/-- Row `p` of point `t`'s row block, and hidden number `j` of its tile, in the arrays. -/
def rowOf (t : Fin cfg1.N) (p : Fin 512) : Fin 16384 := ⟨512 * (t.val / 14) + p.val, by have := lt448 t; have := p.isLt; omega⟩
def hidOf (t : Fin cfg1.N) (j : Fin 384) : Fin 5376 := ⟨384 * (t.val % 14) + j.val, by have := j.isLt; omega⟩

theorem block0_at (c : Dev nD) (t : Fin cfg1.N) (p : Fin 512) (q : Fin 2048) :
    blockAt1 V c 0 t (ix2 p q) = V c main_v8_1 (ix2 (rowOf t p) q) := by
  obtain ⟨e0, e1, -⟩ := grid1_index t
  show V c main_v8_1 (((cfg1.win 0).blk t).view.emb (ix2 p q)) = _
  refine congrArg _ ?_
  funext a; apply Fin.ext
  match a with
  | ⟨0, _⟩ => show win1_0.index t (0 : Fin 2) * 512 + 1 * p.val = 512 * (t.val / 14) + p.val; omega
  | ⟨1, _⟩ => show win1_0.index t (1 : Fin 2) * 2048 + 1 * q.val = q.val; omega

theorem block1_at (c : Dev nD) (t : Fin cfg1.N) (p : Fin 512) (q : Fin 2048) :
    blockAt1 V c 1 t (ix2 p q) = V c main_v8_0 (ix2 (rowOf t p) q) := by
  obtain ⟨-, -, e0, e1, -⟩ := grid1_index t
  show V c main_v8_0 (((cfg1.win 1).blk t).view.emb (ix2 p q)) = _
  refine congrArg _ ?_
  funext a; apply Fin.ext
  match a with
  | ⟨0, _⟩ => show win1_1.index t (0 : Fin 2) * 512 + 1 * p.val = 512 * (t.val / 14) + p.val; omega
  | ⟨1, _⟩ => show win1_1.index t (1 : Fin 2) * 2048 + 1 * q.val = q.val; omega

theorem block2_at (c : Dev nD) (t : Fin cfg1.N) (j : Fin 384) (q : Fin 2048) :
    blockAt1 V c 2 t (ix2 j q) = V c main_v10 (ix2 (hidOf t j) q) := by
  obtain ⟨-, -, -, -, e0, e1, -⟩ := grid1_index t
  show V c main_v10 (((cfg1.win 2).blk t).view.emb (ix2 j q)) = _
  refine congrArg _ ?_
  funext a; apply Fin.ext
  match a with
  | ⟨0, _⟩ => show win1_2.index t (0 : Fin 2) * 384 + 1 * j.val = 384 * (t.val % 14) + j.val; omega
  | ⟨1, _⟩ => show win1_2.index t (1 : Fin 2) * 2048 + 1 * q.val = q.val; omega

theorem block3_at (c : Dev nD) (t : Fin cfg1.N) (j : Fin 384) (q : Fin 2048) :
    blockAt1 V c 3 t (ix2 j q) = V c main_v12 (ix2 (hidOf t j) q) := by
  obtain ⟨-, -, -, -, -, -, e0, e1, -⟩ := grid1_index t
  show V c main_v12 (((cfg1.win 3).blk t).view.emb (ix2 j q)) = _
  refine congrArg _ ?_
  funext a; apply Fin.ext
  match a with
  | ⟨0, _⟩ => show win1_3.index t (0 : Fin 2) * 384 + 1 * j.val = 384 * (t.val % 14) + j.val; omega
  | ⟨1, _⟩ => show win1_3.index t (1 : Fin 2) * 2048 + 1 * q.val = q.val; omega

theorem block4_at (c : Dev nD) (t : Fin cfg1.N) (d : Fin 2048) (j : Fin 384) :
    blockAt1 V c 4 t (ix2 d j) = V c main_v14 (ix2 d (hidOf t j)) := by
  obtain ⟨-, -, -, -, -, -, -, -, e0, e1, -⟩ := grid1_index t
  show V c main_v14 (((cfg1.win 4).blk t).view.emb (ix2 d j)) = _
  refine congrArg _ ?_
  funext a; apply Fin.ext
  match a with
  | ⟨0, _⟩ => show win1_4.index t (0 : Fin 2) * 2048 + 1 * d.val = d.val; omega
  | ⟨1, _⟩ => show win1_4.index t (1 : Fin 2) * 384 + 1 * j.val = 384 * (t.val % 14) + j.val; omega

/-! ## One tile -/

/-- Hidden number `h`'s contribution to entry `(a, d)`: the gated number of row `a` times the third matrix's `(d, h)`. -/
def hidTerm (c : Dev nD) (a : Fin 16384) (h : Fin 5376) (d : Fin 2048) : EReal :=
  BlockSpec.hid (fun k => V c main_v8_1 (ix2 a k)) (fun k => V c main_v10 (ix2 h k)) (fun k => V c main_v12 (ix2 h k))
    * V c main_v14 (ix2 d h)

/-- Tile `s`'s contribution to entry `(a, d)` (nothing beyond the 14 tiles). -/
def tileSum (c : Dev nD) (a : Fin 16384) (s : ℕ) (d : Fin 2048) : EReal :=
  if hs : s < 14 then ∑ j : Fin 384, hidTerm V c a ⟨384 * s + j.val, by have := j.isLt; omega⟩ d else 0

/-- The body's arithmetic at point `t`: the accumulator plus the point's tile. -/
theorem step_at (c : Dev nD) (t : Fin cfg1.N) (acc : Vec Ideal S512x2048 .f32) (p : Fin 512) (d : Fin 2048) :
    k1_pay2 (blockAt1 V c 0 t) (blockAt1 V c 2 t) (blockAt1 V c 3 t) (blockAt1 V c 4 t) acc (ix2 p d)
      = acc (ix2 p d) + tileSum V c (rowOf t p) (t.val % 14) d := by
  refine (Cert.KernelPay.step_apply (blockAt1 V c 0 t) (blockAt1 V c 2 t) (blockAt1 V c 3 t) (blockAt1 V c 4 t) acc p d).trans ?_
  have hk : t.val % 14 < 14 := Nat.mod_lt _ (by decide)
  unfold tileSum; rw [dif_pos hk]
  refine congrArg (acc (ix2 p d) + ·) (Finset.sum_congr rfl fun j _ => ?_)
  unfold hidTerm
  rw [show (fun k => blockAt1 V c 0 t (ix2 p k)) = fun k => V c main_v8_1 (ix2 (rowOf t p) k) from funext fun k => block0_at V c t p k,
    show (fun k => blockAt1 V c 2 t (ix2 j k)) = fun k => V c main_v10 (ix2 (hidOf t j) k) from funext fun k => block2_at V c t j k,
    show (fun k => blockAt1 V c 3 t (ix2 j k)) = fun k => V c main_v12 (ix2 (hidOf t j) k) from funext fun k => block3_at V c t j k,
    block4_at V c t d j]
  rfl

/-! ## The accumulator along a row block -/

/-- After point `n` the accumulator's entry `(p, d)` is the sum of the row block's tiles `0 .. n % 14`. -/
theorem acc_closed (c : Dev nD) : ∀ (n : ℕ) (hn : n < cfg1.N) (p : Fin 512) (d : Fin 2048),
    ffnAcc V c n hn (ix2 p d) = ∑ s ∈ Finset.range (n % 14 + 1), tileSum V c (rowOf ⟨n, hn⟩ p) s d := by
  intro n
  induction n with
  | zero =>
    intro hn p d
    show k1_pay2 (blockAt1 V c 0 ⟨0, hn⟩) (blockAt1 V c 2 ⟨0, hn⟩) (blockAt1 V c 3 ⟨0, hn⟩) (blockAt1 V c 4 ⟨0, hn⟩) (k1_pay1 (F := Ideal)) (ix2 p d) = _
    rw [step_at V c ⟨0, hn⟩, Cert.KernelPay.k1_pay1_apply, zero_add]
    simp only [Nat.zero_mod, zero_add, Finset.range_one, Finset.sum_singleton]
  | succ n ih =>
    intro hn p d
    show k1_pay2 (blockAt1 V c 0 ⟨n + 1, hn⟩) (blockAt1 V c 2 ⟨n + 1, hn⟩) (blockAt1 V c 3 ⟨n + 1, hn⟩) (blockAt1 V c 4 ⟨n + 1, hn⟩)
      (if (n + 1) % 14 = 0 then k1_pay1 (F := Ideal) else ffnAcc V c n (Nat.lt_of_succ_lt hn)) (ix2 p d) = _
    rw [step_at V c ⟨n + 1, hn⟩]
    by_cases h0 : (n + 1) % 14 = 0
    · rw [if_pos h0, Cert.KernelPay.k1_pay1_apply, zero_add]
      show tileSum V c _ ((n + 1) % 14) d = _
      rw [h0]; simp only [zero_add, Finset.range_one, Finset.sum_singleton]
    · rw [if_neg h0, ih (Nat.lt_of_succ_lt hn) p d]
      have hm : (n + 1) % 14 = n % 14 + 1 := by omega
      have hr : rowOf ⟨n, Nat.lt_of_succ_lt hn⟩ p = rowOf ⟨n + 1, hn⟩ p := by
        apply Fin.ext; show 512 * (n / 14) + p.val = 512 * ((n + 1) / 14) + p.val; omega
      show _ + tileSum V c _ ((n + 1) % 14) d = _
      rw [hm, hr]
      exact (Finset.sum_range_succ (fun s => tileSum V c (rowOf ⟨n + 1, hn⟩ p) s d) (n % 14 + 1)).symm

/-! ## The output array -/

/-- What the output array holds at the end: every hidden number's contribution, tile by tile, plus the residual. -/
def ffnArr (c : Dev nD) : S16384x2048.Idx → EReal := fun i =>
  (∑ s ∈ Finset.range 14, tileSum V c (i 0) s (i 1)) + V c main_v8_0 (ix2 (i 0) (i 1))

/-- A last tile writes back its block of `ffnArr`. -/
theorem ffn_flushed (c : Dev nD) (t : Fin cfg1.N) (hf : (cfg1.win 5).flush t = true) :
    (ffnDat V c).flushed 5 t = ((cfg1.win 5).blk t).view.read (Elt Ideal) (ffnArr V c) := by
  have h13 : t.val % 14 = 13 := (flush1_5 t).mp hf
  show (cfg1.win 5).cut (grid1.coords t) ((ffnDat V c).after 5 t) = _
  rw [ffnDat_after_5]
  obtain ⟨-, -, -, -, -, -, -, -, -, -, e0, e1⟩ := grid1_index t
  funext y
  obtain ⟨p, d, rfl⟩ : ∃ (p : Fin 512) (d : Fin 2048), y = ix2 p d := ⟨y 0, y 1, eq_ix2 y⟩
  have hemb : ((cfg1.win 5).blk t).view.emb (ix2 p d) = ix2 (rowOf t p) d := by
    funext a; apply Fin.ext
    match a with
    | ⟨0, _⟩ => show win1_5.index t (0 : Fin 2) * 512 + 1 * p.val = 512 * (t.val / 14) + p.val; omega
    | ⟨1, _⟩ => show win1_5.index t (1 : Fin 2) * 2048 + 1 * d.val = d.val; omega
  show k1_pay3 (ffnAcc V c t.val t.isLt) (blockAt1 V c 1 t) (ix2 p d) = ffnArr V c (((cfg1.win 5).blk t).view.emb (ix2 p d))
  rw [hemb, Cert.KernelPay.k1_pay3_apply, acc_closed V c t.val t.isLt p d, block1_at V c t p d, h13]
  rfl

/-- An index of the array is in point `t`'s block iff its row is in the row block. -/
theorem ffn_mem_blk (t : Fin cfg1.N) (i : S16384x2048.Idx) :
    i ∈ ((cfg1.win 5).blk t).view.set ↔ ∀ a : Fin 2, win1_5.index t a * S512x2048.size a ≤ (i a).val ∧ (i a).val < win1_5.index t a * S512x2048.size a + S512x2048.size a := by
  show i ∈ ((View.whole main_v15).slice (win1_5.rect t)).set ↔ _
  rw [View.set_slice_whole, Rect.mem_set_unit]
  exact Iff.rfl

/-- Row `r` is written back by the last tile of row block `r / 512`. -/
theorem ffn_cover (i : S16384x2048.Idx) :
    ∃ t : Fin cfg1.N, (cfg1.win 5).flush t = true ∧ i ∈ ((cfg1.win 5).blk t).view.set := by
  have hi0 : (i 0).val < 16384 := (i 0).isLt
  have hi1 : (i 1).val < 2048 := (i 1).isLt
  have hN : cfg1.N = 448 := N_1
  let t : Fin cfg1.N := ⟨14 * ((i 0).val / 512) + 13, by rw [hN]; omega⟩
  have htv : t.val = 14 * ((i 0).val / 512) + 13 := rfl
  obtain ⟨-, -, -, -, -, -, -, -, -, -, e0, e1⟩ := grid1_index t
  refine ⟨t, (flush1_5 t).mpr (by rw [htv]; omega), ?_⟩
  rw [ffn_mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 2048 ≤ (i 1).val ∧ (i 1).val < win1_5.index t (1 : Fin 2) * 2048 + 2048; omega

/-- THE OUTPUT ARRAY after the region. -/
theorem ffn_arr5 (c : Dev nD) : (ffnDat V c).arrAt 5 cfg1.N = ffnArr V c :=
  (ffnDat V c).arrAt_eq_of_cover 5 (ffnArr V c) (fun t hf => ffn_flushed V c t hf) ffn_cover

end Cert.KernelIdeal.Hand

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.KIHidden.lean ====
/-
  The hidden axis: 14 tiles of 384 hidden numbers against the 5324 true ones.

  The feed-forward region's output entry is a sum, tile by tile, over 5376 = 14 * 384 hidden numbers of the PADDED
  matrices. The padded columns of the third matrix are zero, and `x * 0 = 0` for every extended real, so the padded
  terms vanish whatever the gated numbers are; regrouping the rest gives the sum over the 5324 true hidden numbers.
-/
import proofs.«148756_j8615704396127_1_alg».proof.Proof.KIFfnValue
import proofs.«148756_j8615704396127_1_alg».proof.Proof.LibTileSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-! ## The hidden axis: 14 tiles of 384 are the 5324 true hidden numbers -/

/-- The padded columns of the third matrix are zero, so the 14 tiles' contributions to an entry add up to the sum over
    the 5324 true hidden numbers: `x * 0 = 0` for every extended real, and a sum may be regrouped. -/
theorem tiles_total (c : Dev nD) (a : Fin 16384) (d : Fin 2048)
    (hz : ∀ h : Fin 5376, 5324 ≤ h.val → V c main_v14 (ix2 d h) = (0 : EReal)) :
    ∑ s ∈ Finset.range 14, tileSum V c a s d = ∑ h : Fin 5324, hidTerm V c a ⟨h.val, by have := h.isLt; omega⟩ d := by
  rw [← TileSum.sum_fin14_eq_range (fun s => tileSum V c a s d),
    ← TileSum.sum_tiles_14_384 (fun h => hidTerm V c a h d) (fun h hh => by unfold hidTerm; rw [hz h hh, mul_zero])]
  refine Finset.sum_congr rfl fun t _ => ?_
  unfold tileSum; rw [dif_pos t.isLt]

end Cert.KernelIdeal.Hand

end
-- ==== Proof.PayNorm.lean ====
/-
  A row scaled to unit length, times a constant, times a gain, as the kernel computes it on a block of 256
  rows: the row sums of the squares, kept as a column, floored, broadcast back along the row. Read at an entry
  it is the specification's scaled row.
-/
import proofs.«148756_j8615704396127_1_alg».proof.Proof.Gen.KernelIdeal.Skeleton
import proofs.«148756_j8615704396127_1_alg».proof.Proof.BlockSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option synthInstance.maxSize 4096

noncomputable section

namespace Cert.KernelPay

open Idealize.ShloMosaic Idealize.SL.Sem Cert.KernelIdeal Cert.KernelIdeal.Gen
open Idealize.ShloMosaic.ValueIdx (ix1 ix2)

/-- A one-row block broadcast down the rows, read at `(p, q)`: the row's entry `q`. -/
theorem bcast_row_apply (g : FVec Ideal S1x2048 .f32) (p : Fin 256) (q : Fin 2048) :
    broadcastTo S256x2048 g broadcasts_S1x2048_S256x2048 (ix2 p q) = g (ix2 0 q) :=
  broadcastTo_apply g broadcasts_S1x2048_S256x2048 (ix2 p q) (ix2 0 q) (fun a => match a with
    | ⟨0, _⟩ => rfl
    | ⟨1, _⟩ => rfl)

/-- A one-column block broadcast along the rows, read at `(p, q)`: the column's entry `p`. -/
theorem bcast_col_apply (m : FVec Ideal S256x1 .f32) (p : Fin 256) (q : Fin 2048) :
    broadcastTo S256x2048 m broadcasts_S256x1_S256x2048 (ix2 p q) = m (ix2 p 0) :=
  broadcastTo_apply m broadcasts_S256x1_S256x2048 (ix2 p q) (ix2 p 0) (fun a => match a with
    | ⟨0, _⟩ => rfl
    | ⟨1, _⟩ => rfl)

/-- A vector of 256 entries viewed as a column, read at `(p, 0)`: the vector's entry `p`. -/
theorem cast_col_apply (v : FVec Ideal S256 .f32) (p : Fin 256) :
    shapeCast S256x1 v shapeCasts_S256_S256x1 (ix2 p 0) = v (ix1 p) :=
  shapeCast_apply v shapeCasts_S256_S256x1 (ix2 p 0) (ix1 p) (by
    rw [Shape.rowMajor_val_one, Shape.rowMajor_val_two]
    show p.val = p.val * 1 + 0
    omega)

/-- The sum along the rows of a block, from the zero word, read at row `p`. -/
theorem rowsum_apply (sq : FVec Ideal S256x2048 .f32) (p : Fin 256) :
    multiReduction .add [1] S256 sq 0x00000000#32 reduces_S256x2048_S256 (.inl rfl) rfl (ix1 p)
      = ∑ k : Fin 2048, sq (ix2 p k) := by
  refine (Ideal.multiReduction_add_single sq _ reduces_S256x2048_S256 (.inl rfl) rfl (ix1 p)).trans ?_
  refine Finset.sum_congr rfl fun k _ => congrArg sq (funext fun a => Fin.ext ?_)
  match a with
  | ⟨0, _⟩ => rfl
  | ⟨1, _⟩ => rfl

/-- The kernel's scaled row of a block `r` whose entrywise squares are `sq`, with the gain row `g`. -/
def normRow (r sq : FVec Ideal S256x2048 .f32) (g : FVec Ideal S1x2048 .f32) : FVec Ideal S256x2048 .f32 :=
  mulf (mulf (divf r (broadcastTo S256x2048
      (maximumf (sqrt (shapeCast S256x1
          (multiReduction .add [1] S256 sq 0x00000000#32 reduces_S256x2048_S256 (.inl rfl) rfl) shapeCasts_S256_S256x1))
        (broadcast S256x1 (Scalar.ofBits .f32 0x2B8CBCCC#32))) broadcasts_S256x1_S256x2048))
    (broadcast S256x2048 (Scalar.ofBits .f32 0x3CB504F3#32))) (broadcastTo S256x2048 g broadcasts_S1x2048_S256x2048)

/-- Read at `(p, q)`, the kernel's scaled row is the specification's, of row `p` of the block and the gain row. -/
theorem normRow_apply (r sq : FVec Ideal S256x2048 .f32) (g : FVec Ideal S1x2048 .f32) (p : Fin 256) (q : Fin 2048)
    (hsq : ∀ k : Fin 2048, sq (ix2 p k) = r (ix2 p k) * r (ix2 p k)) :
    normRow r sq g (ix2 p q) = BlockSpec.rms (fun k => r (ix2 p k)) (fun k => g (ix2 0 k)) q := by
  unfold normRow
  rw [ValueIdx.mulf_apply, ValueIdx.mulf_apply, ValueIdx.divf_apply, bcast_row_apply, bcast_col_apply,
    ValueIdx.maximumf_apply]
  have hs : ∀ (V : FVec Ideal S256x1 .f32) (i : S256x1.Idx), sqrt V i = Ideal.sqrt (V i) := fun _ _ => rfl
  rw [hs, cast_col_apply, rowsum_apply, Finset.sum_congr rfl fun k _ => hsq k]
  rfl

end Cert.KernelPay

end
-- ==== Proof.PayAttn.lean ====
/-
  The attention kernel's arithmetic at the ideal values, on one block of 256 rows: the row after the attention
  half is the input row plus the output projection of the value projection of the scaled input row; the block
  stored for the feed-forward half is that row scaled again (narrowing to bf16 changes nothing at the ideal
  values).
-/
import proofs.«148756_j8615704396127_1_alg».proof.Proof.Gen.KernelIdeal.Skeleton
import proofs.«148756_j8615704396127_1_alg».proof.Proof.BlockSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«148756_j8615704396127_1_alg».proof.Proof.PayDot
import proofs.«148756_j8615704396127_1_alg».proof.Proof.PayNorm
set_option synthInstance.maxSize 4096

noncomputable section

namespace Cert.KernelPay

open Idealize.ShloMosaic Idealize.SL.Sem Cert.KernelIdeal Cert.KernelIdeal.Gen
open Idealize.ShloMosaic.ValueIdx (ix1 ix2)

/-- The row after the attention half as one expression over whole blocks: the same-shape casts are identities. -/
theorem k0_pay2_eq (x0 x1 : Vec Ideal S256x2048 .f32) (g : Vec Ideal S1x2048 .f32) (wv : Vec Ideal S2048x2048 .bf16)
    (bv : Vec Ideal S1x2048 .f32) (ow : Vec Ideal S2048x2048 .bf16) (ob : Vec Ideal S1x2048 .f32) :
    k0_pay2 x0 x1 g wv bv ow ob
      = addf (addf x0 x1)
          (addf (matmul (φ₁ := .bf16) (φ₂ := .bf16) dot_S256x2048_S2048x2048_S256x2048_1_1_0_0_n_n none
              (truncf .bf16
                (addf (matmul (φ₁ := .bf16) (φ₂ := .bf16) dot_S256x2048_S2048x2048_S256x2048_1_1_0_0_n_n none
                    (truncf .bf16 (normRow (addf x0 x1) (mulf (addf x0 x1) (addf x0 x1)) g) bitsLt_bf16_f32)
                    wv (constant S256x2048 .f32 0x00000000#32))
                  (broadcastTo S256x2048 bv broadcasts_S1x2048_S256x2048))
                bitsLt_bf16_f32)
              ow (constant S256x2048 .f32 0x00000000#32))
            (broadcastTo S256x2048 ob broadcasts_S1x2048_S256x2048)) := by
  unfold k0_pay2 normRow
  simp only [shapeCast_self]

/-- (B1) The row after the attention half, read at `(p, q)`: the specification's `rowRes` of row `p` of
`x0 + x1`, the gain row, the value projection's weights and bias and the output projection's. -/
theorem res_apply (x0 x1 : Vec Ideal S256x2048 .f32) (g : Vec Ideal S1x2048 .f32) (wv ow : Vec Ideal S2048x2048 .bf16)
    (bv ob : Vec Ideal S1x2048 .f32) (p : Fin 256) (q : Fin 2048) :
    k0_pay2 x0 x1 g wv bv ow ob (ix2 p q)
      = BlockSpec.rowRes (fun k => x0 (ix2 p k) + x1 (ix2 p k)) (fun k => g (ix2 0 k)) (fun a b => wv (ix2 a b))
          (fun a => bv (ix2 0 a)) (fun a b => ow (ix2 a b)) (fun a => ob (ix2 0 a)) q := by
  rw [k0_pay2_eq, ValueIdx.addf_apply, ValueIdx.addf_apply, ValueIdx.addf_apply, dot_attn_apply, bcast_row_apply]
  unfold BlockSpec.rowRes BlockSpec.rowAtt
  refine congrArg (_ + ·) (congrArg (· + _) (Finset.sum_congr rfl fun k _ => ?_))
  rw [ValueIdx.truncf_apply, ValueIdx.addf_apply, dot_attn_apply, bcast_row_apply]
  unfold BlockSpec.rowVal
  refine congrArg (· * _) (congrArg (· + _) (Finset.sum_congr rfl fun k' _ => ?_))
  rw [ValueIdx.truncf_apply]
  exact congrArg (· * _) (normRow_apply (addf x0 x1) _ g p k' (fun _ => rfl))

/-- (B2) The block stored for the feed-forward half, read at `(p, q)`: the specification's scaled row of row `p`
of the block after the attention half, with the second gain row. -/
theorem mid_apply (v33 : FVec Ideal S256x2048 .f32) (g2 : Vec Ideal S1x2048 .f32) (p : Fin 256) (q : Fin 2048) :
    k0_pay1 v33 (k0_pay3 g2) (mulf v33 v33) (ix2 p q)
      = BlockSpec.rms (fun k => v33 (ix2 p k)) (fun k => g2 (ix2 0 k)) q := by
  have e : k0_pay1 v33 (k0_pay3 g2) (mulf v33 v33)
      = truncf .bf16 (normRow v33 (mulf v33 v33) g2) bitsLt_bf16_f32 := by
    unfold k0_pay1 k0_pay3 normRow
    simp only [shapeCast_self]
  rw [e, ValueIdx.truncf_apply]
  exact normRow_apply v33 _ g2 p q (fun _ => rfl)

/-- The block of squares the kernel passes on is the entrywise square of the row after the attention half. -/
theorem k0_pay4_eq (x0 x1 : Vec Ideal S256x2048 .f32) (g : Vec Ideal S1x2048 .f32) (wv : Vec Ideal S2048x2048 .bf16)
    (bv : Vec Ideal S1x2048 .f32) (ow : Vec Ideal S2048x2048 .bf16) (ob : Vec Ideal S1x2048 .f32) :
    k0_pay4 x0 x1 g wv bv ow ob
      = mulf (k0_pay2 x0 x1 g wv bv ow ob) (k0_pay2 x0 x1 g wv bv ow ob) := rfl

end Cert.KernelPay

end
-- ==== Proof.KIAttnValueBlk.lean ====
/-
  The attention region's input blocks as pieces of their arrays as the region finds them: a 256-row block of `x`
  and of `state` at grid point `t` is rows `256 t … 256 t + 255`; the six parameter blocks are whole arrays.
-/
import proofs.«148756_j8615704396127_1_alg».proof.Proof.KIAttn
import proofs.«148756_j8615704396127_1_alg».proof.Proof.PayAttn
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row-block windows sit at block `t` of axis 0, the
    parameter windows at block 0, every window at block 0 of axis 1. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-- Window 0's block at point `t` is rows `256 t … 256 t + 255` of its array. -/
theorem blk0_apply (c : Dev nD) (t : Fin cfg0.N) (x : S256x2048.Idx) (k : S16384x2048.Idx)
    (hk0 : (k 0).val = 256 * t.val + (x 0).val) (hk1 : (k 1).val = (x 1).val) :
    (blockAt0 V c 0 t : Vec Ideal S256x2048 .f32) x = (V c main_arg0 : S16384x2048.Idx → EReal) k := by
  obtain ⟨e00, e01, e10, e11, e20, e21, e30, e31, e40, e41, e50, e51, e60, e61, e70, e71, e80, e81, e90, e91⟩ := idx_facts t
  unfold blockAt0
  rw [View.read_apply]
  show (V c main_arg0 : S16384x2048.Idx → EReal) _ = (V c main_arg0 : S16384x2048.Idx → EReal) _
  congr 1
  funext a
  apply Fin.ext
  match a with
  | ⟨0, _⟩ => show win0_0.index t (0 : Fin 2) * 256 + 1 * (x 0).val = (k 0).val; rw [e00, hk0]; omega
  | ⟨1, _⟩ => show win0_0.index t (1 : Fin 2) * 2048 + 1 * (x 1).val = (k 1).val; rw [e01, hk1]; omega

/-- Window 1's block at point `t` is rows `256 t … 256 t + 255` of its array. -/
theorem blk1_apply (c : Dev nD) (t : Fin cfg0.N) (x : S256x2048.Idx) (k : S16384x2048.Idx)
    (hk0 : (k 0).val = 256 * t.val + (x 0).val) (hk1 : (k 1).val = (x 1).val) :
    (blockAt0 V c 1 t : Vec Ideal S256x2048 .f32) x = (V c main_arg1 : S16384x2048.Idx → EReal) k := by
  obtain ⟨e00, e01, e10, e11, e20, e21, e30, e31, e40, e41, e50, e51, e60, e61, e70, e71, e80, e81, e90, e91⟩ := idx_facts t
  unfold blockAt0
  rw [View.read_apply]
  show (V c main_arg1 : S16384x2048.Idx → EReal) _ = (V c main_arg1 : S16384x2048.Idx → EReal) _
  congr 1
  funext a
  apply Fin.ext
  match a with
  | ⟨0, _⟩ => show win0_1.index t (0 : Fin 2) * 256 + 1 * (x 0).val = (k 0).val; rw [e10, hk0]; omega
  | ⟨1, _⟩ => show win0_1.index t (1 : Fin 2) * 2048 + 1 * (x 1).val = (k 1).val; rw [e11, hk1]; omega

/-- Window 2's block at every point is its whole array. -/
theorem blk2_apply (c : Dev nD) (t : Fin cfg0.N) (x : S1x2048.Idx) :
    (blockAt0 V c 2 t : Vec Ideal S1x2048 .f32) x = (V c main_v6 : S1x2048.Idx → EReal) x := by
  obtain ⟨e00, e01, e10, e11, e20, e21, e30, e31, e40, e41, e50, e51, e60, e61, e70, e71, e80, e81, e90, e91⟩ := idx_facts t
  unfold blockAt0
  rw [View.read_apply]
  show (V c main_v6 : S1x2048.Idx → EReal) _ = (V c main_v6 : S1x2048.Idx → EReal) _
  congr 1
  funext a
  apply Fin.ext
  match a with
  | ⟨0, _⟩ => show win0_2.index t (0 : Fin 2) * 1 + 1 * (x 0).val = (x 0).val; rw [e20]; omega
  | ⟨1, _⟩ => show win0_2.index t (1 : Fin 2) * 2048 + 1 * (x 1).val = (x 1).val; rw [e21]; omega

/-- Window 3's block at every point is its whole array. -/
theorem blk3_apply (c : Dev nD) (t : Fin cfg0.N) (x : S2048x2048.Idx) :
    (blockAt0 V c 3 t : Vec Ideal S2048x2048 .bf16) x = (V c main_v1 : S2048x2048.Idx → EReal) x := by
  obtain ⟨e00, e01, e10, e11, e20, e21, e30, e31, e40, e41, e50, e51, e60, e61, e70, e71, e80, e81, e90, e91⟩ := idx_facts t
  unfold blockAt0
  rw [View.read_apply]
  show (V c main_v1 : S2048x2048.Idx → EReal) _ = (V c main_v1 : S2048x2048.Idx → EReal) _
  congr 1
  funext a
  apply Fin.ext
  match a with
  | ⟨0, _⟩ => show win0_3.index t (0 : Fin 2) * 2048 + 1 * (x 0).val = (x 0).val; rw [e30]; omega
  | ⟨1, _⟩ => show win0_3.index t (1 : Fin 2) * 2048 + 1 * (x 1).val = (x 1).val; rw [e31]; omega

/-- Window 4's block at every point is its whole array. -/
theorem blk4_apply (c : Dev nD) (t : Fin cfg0.N) (x : S1x2048.Idx) :
    (blockAt0 V c 4 t : Vec Ideal S1x2048 .f32) x = (V c main_v3 : S1x2048.Idx → EReal) x := by
  obtain ⟨e00, e01, e10, e11, e20, e21, e30, e31, e40, e41, e50, e51, e60, e61, e70, e71, e80, e81, e90, e91⟩ := idx_facts t
  unfold blockAt0
  rw [View.read_apply]
  show (V c main_v3 : S1x2048.Idx → EReal) _ = (V c main_v3 : S1x2048.Idx → EReal) _
  congr 1
  funext a
  apply Fin.ext
  match a with
  | ⟨0, _⟩ => show win0_4.index t (0 : Fin 2) * 1 + 1 * (x 0).val = (x 0).val; rw [e40]; omega
  | ⟨1, _⟩ => show win0_4.index t (1 : Fin 2) * 2048 + 1 * (x 1).val = (x 1).val; rw [e41]; omega

/-- Window 5's block at every point is its whole array. -/
theorem blk5_apply (c : Dev nD) (t : Fin cfg0.N) (x : S2048x2048.Idx) :
    (blockAt0 V c 5 t : Vec Ideal S2048x2048 .bf16) x = (V c main_v4 : S2048x2048.Idx → EReal) x := by
  obtain ⟨e00, e01, e10, e11, e20, e21, e30, e31, e40, e41, e50, e51, e60, e61, e70, e71, e80, e81, e90, e91⟩ := idx_facts t
  unfold blockAt0
  rw [View.read_apply]
  show (V c main_v4 : S2048x2048.Idx → EReal) _ = (V c main_v4 : S2048x2048.Idx → EReal) _
  congr 1
  funext a
  apply Fin.ext
  match a with
  | ⟨0, _⟩ => show win0_5.index t (0 : Fin 2) * 2048 + 1 * (x 0).val = (x 0).val; rw [e50]; omega
  | ⟨1, _⟩ => show win0_5.index t (1 : Fin 2) * 2048 + 1 * (x 1).val = (x 1).val; rw [e51]; omega

/-- Window 6's block at every point is its whole array. -/
theorem blk6_apply (c : Dev nD) (t : Fin cfg0.N) (x : S1x2048.Idx) :
    (blockAt0 V c 6 t : Vec Ideal S1x2048 .f32) x = (V c main_v5 : S1x2048.Idx → EReal) x := by
  obtain ⟨e00, e01, e10, e11, e20, e21, e30, e31, e40, e41, e50, e51, e60, e61, e70, e71, e80, e81, e90, e91⟩ := idx_facts t
  unfold blockAt0
  rw [View.read_apply]
  show (V c main_v5 : S1x2048.Idx → EReal) _ = (V c main_v5 : S1x2048.Idx → EReal) _
  congr 1
  funext a
  apply Fin.ext
  match a with
  | ⟨0, _⟩ => show win0_6.index t (0 : Fin 2) * 1 + 1 * (x 0).val = (x 0).val; rw [e60]; omega
  | ⟨1, _⟩ => show win0_6.index t (1 : Fin 2) * 2048 + 1 * (x 1).val = (x 1).val; rw [e61]; omega

/-- Window 7's block at every point is its whole array. -/
theorem blk7_apply (c : Dev nD) (t : Fin cfg0.N) (x : S1x2048.Idx) :
    (blockAt0 V c 7 t : Vec Ideal S1x2048 .f32) x = (V c main_v7 : S1x2048.Idx → EReal) x := by
  obtain ⟨e00, e01, e10, e11, e20, e21, e30, e31, e40, e41, e50, e51, e60, e61, e70, e71, e80, e81, e90, e91⟩ := idx_facts t
  unfold blockAt0
  rw [View.read_apply]
  show (V c main_v7 : S1x2048.Idx → EReal) _ = (V c main_v7 : S1x2048.Idx → EReal) _
  congr 1
  funext a
  apply Fin.ext
  match a with
  | ⟨0, _⟩ => show win0_7.index t (0 : Fin 2) * 1 + 1 * (x 0).val = (x 0).val; rw [e70]; omega
  | ⟨1, _⟩ => show win0_7.index t (1 : Fin 2) * 2048 + 1 * (x 1).val = (x 1).val; rw [e71]; omega

end Cert.KernelIdeal.Hand

end
-- ==== Proof.KIAttnValue.lean ====
/-
  From blocks to arrays, attention region: every input block is a piece of its array as the region finds it, so
  what a grid point writes back is the same 256 rows of one function of those arrays, and the 64 points' row
  blocks cover the two result arrays: after the region they hold that function.
-/
import proofs.«148756_j8615704396127_1_alg».proof.Proof.KIAttnValueBlk

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

/-! ## The two result arrays as functions of the arrays the region finds -/

/-- The rows after the attention half, as one function of the arrays the region finds: the specification's `rowRes` of
    row `i 0` of the sum of the first two, with the gain row, the value projection's matrix and bias row and the output
    projection's matrix and bias row as the region finds them. -/
def resArr (c : Dev nD) : S16384x2048.Idx → EReal := fun i =>
  BlockSpec.rowRes
    (BlockSpec.inrow (BlockSpec.un2 (n0 := 16384) (n1 := 2048) (V c main_arg0)) (BlockSpec.un2 (n0 := 16384) (n1 := 2048) (V c main_arg1)) (i 0))
    (BlockSpec.un2 (n0 := 1) (n1 := 2048) (V c main_v6) 0) (BlockSpec.un2 (n0 := 2048) (n1 := 2048) (V c main_v1))
    (BlockSpec.un2 (n0 := 1) (n1 := 2048) (V c main_v3) 0) (BlockSpec.un2 (n0 := 2048) (n1 := 2048) (V c main_v4))
    (BlockSpec.un2 (n0 := 1) (n1 := 2048) (V c main_v5) 0) (i 1)

/-- Those rows re-scaled with the second gain. -/
def midArr (c : Dev nD) : S16384x2048.Idx → EReal := fun i =>
  BlockSpec.rms (fun k => resArr V c (ix2 (i 0) k)) (BlockSpec.un2 (n0 := 1) (n1 := 2048) (V c main_v7) 0) (i 1)

/-- `rowRes` of equal rows, weights and biases at equal columns. -/
theorem rowRes_congr {a a' g g' : Fin 2048 → EReal} {wv wv' : Fin 2048 → Fin 2048 → EReal} {bv bv' : Fin 2048 → EReal}
    {ow ow' : Fin 2048 → Fin 2048 → EReal} {ob ob' : Fin 2048 → EReal} {q q' : Fin 2048}
    (ha : ∀ k, a k = a' k) (hg : ∀ k, g k = g' k) (hwv : ∀ x y, wv x y = wv' x y) (hbv : ∀ x, bv x = bv' x)
    (how : ∀ x y, ow x y = ow' x y) (hob : ∀ x, ob x = ob' x) (hq : q = q') :
    BlockSpec.rowRes a g wv bv ow ob q = BlockSpec.rowRes a' g' wv' bv' ow' ob' q' := by
  obtain rfl : a = a' := funext ha
  obtain rfl : g = g' := funext hg
  obtain rfl : wv = wv' := funext fun x => funext (hwv x)
  obtain rfl : bv = bv' := funext hbv
  obtain rfl : ow = ow' := funext fun x => funext (how x)
  obtain rfl : ob = ob' := funext hob
  rw [hq]

/-- `rms` of equal rows and gains at equal columns. -/
theorem rms_congr {r r' g g' : Fin 2048 → EReal} {q q' : Fin 2048} (hr : ∀ k, r k = r' k) (hg : ∀ k, g k = g' k) (hq : q = q') :
    BlockSpec.rms r g q = BlockSpec.rms r' g' q' := by
  obtain rfl : r = r' := funext hr
  obtain rfl : g = g' := funext hg
  rw [hq]

/-- What point `t` stores for the first result at block index `y` is `resArr` at row `256 t + y 0`, column `y 1`. -/
theorem res_point (c : Dev nD) (t : Fin cfg0.N) (y : S256x2048.Idx) (i : S16384x2048.Idx)
    (h0 : (i 0).val = 256 * t.val + (y 0).val) (h1 : (i 1).val = (y 1).val) :
    k0_pay2 (blockAt0 V c 0 t) (blockAt0 V c 1 t) (blockAt0 V c 2 t) (blockAt0 V c 3 t) (blockAt0 V c 4 t) (blockAt0 V c 5 t) (blockAt0 V c 6 t) y
      = resArr V c i := by
  obtain ⟨p, q, rfl⟩ : ∃ (p : Fin 256) (q : Fin 2048), y = ix2 p q := ⟨y 0, y 1, eq_ix2 y⟩
  rw [Cert.KernelPay.res_apply]
  unfold resArr
  refine rowRes_congr (fun k => ?_) (fun k => ?_) (fun a b => ?_) (fun a => ?_) (fun a b => ?_) (fun a => ?_) (Fin.ext h1.symm)
  · exact congrArg₂ (fun a b : EReal => a + b) (blk0_apply V c t (ix2 p k) (ix2 (i 0) k) h0 rfl) (blk1_apply V c t (ix2 p k) (ix2 (i 0) k) h0 rfl)
  · exact blk2_apply V c t _
  · exact blk3_apply V c t _
  · exact blk4_apply V c t _
  · exact blk5_apply V c t _
  · exact blk6_apply V c t _

/-- What point `t` stores for the second result at block index `y` is `midArr` at row `256 t + y 0`, column `y 1`. -/
theorem mid_point (c : Dev nD) (t : Fin cfg0.N) (y : S256x2048.Idx) (i : S16384x2048.Idx)
    (h0 : (i 0).val = 256 * t.val + (y 0).val) (h1 : (i 1).val = (y 1).val) :
    k0_pay1 (k0_pay2 (blockAt0 V c 0 t) (blockAt0 V c 1 t) (blockAt0 V c 2 t) (blockAt0 V c 3 t) (blockAt0 V c 4 t) (blockAt0 V c 5 t) (blockAt0 V c 6 t))
        (k0_pay3 (blockAt0 V c 7 t))
        (k0_pay4 (blockAt0 V c 0 t) (blockAt0 V c 1 t) (blockAt0 V c 2 t) (blockAt0 V c 3 t) (blockAt0 V c 4 t) (blockAt0 V c 5 t) (blockAt0 V c 6 t)) y
      = midArr V c i := by
  obtain ⟨p, q, rfl⟩ : ∃ (p : Fin 256) (q : Fin 2048), y = ix2 p q := ⟨y 0, y 1, eq_ix2 y⟩
  rw [Cert.KernelPay.k0_pay4_eq, Cert.KernelPay.mid_apply]
  unfold midArr
  refine rms_congr (fun k => ?_) (fun k => ?_) (Fin.ext h1.symm)
  · exact res_point V c t (ix2 p k) (ix2 (i 0) k) h0 rfl
  · exact blk7_apply V c t _

/-! ## What a point writes back, and the cover -/

/-- Point `t` writes back block `t` of `resArr`. -/
theorem flushed8_eq (c : Dev nD) (t : Fin cfg0.N) :
    (attnDat V c).flushed 8 t = ((cfg0.win 8).blk t).view.read (Elt Ideal) (resArr V c) := by
  obtain ⟨e00, e01, e10, e11, e20, e21, e30, e31, e40, e41, e50, e51, e60, e61, e70, e71, e80, e81, e90, e91⟩ := idx_facts t
  show (cfg0.win 8).cut (grid0.coords t) ((attnDat V c).after 8 t) = _
  rw [attnDat_after_8]
  unfold attnRes attnResTerm
  rw [View.canon_unit_zero hz2]
  simp only [View.ld_unit_zero (S := S256x2048) hz2, View.ld_unit_zero (S := S1x2048) hz2, View.ld_unit_zero (S := S2048x2048) hz2]
  funext j
  refine res_point V c t j _ ?_ ?_
  · show win0_8.index t (0 : Fin 2) * 256 + 1 * (j 0).val = 256 * t.val + (j 0).val; rw [e80]; omega
  · show win0_8.index t (1 : Fin 2) * 2048 + 1 * (j 1).val = (j 1).val; rw [e81]; omega

/-- Point `t` writes back block `t` of `midArr`. -/
theorem flushed9_eq (c : Dev nD) (t : Fin cfg0.N) :
    (attnDat V c).flushed 9 t = ((cfg0.win 9).blk t).view.read (Elt Ideal) (midArr V c) := by
  obtain ⟨e00, e01, e10, e11, e20, e21, e30, e31, e40, e41, e50, e51, e60, e61, e70, e71, e80, e81, e90, e91⟩ := idx_facts t
  show (cfg0.win 9).cut (grid0.coords t) ((attnDat V c).after 9 t) = _
  rw [attnDat_after_9]
  unfold attnMid attnResTerm
  rw [View.canon_unit_zero hz2]
  simp only [View.ld_unit_zero (S := S256x2048) hz2, View.ld_unit_zero (S := S1x2048) hz2, View.ld_unit_zero (S := S2048x2048) hz2]
  funext j
  refine mid_point V c t j _ ?_ ?_
  · show win0_9.index t (0 : Fin 2) * 256 + 1 * (j 0).val = 256 * t.val + (j 0).val; rw [e90]; omega
  · show win0_9.index t (1 : Fin 2) * 2048 + 1 * (j 1).val = (j 1).val; rw [e91]; omega

/-- An index of the first result is in point `t`'s block iff each coordinate is in the block's range on its axis. -/
theorem mem_blk8 (t : Fin cfg0.N) (i : S16384x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v8_0).slice (win0_8.rect t)).set ↔ _
  rw [View.set_slice_whole, Rect.mem_set_unit]
  exact Iff.rfl

/-- The same for the second result. -/
theorem mem_blk9 (t : Fin cfg0.N) (i : S16384x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_v8_1).slice (win0_9.rect t)).set ↔ _
  rw [View.set_slice_whole, Rect.mem_set_unit]
  exact Iff.rfl

/-- Row `r` of the first result lies in the block of point `r / 256`. -/
theorem cover8 (i : S16384x2048.Idx) : ∃ t : Fin cfg0.N, (cfg0.win 8).flush t = true ∧ i ∈ ((cfg0.win 8).blk t).view.set := by
  have hi0 : (i 0).val < 16384 := (i 0).isLt
  have hi1 : (i 1).val < 2048 := (i 1).isLt
  have hN : cfg0.N = 64 := N_0
  have hlt : (i 0).val / 256 < cfg0.N := by rw [hN]; omega
  obtain ⟨e00, e01, e10, e11, e20, e21, e30, e31, e40, e41, e50, e51, e60, e61, e70, e71, e80, e81, e90, e91⟩ := idx_facts ⟨(i 0).val / 256, hlt⟩
  refine ⟨⟨(i 0).val / 256, hlt⟩, flush0_8 _, ?_⟩
  rw [mem_blk8]
  intro a
  match a with
  | ⟨0, _⟩ => show win0_8.index ⟨(i 0).val / 256, hlt⟩ (0 : Fin 2) * 256 ≤ (i 0).val ∧ (i 0).val < win0_8.index ⟨(i 0).val / 256, hlt⟩ (0 : Fin 2) * 256 + 256
              rw [e80]; show (i 0).val / 256 * 256 ≤ (i 0).val ∧ (i 0).val < (i 0).val / 256 * 256 + 256; omega
  | ⟨1, _⟩ => show win0_8.index ⟨(i 0).val / 256, hlt⟩ (1 : Fin 2) * 2048 ≤ (i 1).val ∧ (i 1).val < win0_8.index ⟨(i 0).val / 256, hlt⟩ (1 : Fin 2) * 2048 + 2048
              rw [e81]; omega

/-- Row `r` of the second result lies in the block of point `r / 256`. -/
theorem cover9 (i : S16384x2048.Idx) : ∃ t : Fin cfg0.N, (cfg0.win 9).flush t = true ∧ i ∈ ((cfg0.win 9).blk t).view.set := by
  have hi0 : (i 0).val < 16384 := (i 0).isLt
  have hi1 : (i 1).val < 2048 := (i 1).isLt
  have hN : cfg0.N = 64 := N_0
  have hlt : (i 0).val / 256 < cfg0.N := by rw [hN]; omega
  obtain ⟨e00, e01, e10, e11, e20, e21, e30, e31, e40, e41, e50, e51, e60, e61, e70, e71, e80, e81, e90, e91⟩ := idx_facts ⟨(i 0).val / 256, hlt⟩
  refine ⟨⟨(i 0).val / 256, hlt⟩, flush0_9 _, ?_⟩
  rw [mem_blk9]
  intro a
  match a with
  | ⟨0, _⟩ => show win0_9.index ⟨(i 0).val / 256, hlt⟩ (0 : Fin 2) * 256 ≤ (i 0).val ∧ (i 0).val < win0_9.index ⟨(i 0).val / 256, hlt⟩ (0 : Fin 2) * 256 + 256
              rw [e90]; show (i 0).val / 256 * 256 ≤ (i 0).val ∧ (i 0).val < (i 0).val / 256 * 256 + 256; omega
  | ⟨1, _⟩ => show win0_9.index ⟨(i 0).val / 256, hlt⟩ (1 : Fin 2) * 2048 ≤ (i 1).val ∧ (i 1).val < win0_9.index ⟨(i 0).val / 256, hlt⟩ (1 : Fin 2) * 2048 + 2048
              rw [e91]; omega

/-- After the region the first result array holds `resArr`. -/
theorem attn_arr8 (c : Dev nD) : (attnDat V c).arrAt 8 cfg0.N = resArr V c :=
  (attnDat V c).arrAt_eq_of_cover 8 (resArr V c) (fun t _ => flushed8_eq V c t) (cover8)

/-- After the region the second result array holds `midArr`. -/
theorem attn_arr9 (c : Dev nD) : (attnDat V c).arrAt 9 cfg0.N = midArr V c :=
  (attnDat V c).arrAt_eq_of_cover 9 (midArr V c) (fun t _ => flushed9_eq V c t) (cover9)

end Cert.KernelIdeal.Hand

end
-- ==== Proof.PayHost.lean ====
/-
  The host operations between the two kernels, each read at an index at the ideal values: the rows and the
  columns padded from 5324 to 5376 (the operand inside, the padding value outside), the padding value (the
  integer zero converted: 0), the value projection's slices of the stacked input projection and of its bias,
  a vector re-laid as one row, and the narrowing to bf16 (the identity at the ideal values).
-/
import proofs.«148756_j8615704396127_1_alg».proof.Proof.Gen.KernelIdeal.Skeleton
import proofs.«148756_j8615704396127_1_alg».proof.Proof.BlockSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«148756_j8615704396127_1_alg».proof.KernelIdeal
import Idealize.ShloMosaic.Lib.KernelVsHost
set_option synthInstance.maxSize 4096

noncomputable section

namespace Cert.KernelPay

open Idealize.ShloMosaic Idealize.SL.Sem Cert.KernelIdeal Cert.KernelIdeal.Gen
open Idealize.ShloMosaic.ValueIdx (ix0 ix1 ix2)

/-- (H1) Rows padded from 5324 to 5376 with the value `v`: the operand on the first 5324 rows, `v` below. -/
theorem pad_rows_apply (x : (⟨S5324x2048, .f32⟩ : BufTy).Contents (Elt Ideal)) (v : (⟨S_, .f32⟩ : BufTy).Contents (Elt Ideal))
    (a : Fin 5376) (k : Fin 2048) :
    pad S5376x2048 ![0, 0] ![52, 0] ![0, 0] x v pads_S5324x2048_S5376x2048_0520_000 h_S_ (ix2 a k)
      = if h : a.val < 5324 then x (ix2 ⟨a.val, h⟩ k) else v ix0 := by
  by_cases h : a.val < 5324
  · rw [dif_pos h]
    exact pad_apply_of_inside _ _ _ x v pads_S5324x2048_S5376x2048_0520_000 h_S_ (ix2 a k) (ix2 ⟨a.val, h⟩ k)
      (fun b => match b with
        | ⟨0, _⟩ => by show a.val = 0 + a.val * (0 + 1); omega
        | ⟨1, _⟩ => by show k.val = 0 + k.val * (0 + 1); omega)
  · rw [dif_neg h]
    refine (pad_apply_of_not_inside _ _ _ x v pads_S5324x2048_S5376x2048_0520_000 h_S_ (ix2 a k) 0 ?_).trans
      (congrArg v (ValueIdx.eq_ix0 _))
    rintro ⟨_, _, h3⟩
    have h3' : (a.val - 0) / 1 < 5324 := h3
    omega

/-- (H2) Columns padded from 5324 to 5376 with the value `v`: the operand on the first 5324 columns, `v` beyond. -/
theorem pad_cols_apply (x : (⟨S2048x5324, .f32⟩ : BufTy).Contents (Elt Ideal)) (v : (⟨S_, .f32⟩ : BufTy).Contents (Elt Ideal))
    (d : Fin 2048) (a : Fin 5376) :
    pad S2048x5376 ![0, 0] ![0, 52] ![0, 0] x v pads_S2048x5324_S2048x5376_000_0520 h_S_ (ix2 d a)
      = if h : a.val < 5324 then x (ix2 d ⟨a.val, h⟩) else v ix0 := by
  by_cases h : a.val < 5324
  · rw [dif_pos h]
    exact pad_apply_of_inside _ _ _ x v pads_S2048x5324_S2048x5376_000_0520 h_S_ (ix2 d a) (ix2 d ⟨a.val, h⟩)
      (fun b => match b with
        | ⟨0, _⟩ => by show d.val = 0 + d.val * (0 + 1); omega
        | ⟨1, _⟩ => by show a.val = 0 + a.val * (0 + 1); omega)
  · rw [dif_neg h]
    refine (pad_apply_of_not_inside _ _ _ x v pads_S2048x5324_S2048x5376_000_0520 h_S_ (ix2 d a) 1 ?_).trans
      (congrArg v (ValueIdx.eq_ix0 _))
    rintro ⟨_, _, h3⟩
    have h3' : (a.val - 0) / 1 < 5324 := h3
    omega

/-- (H3) The padding value: the integer zero converted to f32 is `0`. -/
theorem pad_value_apply (i : S_.Idx) :
    (sitofp .f32 (constantI S_ 32 0#32) : FVec Ideal S_ .f32) i = 0 :=
  sitofp_zero

/-- (H4) The last 2048 rows of the 6144-row stacked projection, read at `(q, k)`: row `4096 + q`. -/
theorem slice_rows_apply (X : (⟨S6144x2048, .f32⟩ : BufTy).Contents (Elt Ideal)) (q k : Fin 2048) :
    extractStridedSlice S2048x2048 ![4096, 0] X slices_S6144x2048_S2048x2048_4096_0 (ix2 q k)
      = X (ix2 (BlockSpec.vrow q) k) :=
  extractStridedSlice_apply _ X slices_S6144x2048_S2048x2048_4096_0 (ix2 q k) (ix2 (BlockSpec.vrow q) k)
    (fun b => match b with
      | ⟨0, _⟩ => by show 4096 + q.val = 4096 + q.val; rfl
      | ⟨1, _⟩ => by show k.val = 0 + k.val; omega)

/-- (H4) The last 2048 entries of the 6144-entry stacked bias, read at `q`: entry `4096 + q`. -/
theorem slice_vec_apply (B : (⟨S6144, .f32⟩ : BufTy).Contents (Elt Ideal)) (q : Fin 2048) :
    extractStridedSlice S2048 ![4096] B slices_S6144_S2048_4096 (ix1 q) = B (ix1 (BlockSpec.vrow q)) :=
  extractStridedSlice_apply _ B slices_S6144_S2048_4096 (ix1 q) (ix1 (BlockSpec.vrow q))
    (fun b => match b with
      | ⟨0, _⟩ => by show 4096 + q.val = 4096 + q.val; rfl)

/-- (H5) A vector of 2048 entries re-laid as one row, read at `(0, k)`: the vector's entry `k`. -/
theorem relay_row_apply (X : (⟨S2048, .f32⟩ : BufTy).Contents (Elt Ideal)) (u : Fin 1) (k : Fin 2048) :
    shapeCast S1x2048 X shapeCasts_S2048_S1x2048 (ix2 u k) = X (ix1 k) :=
  ValueIdx.shapeCast_a_1a_apply X shapeCasts_S2048_S1x2048 u k

/-- (H6) Narrowing to bf16 changes nothing at the ideal values. -/
theorem narrow_apply {s : Shape} (X : (⟨s, .f32⟩ : BufTy).Contents (Elt Ideal)) (i : s.Idx) :
    (truncf (F := Ideal) .bf16 X bitsLt_bf16_f32 : (⟨s, .bf16⟩ : BufTy).Contents (Elt Ideal)) i = X i := rfl

end Cert.KernelPay

end
-- ==== Proof.KIEntry.lean ====
/-
  What the two regions find in their buffers, in terms of the launch memory: the attention region's windows
  hold the two input arrays as launched, the gain and bias vectors re-laid as rows, the value projection's
  slices of the stacked input projection and of its bias, and the two weight matrices narrowed; the
  feed-forward region's hold what the attention region left in its two result arrays, and the three hidden
  matrices padded from 5324 to 5376 with zeros and narrowed.
-/
import proofs.«148756_j8615704396127_1_alg».proof.Proof.KIRun
import proofs.«148756_j8615704396127_1_alg».proof.Proof.PayHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

section Entry

open Idealize.ShloMosaic.ValueIdx (ix0 ix1 ix2)
open Cert.KernelPay

variable (m : (ℓ : Loc nD τ sig) → Buf (Elt Ideal) ℓ) (c : Dev nD)

/-- (E1) The two input arrays are as launched when the attention region is entered. -/
theorem V1_arg0 : V1 m c main_arg0 = m ((c : Thread nD τ).loc main_arg0) :=
  (StableHlo.after_of_writes_sub hostOps0 _ hostOps0_writes (by decide)).trans rfl
theorem V1_arg1 : V1 m c main_arg1 = m ((c : Thread nD τ).loc main_arg1) :=
  (StableHlo.after_of_writes_sub hostOps0 _ hostOps0_writes (by decide)).trans rfl

/-- (E2) The first gain vector re-laid as one row. -/
theorem V1_v6 (k : Fin 2048) :
    (V1 m c main_v6 : S1x2048.Idx → EReal) (ix2 0 k) = (m ((c : Thread nD τ).loc main_arg2) : S2048.Idx → EReal) (ix1 k) := by
  have e : (V1 m c main_v6 : S1x2048.Idx → EReal)
      = shapeCast S1x2048 (m ((c : Thread nD τ).loc main_arg2) : S2048.Idx → EReal) shapeCasts_S2048_S1x2048 := by
    dsimp only [V1, W1, W0, hostOps0]; after_results <;> rfl
  rw [e]; exact relay_row_apply _ 0 k

/-- (E2) The second gain vector re-laid as one row. -/
theorem V1_v7 (k : Fin 2048) :
    (V1 m c main_v7 : S1x2048.Idx → EReal) (ix2 0 k) = (m ((c : Thread nD τ).loc main_arg3) : S2048.Idx → EReal) (ix1 k) := by
  have e : (V1 m c main_v7 : S1x2048.Idx → EReal)
      = shapeCast S1x2048 (m ((c : Thread nD τ).loc main_arg3) : S2048.Idx → EReal) shapeCasts_S2048_S1x2048 := by
    dsimp only [V1, W1, W0, hostOps0]; after_results <;> rfl
  rw [e]; exact relay_row_apply _ 0 k

/-- (E2) The output projection's bias re-laid as one row. -/
theorem V1_v5 (k : Fin 2048) :
    (V1 m c main_v5 : S1x2048.Idx → EReal) (ix2 0 k) = (m ((c : Thread nD τ).loc main_arg7) : S2048.Idx → EReal) (ix1 k) := by
  have e : (V1 m c main_v5 : S1x2048.Idx → EReal)
      = shapeCast S1x2048 (m ((c : Thread nD τ).loc main_arg7) : S2048.Idx → EReal) shapeCasts_S2048_S1x2048 := by
    dsimp only [V1, W1, W0, hostOps0]; after_results <;> rfl
  rw [e]; exact relay_row_apply _ 0 k

/-- (E2) The value projection's bias: the last 2048 entries of the stacked bias, re-laid as one row. -/
theorem V1_v3 (a : Fin 2048) :
    (V1 m c main_v3 : S1x2048.Idx → EReal) (ix2 0 a)
      = (m ((c : Thread nD τ).loc main_arg5) : S6144.Idx → EReal) (ix1 (BlockSpec.vrow a)) := by
  have e : (V1 m c main_v3 : S1x2048.Idx → EReal)
      = shapeCast S1x2048
          (extractStridedSlice S2048 ![4096] (m ((c : Thread nD τ).loc main_arg5) : S6144.Idx → EReal) slices_S6144_S2048_4096)
          shapeCasts_S2048_S1x2048 := by
    dsimp only [V1, W1, W0, hostOps0]; after_results <;> rfl
  rw [e]; exact (relay_row_apply _ 0 a).trans (slice_vec_apply _ a)

/-- (E2) The value projection's weights: the last 2048 rows of the stacked projection, narrowed. -/
theorem V1_v1 (a b : Fin 2048) :
    (V1 m c main_v1 : S2048x2048.Idx → EReal) (ix2 a b)
      = (m ((c : Thread nD τ).loc main_arg4) : S6144x2048.Idx → EReal) (ix2 (BlockSpec.vrow a) b) := by
  have e : (V1 m c main_v1 : S2048x2048.Idx → EReal)
      = truncf (F := Ideal) .bf16
          (extractStridedSlice S2048x2048 ![4096, 0] (m ((c : Thread nD τ).loc main_arg4) : S6144x2048.Idx → EReal)
            slices_S6144x2048_S2048x2048_4096_0) bitsLt_bf16_f32 := by
    dsimp only [V1, W1, W0, hostOps0]; after_results <;> rfl
  rw [e]; exact slice_rows_apply _ a b

/-- (E2) The output projection's weights, narrowed. -/
theorem V1_v4 (a b : Fin 2048) :
    (V1 m c main_v4 : S2048x2048.Idx → EReal) (ix2 a b)
      = (m ((c : Thread nD τ).loc main_arg6) : S2048x2048.Idx → EReal) (ix2 a b) := by
  have e : (V1 m c main_v4 : S2048x2048.Idx → EReal)
      = truncf (F := Ideal) .bf16 (m ((c : Thread nD τ).loc main_arg6) : S2048x2048.Idx → EReal) bitsLt_bf16_f32 := by
    dsimp only [V1, W1, W0, hostOps0]; after_results <;> rfl
  rw [e]; rfl

/-- (E3) The attention region's two result arrays are, when the feed-forward region is entered, what the
attention region left: no host operation in between writes them. -/
theorem V9_v8_0 : V9 m c main_v8_0 = (attnDat (V1 m) c).arrAt 8 cfg0.N :=
    (StableHlo.after_of_writes_sub hostOps1_6 _ hostOps1_6_writes (by decide)).trans <|
    (StableHlo.after_of_writes_sub hostOps1_5 _ hostOps1_5_writes (by decide)).trans <|
    (StableHlo.after_of_writes_sub hostOps1_4 _ hostOps1_4_writes (by decide)).trans <|
    (StableHlo.after_of_writes_sub hostOps1_3 _ hostOps1_3_writes (by decide)).trans <|
    (StableHlo.after_of_writes_sub hostOps1_2 _ hostOps1_2_writes (by decide)).trans <|
    (StableHlo.after_of_writes_sub hostOps1_1 _ hostOps1_1_writes (by decide)).trans <|
    (StableHlo.after_of_writes_sub hostOps1 _ hostOps1_writes (by decide)).trans <|
    W2_arr m c 8
theorem V9_v8_1 : V9 m c main_v8_1 = (attnDat (V1 m) c).arrAt 9 cfg0.N :=
    (StableHlo.after_of_writes_sub hostOps1_6 _ hostOps1_6_writes (by decide)).trans <|
    (StableHlo.after_of_writes_sub hostOps1_5 _ hostOps1_5_writes (by decide)).trans <|
    (StableHlo.after_of_writes_sub hostOps1_4 _ hostOps1_4_writes (by decide)).trans <|
    (StableHlo.after_of_writes_sub hostOps1_3 _ hostOps1_3_writes (by decide)).trans <|
    (StableHlo.after_of_writes_sub hostOps1_2 _ hostOps1_2_writes (by decide)).trans <|
    (StableHlo.after_of_writes_sub hostOps1_1 _ hostOps1_1_writes (by decide)).trans <|
    (StableHlo.after_of_writes_sub hostOps1 _ hostOps1_writes (by decide)).trans <|
    W2_arr m c 9

/-- (E4) The first hidden projection, its rows padded from 5324 to 5376 with zeros and narrowed. -/
theorem V9_v10 (h : Fin 5376) (k : Fin 2048) :
    (V9 m c main_v10 : S5376x2048.Idx → EReal) (ix2 h k)
      = if hh : h.val < 5324 then (m ((c : Thread nD τ).loc main_arg8) : S5324x2048.Idx → EReal) (ix2 ⟨h.val, hh⟩ k) else (0 : EReal) := by
  have hx : W2 m c main_arg8 = m ((c : Thread nD τ).loc main_arg8) :=
    (W2_other m c main_arg8 (by decide)).trans
      ((StableHlo.after_of_writes_sub hostOps0 _ hostOps0_writes (by decide)).trans rfl)
  have e : (V9 m c main_v10 : S5376x2048.Idx → EReal)
      = truncf (F := Ideal) .bf16
          (pad S5376x2048 ![0, 0] ![52, 0] ![0, 0] (W2 m c main_arg8 : S5324x2048.Idx → EReal)
            (sitofp .f32 (constantI S_ 32 0#32) : FVec Ideal S_ .f32) pads_S5324x2048_S5376x2048_0520_000 h_S_)
          bitsLt_bf16_f32 := by
    refine (((StableHlo.after_of_writes_sub hostOps1_6 _ hostOps1_6_writes (by decide)).trans <| (StableHlo.after_of_writes_sub hostOps1_5 _ hostOps1_5_writes (by decide)).trans <| (StableHlo.after_of_writes_sub hostOps1_4 _ hostOps1_4_writes (by decide)).trans <| (StableHlo.after_of_writes_sub hostOps1_3 _ hostOps1_3_writes (by decide))).trans ?_)
    dsimp only [W5, W4, W3, hostOps1_2, hostOps1_1, hostOps1]; after_results <;> rfl
  rw [e, hx]
  refine (pad_rows_apply _ _ h k).trans ?_
  by_cases hh : h.val < 5324
  · rw [dif_pos hh, dif_pos hh]
  · rw [dif_neg hh, dif_neg hh]; exact pad_value_apply ix0

/-- (E4) The second hidden projection, its rows padded from 5324 to 5376 with zeros and narrowed. -/
theorem V9_v12 (h : Fin 5376) (k : Fin 2048) :
    (V9 m c main_v12 : S5376x2048.Idx → EReal) (ix2 h k)
      = if hh : h.val < 5324 then (m ((c : Thread nD τ).loc main_arg9) : S5324x2048.Idx → EReal) (ix2 ⟨h.val, hh⟩ k) else (0 : EReal) := by
  have hx : W2 m c main_arg9 = m ((c : Thread nD τ).loc main_arg9) :=
    (W2_other m c main_arg9 (by decide)).trans
      ((StableHlo.after_of_writes_sub hostOps0 _ hostOps0_writes (by decide)).trans rfl)
  have e : (V9 m c main_v12 : S5376x2048.Idx → EReal)
      = truncf (F := Ideal) .bf16
          (pad S5376x2048 ![0, 0] ![52, 0] ![0, 0] (W2 m c main_arg9 : S5324x2048.Idx → EReal)
            (sitofp .f32 (constantI S_ 32 0#32) : FVec Ideal S_ .f32) pads_S5324x2048_S5376x2048_0520_000 h_S_)
          bitsLt_bf16_f32 := by
    refine (((StableHlo.after_of_writes_sub hostOps1_6 _ hostOps1_6_writes (by decide)).trans <| (StableHlo.after_of_writes_sub hostOps1_5 _ hostOps1_5_writes (by decide))).trans ?_)
    dsimp only [W7, W6, W5, hostOps1_4, hostOps1_3, hostOps1_2]; after_results <;> rfl
  rw [e, hx]
  refine (pad_rows_apply _ _ h k).trans ?_
  by_cases hh : h.val < 5324
  · rw [dif_pos hh, dif_pos hh]
  · rw [dif_neg hh, dif_neg hh]; exact pad_value_apply ix0

/-- (E4) The projection back, its columns padded from 5324 to 5376 with zeros and narrowed. -/
theorem V9_v14 (d : Fin 2048) (h : Fin 5376) :
    (V9 m c main_v14 : S2048x5376.Idx → EReal) (ix2 d h)
      = if hh : h.val < 5324 then (m ((c : Thread nD τ).loc main_arg10) : S2048x5324.Idx → EReal) (ix2 d ⟨h.val, hh⟩) else (0 : EReal) := by
  have hx : W2 m c main_arg10 = m ((c : Thread nD τ).loc main_arg10) :=
    (W2_other m c main_arg10 (by decide)).trans
      ((StableHlo.after_of_writes_sub hostOps0 _ hostOps0_writes (by decide)).trans rfl)
  have e : (V9 m c main_v14 : S2048x5376.Idx → EReal)
      = truncf (F := Ideal) .bf16
          (pad S2048x5376 ![0, 0] ![0, 52] ![0, 0] (W2 m c main_arg10 : S2048x5324.Idx → EReal)
            (sitofp .f32 (constantI S_ 32 0#32) : FVec Ideal S_ .f32) pads_S2048x5324_S2048x5376_000_0520 h_S_)
          bitsLt_bf16_f32 := by
    dsimp only [V9, W9, W8, W7, hostOps1_6, hostOps1_5, hostOps1_4]; after_results <;> rfl
  rw [e, hx]
  refine (pad_cols_apply _ _ d h).trans ?_
  by_cases hh : h.val < 5324
  · rw [dif_pos hh, dif_pos hh]
  · rw [dif_neg hh, dif_neg hh]; exact pad_value_apply ix0

end Entry

end Cert.KernelIdeal.Hand

end
-- ==== Proof.KIAssemble.lean ====
/-
  The kernel's result array is the specification of the launch contents.

  The feed-forward region's output entry `(a, d)` is the sum over the 5324 true hidden numbers of (gated number of
  row `a`) * (third matrix at `(d, h)`), plus the residual entry; the re-scaled rows and the residual rows it reads
  are what the attention region left, which are the specification's `mid` and `res` of the launch contents once the
  host operations before the regions are read at an index: the gains, biases and matrices re-laid, sliced at row
  4096, narrowed (the identity here) and padded with zeros. Addition is commuted once, to put the residual first.
-/
import proofs.«148756_j8615704396127_1_alg».proof.Proof.KIHidden
import proofs.«148756_j8615704396127_1_alg».proof.Proof.KIAttnValue
import proofs.«148756_j8615704396127_1_alg».proof.Proof.KIEntry
import proofs.«148756_j8615704396127_1_alg».proof.Proof.BlockSpec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The attention region's operands, as functions of their coordinates -/

theorem in_x : BlockSpec.un2 (n0 := 16384) (n1 := 2048) (V1 m c main_arg0) = BlockSpec.un2 (m ((c.tc : Thread nD τ).loc main_arg0)) := by rw [V1_arg0]
theorem in_st : BlockSpec.un2 (n0 := 16384) (n1 := 2048) (V1 m c main_arg1) = BlockSpec.un2 (m ((c.tc : Thread nD τ).loc main_arg1)) := by rw [V1_arg1]
theorem in_g1 : BlockSpec.un2 (n0 := 1) (n1 := 2048) (V1 m c main_v6) 0 = BlockSpec.un1 (m ((c.tc : Thread nD τ).loc main_arg2)) := funext fun k => V1_v6 m c k
theorem in_g2 : BlockSpec.un2 (n0 := 1) (n1 := 2048) (V1 m c main_v7) 0 = BlockSpec.un1 (m ((c.tc : Thread nD τ).loc main_arg3)) := funext fun k => V1_v7 m c k
theorem in_wv : BlockSpec.un2 (n0 := 2048) (n1 := 2048) (V1 m c main_v1) = fun q k => BlockSpec.un2 (m ((c.tc : Thread nD τ).loc main_arg4)) (BlockSpec.vrow q) k :=
  funext fun a => funext fun b => V1_v1 m c a b
theorem in_bv : BlockSpec.un2 (n0 := 1) (n1 := 2048) (V1 m c main_v3) 0 = fun q => BlockSpec.un1 (m ((c.tc : Thread nD τ).loc main_arg5)) (BlockSpec.vrow q) :=
  funext fun a => V1_v3 m c a
theorem in_ow : BlockSpec.un2 (n0 := 2048) (n1 := 2048) (V1 m c main_v4) = BlockSpec.un2 (m ((c.tc : Thread nD τ).loc main_arg6)) :=
  funext fun a => funext fun b => V1_v4 m c a b
theorem in_ob : BlockSpec.un2 (n0 := 1) (n1 := 2048) (V1 m c main_v5) 0 = BlockSpec.un1 (m ((c.tc : Thread nD τ).loc main_arg7)) := funext fun k => V1_v5 m c k

/-- Row `a` after the attention half is the specification's. -/
theorem res_row (a : Fin 16384) :
    (fun q => resArr (V1 m) c (ix2 a q)) = BlockSpec.res (BlockSpec.un2 (m ((c.tc : Thread nD τ).loc main_arg0))) (BlockSpec.un2 (m ((c.tc : Thread nD τ).loc main_arg1))) (BlockSpec.un1 (m ((c.tc : Thread nD τ).loc main_arg2))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a := by
  funext q
  show BlockSpec.rowRes (BlockSpec.inrow (BlockSpec.un2 (n0 := 16384) (n1 := 2048) (V1 m c main_arg0)) (BlockSpec.un2 (n0 := 16384) (n1 := 2048) (V1 m c main_arg1)) a)
      (BlockSpec.un2 (n0 := 1) (n1 := 2048) (V1 m c main_v6) 0) (BlockSpec.un2 (n0 := 2048) (n1 := 2048) (V1 m c main_v1))
      (BlockSpec.un2 (n0 := 1) (n1 := 2048) (V1 m c main_v3) 0) (BlockSpec.un2 (n0 := 2048) (n1 := 2048) (V1 m c main_v4))
      (BlockSpec.un2 (n0 := 1) (n1 := 2048) (V1 m c main_v5) 0) q = _
  rw [in_x, in_st, in_g1, in_wv, in_bv, in_ow, in_ob]
  rfl

/-- Row `a` re-scaled is the specification's. -/
theorem mid_row (a : Fin 16384) :
    (fun q => midArr (V1 m) c (ix2 a q)) = BlockSpec.mid (BlockSpec.un2 (m ((c.tc : Thread nD τ).loc main_arg0))) (BlockSpec.un2 (m ((c.tc : Thread nD τ).loc main_arg1))) (BlockSpec.un1 (m ((c.tc : Thread nD τ).loc main_arg2))) (BlockSpec.un1 (m ((c.tc : Thread nD τ).loc main_arg3))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a := by
  funext q
  show BlockSpec.rms (fun k => resArr (V1 m) c (ix2 a k)) (BlockSpec.un2 (n0 := 1) (n1 := 2048) (V1 m c main_v7) 0) q = _
  rw [res_row m c a, in_g2]
  rfl

/-! ## One hidden number -/

/-- A true hidden number's contribution is the specification's term. -/
theorem hid_term (a : Fin 16384) (h : Fin 5324) (d : Fin 2048) :
    hidTerm (V9 m) c a ⟨h.val, by have := h.isLt; omega⟩ d
      = BlockSpec.hid (BlockSpec.mid (BlockSpec.un2 (m ((c.tc : Thread nD τ).loc main_arg0))) (BlockSpec.un2 (m ((c.tc : Thread nD τ).loc main_arg1))) (BlockSpec.un1 (m ((c.tc : Thread nD τ).loc main_arg2))) (BlockSpec.un1 (m ((c.tc : Thread nD τ).loc main_arg3))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a) (BlockSpec.un2 (m ((c.tc : Thread nD τ).loc main_arg8)) h) (BlockSpec.un2 (m ((c.tc : Thread nD τ).loc main_arg9)) h)
          * BlockSpec.un2 (m ((c.tc : Thread nD τ).loc main_arg10)) d h := by
  have e1 : (fun k => V9 m c main_v8_1 (ix2 a k)) = BlockSpec.mid (BlockSpec.un2 (m ((c.tc : Thread nD τ).loc main_arg0))) (BlockSpec.un2 (m ((c.tc : Thread nD τ).loc main_arg1))) (BlockSpec.un1 (m ((c.tc : Thread nD τ).loc main_arg2))) (BlockSpec.un1 (m ((c.tc : Thread nD τ).loc main_arg3))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a := by
    rw [V9_v8_1, attn_arr9]; exact mid_row m c a
  have e2 : (fun k => V9 m c main_v10 (ix2 (⟨h.val, by have := h.isLt; omega⟩ : Fin 5376) k)) = BlockSpec.un2 (m ((c.tc : Thread nD τ).loc main_arg8)) h :=
    funext fun k => (V9_v10 m c ⟨h.val, by have := h.isLt; omega⟩ k).trans (dif_pos h.isLt)
  have e3 : (fun k => V9 m c main_v12 (ix2 (⟨h.val, by have := h.isLt; omega⟩ : Fin 5376) k)) = BlockSpec.un2 (m ((c.tc : Thread nD τ).loc main_arg9)) h :=
    funext fun k => (V9_v12 m c ⟨h.val, by have := h.isLt; omega⟩ k).trans (dif_pos h.isLt)
  have e4 : V9 m c main_v14 (ix2 d (⟨h.val, by have := h.isLt; omega⟩ : Fin 5376)) = BlockSpec.un2 (m ((c.tc : Thread nD τ).loc main_arg10)) d h :=
    (V9_v14 m c d ⟨h.val, by have := h.isLt; omega⟩).trans (dif_pos h.isLt)
  unfold hidTerm
  rw [e1, e2, e3, e4]

/-! ## The result -/

/-- THE KERNEL'S RESULT ARRAY is the specification of the launch contents. -/
theorem result_eq :
    (ffnDat (V9 m) c).arrAt 5 cfg1.N
      = BlockSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ffn_arr5]
  funext i
  obtain ⟨a, d, rfl⟩ : ∃ (a : Fin 16384) (d : Fin 2048), i = ix2 a d := ⟨i 0, i 1, eq_ix2 i⟩
  show (∑ s ∈ Finset.range 14, tileSum (V9 m) c a s d) + V9 m c main_v8_0 (ix2 a d)
    = BlockSpec.res (BlockSpec.un2 (m ((c.tc : Thread nD τ).loc main_arg0))) (BlockSpec.un2 (m ((c.tc : Thread nD τ).loc main_arg1))) (BlockSpec.un1 (m ((c.tc : Thread nD τ).loc main_arg2))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a d
      + ∑ h : Fin 5324, BlockSpec.hid (BlockSpec.mid (BlockSpec.un2 (m ((c.tc : Thread nD τ).loc main_arg0))) (BlockSpec.un2 (m ((c.tc : Thread nD τ).loc main_arg1))) (BlockSpec.un1 (m ((c.tc : Thread nD τ).loc main_arg2))) (BlockSpec.un1 (m ((c.tc : Thread nD τ).loc main_arg3))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a) (BlockSpec.un2 (m ((c.tc : Thread nD τ).loc main_arg8)) h) (BlockSpec.un2 (m ((c.tc : Thread nD τ).loc main_arg9)) h)
          * BlockSpec.un2 (m ((c.tc : Thread nD τ).loc main_arg10)) d h
  rw [tiles_total (V9 m) c a d (fun h hh => (V9_v14 m c d h).trans (dif_neg (by omega)))]
  have hres : V9 m c main_v8_0 (ix2 a d) = BlockSpec.res (BlockSpec.un2 (m ((c.tc : Thread nD τ).loc main_arg0))) (BlockSpec.un2 (m ((c.tc : Thread nD τ).loc main_arg1))) (BlockSpec.un1 (m ((c.tc : Thread nD τ).loc main_arg2))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a d := by
    rw [V9_v8_0, attn_arr8]; exact congrFun (res_row m c a) d
  rw [hres, add_comm]
  exact congrArg (BlockSpec.res (BlockSpec.un2 (m ((c.tc : Thread nD τ).loc main_arg0))) (BlockSpec.un2 (m ((c.tc : Thread nD τ).loc main_arg1))) (BlockSpec.un1 (m ((c.tc : Thread nD τ).loc main_arg2))) (BlockSpec.un2 (m ((c.tc : Thread nD τ).loc main_arg4))) (BlockSpec.un1 (m ((c.tc : Thread nD τ).loc main_arg5))) (BlockSpec.un2 (m ((c.tc : Thread nD τ).loc main_arg6))) (BlockSpec.un1 (m ((c.tc : Thread nD τ).loc main_arg7))) a d + ·) (Finset.sum_congr rfl fun h _ => hid_term m c a h d)

end Cert.KernelIdeal.Hand

end
-- ==== Proof.RefAtt.lean ====
/-
  The reference's attention half read at an index: the first scaled row, the value projection, the output
  projection and the residual sum, each one operation at a time, are the specification's `rms`, `rowVal`,
  `rowAtt` and `res` of row `p` of `x + state`.
-/
import proofs.«148756_j8615704396127_1_alg».proof.Proof.BlockSpec
import proofs.«148756_j8615704396127_1_alg».proof.Proof.Gen.ReferenceIdeal.Read
import Idealize.ShloMosaic.Lib.IdealHost

noncomputable section

namespace Cert.RefIsSpec

open Idealize.ShloMosaic Idealize.ShloMosaic.ValueIdx Cert.ReferenceIdeal Cert.ReferenceIdeal.Read Cert.BlockSpec

/-- Two indices of a two-axis shape with equal coordinates are equal. -/
theorem ext2 {n0 n1 : Nat} {f g : (⟨2, ![n0, n1]⟩ : Shape).Idx} (h0 : f 0 = g 0) (h1 : f 1 = g 1) : f = g := by
  funext a; match a with | ⟨0, _⟩ => exact h0 | ⟨1, _⟩ => exact h1

/-- Two indices of a one-axis shape with equal coordinates are equal. -/
theorem ext1 {n : Nat} {f g : (⟨1, ![n]⟩ : Shape).Idx} (h0 : f 0 = g 0) : f = g := by
  funext a; match a with | ⟨0, _⟩ => exact h0

section
variable (X St : Arr2 16384 2048) (G1 : Arr1 2048) (Inw : Arr2 6144 2048) (Inb : Arr1 6144)
  (Outw : Arr2 2048 2048) (Outb : Arr1 2048)

/-- The sum `x + state` at `(p, q)`. -/
theorem v0_at (p : Fin 16384) (q : Fin 2048) :
    val_main_v0 (F := Ideal) X St (ix2 p q) = inrow (un2 X) (un2 St) p q := rfl

/-- The first reduction at row `p`: the sum of the row's squares. -/
theorem c0v1_at (p : Fin 16384) :
    val_main_call0_v1 (F := Ideal) X St (ix1 p) = sumsq (inrow (un2 X) (un2 St) p) := by
  rw [val_main_call0_v1_apply, val_main_call0_cst_apply, Ideal.ofBits_def, Ideal.ofBits_zero_f32, zero_add]
  refine Finset.sum_congr rfl fun k _ => ?_
  rw [val_main_call0_v0_apply, show idx_main_call0_v1 (ix1 p) k = ix2 p k from ext2 rfl rfl, v0_at]
  rfl

/-- The floored length of row `p`. -/
theorem v3_at (p : Fin 16384) (z : Fin 1) :
    val_main_v3 (F := Ideal) X St (ix2 p z) = max (Ideal.sqrt (sumsq (inrow (un2 X) (un2 St) p))) eps := by
  rw [val_main_v3_apply, val_main_v1_apply, val_main_call0_v2_apply,
    show idx_main_call0_v2 (ix2 p z) = ix1 p from ext1 rfl, c0v1_at, val_main_v2_apply, val_main_cst_apply]
  rfl

/-- The first scaled row at `(p, q)`. -/
theorem v10_at (p : Fin 16384) (q : Fin 2048) :
    val_main_v10 (F := Ideal) X St G1 (ix2 p q) = rms (inrow (un2 X) (un2 St) p) (un1 G1) q := by
  rw [val_main_v10_apply, val_main_v7_apply, val_main_v5_apply, val_main_v4_apply,
    show idx_main_v4 (ix2 p q) = ix2 p (⟨0, Nat.one_pos⟩ : Fin 1) from ext2 rfl rfl, v3_at, v0_at,
    val_main_v6_apply, val_main_cst_0_apply, val_main_v9_apply, val_main_v8_apply,
    show idx_main_v8 (idx_main_v9 (ix2 p q)) = ix1 q from ext1 rfl]
  rfl

/-- The value projection's weights: the transposed slice at `(k, q)` is row `4096 + q`, column `k`. -/
theorem v13_at (k q : Fin 2048) :
    val_main_v13 (F := Ideal) Inw (ix2 k q) = un2 Inw (vrow q) k := by
  rw [val_main_v13_apply, val_main_v11_apply]
  exact congrArg Inw (ext2 rfl rfl)

/-- The value projection's bias, broadcast along the rows. -/
theorem v16_at (p : Fin 16384) (q : Fin 2048) :
    val_main_v16 (F := Ideal) Inb (ix2 p q) = un1 Inb (vrow q) := by
  rw [val_main_v16_apply, val_main_v15_apply, val_main_v12_apply]
  exact congrArg Inb (ext1 rfl)

/-- The value row at `(p, q)`. -/
theorem v17_at (p : Fin 16384) (q : Fin 2048) :
    val_main_v17 (F := Ideal) X St G1 Inw Inb (ix2 p q)
      = rowVal (inrow (un2 X) (un2 St) p) (un1 G1) (fun q k => un2 Inw (vrow q) k) (fun q => un1 Inb (vrow q)) q := by
  rw [val_main_v17_apply, val_main_v14_apply, v16_at, Ideal.addf_def, rowVal]
  refine congrArg (fun t : EReal => t + un1 Inb (vrow q)) ?_
  refine Finset.sum_congr rfl fun k _ => ?_
  rw [show lidx_main_v14 (ix2 p q) k = ix2 p k from ext2 rfl rfl,
    show ridx_main_v14 (ix2 p q) k = ix2 k q from ext2 rfl rfl, v10_at, v13_at]

/-- The output projection's weights transposed. -/
theorem v18_at (k q : Fin 2048) :
    val_main_v18 (F := Ideal) Outw (ix2 k q) = un2 Outw q k := by
  rw [val_main_v18_apply]
  exact congrArg Outw (ext2 rfl rfl)

/-- The output projection's bias, broadcast along the rows. -/
theorem v21_at (p : Fin 16384) (q : Fin 2048) :
    val_main_v21 (F := Ideal) Outb (ix2 p q) = un1 Outb q := by
  rw [val_main_v21_apply, val_main_v20_apply]
  exact congrArg Outb (ext1 rfl)

/-- The attention output at `(p, q)`. -/
theorem v22_at (p : Fin 16384) (q : Fin 2048) :
    val_main_v22 (F := Ideal) X St G1 Inw Inb Outw Outb (ix2 p q)
      = rowAtt (rowVal (inrow (un2 X) (un2 St) p) (un1 G1) (fun q k => un2 Inw (vrow q) k) (fun q => un1 Inb (vrow q)))
          (un2 Outw) (un1 Outb) q := by
  rw [val_main_v22_apply, val_main_v19_apply, v21_at, Ideal.addf_def, rowAtt]
  refine congrArg (fun t : EReal => t + un1 Outb q) ?_
  refine Finset.sum_congr rfl fun k _ => ?_
  rw [show lidx_main_v19 (ix2 p q) k = ix2 p k from ext2 rfl rfl,
    show ridx_main_v19 (ix2 p q) k = ix2 k q from ext2 rfl rfl, v17_at, v18_at]

/-- The row after the attention half at `(p, q)`. -/
theorem v23_at (p : Fin 16384) (q : Fin 2048) :
    val_main_v23 (F := Ideal) X St G1 Inw Inb Outw Outb (ix2 p q)
      = res (un2 X) (un2 St) (un1 G1) (un2 Inw) (un1 Inb) (un2 Outw) (un1 Outb) p q := by
  rw [val_main_v23_apply, v22_at, v0_at]
  rfl

end

end Cert.RefIsSpec

end
-- ==== Proof.RefFfn.lean ====
/-
  The reference's feed-forward half read at an index: the second scaled row, the two hidden projections, the
  gate `t * (1 / (1 + exp (-t)))`, the projection back and the final sum are the specification's `mid`, `hid`
  and `out`.
-/
import proofs.«148756_j8615704396127_1_alg».proof.Proof.RefAtt

noncomputable section

namespace Cert.RefIsSpec

open Idealize.ShloMosaic Idealize.ShloMosaic.ValueIdx Cert.ReferenceIdeal Cert.ReferenceIdeal.Read Cert.BlockSpec

section
variable (X St : Arr2 16384 2048) (G1 G2 : Arr1 2048) (Inw : Arr2 6144 2048) (Inb : Arr1 6144)
  (Outw : Arr2 2048 2048) (Outb : Arr1 2048) (W1 W2 : Arr2 5324 2048) (W3 : Arr2 2048 5324)

/-- The second reduction at row `p`: the sum of the squares of the row after the attention half. -/
theorem c1v1_at (p : Fin 16384) :
    val_main_call1_v1 (F := Ideal) X St G1 Inw Inb Outw Outb (ix1 p)
      = sumsq (res (un2 X) (un2 St) (un1 G1) (un2 Inw) (un1 Inb) (un2 Outw) (un1 Outb) p) := by
  rw [val_main_call1_v1_apply, val_main_call1_cst_apply, Ideal.ofBits_def, Ideal.ofBits_zero_f32, zero_add]
  refine Finset.sum_congr rfl fun k _ => ?_
  rw [val_main_call1_v0_apply, show idx_main_call1_v1 (ix1 p) k = ix2 p k from ext2 rfl rfl, v23_at]
  rfl

/-- The floored length of that row. -/
theorem v26_at (p : Fin 16384) (z : Fin 1) :
    val_main_v26 (F := Ideal) X St G1 Inw Inb Outw Outb (ix2 p z)
      = max (Ideal.sqrt (sumsq (res (un2 X) (un2 St) (un1 G1) (un2 Inw) (un1 Inb) (un2 Outw) (un1 Outb) p))) eps := by
  rw [val_main_v26_apply, val_main_v24_apply, val_main_call1_v2_apply,
    show idx_main_call1_v2 (ix2 p z) = ix1 p from ext1 rfl, c1v1_at, val_main_v25_apply, val_main_cst_1_apply]
  rfl

/-- The second scaled row at `(p, q)`. -/
theorem v33_at (p : Fin 16384) (q : Fin 2048) :
    val_main_v33 (F := Ideal) X St G1 G2 Inw Inb Outw Outb (ix2 p q)
      = mid (un2 X) (un2 St) (un1 G1) (un1 G2) (un2 Inw) (un1 Inb) (un2 Outw) (un1 Outb) p q := by
  rw [val_main_v33_apply, val_main_v30_apply, val_main_v28_apply, val_main_v27_apply,
    show idx_main_v27 (ix2 p q) = ix2 p (⟨0, Nat.one_pos⟩ : Fin 1) from ext2 rfl rfl, v26_at, v23_at,
    val_main_v29_apply, val_main_cst_2_apply, val_main_v32_apply, val_main_v31_apply,
    show idx_main_v31 (idx_main_v32 (ix2 p q)) = ix1 q from ext1 rfl]
  rfl

/-- The first hidden projection's weights transposed. -/
theorem v34_at (k : Fin 2048) (j : Fin 5324) :
    val_main_v34 (F := Ideal) W1 (ix2 k j) = un2 W1 j k := by
  rw [val_main_v34_apply]
  exact congrArg W1 (ext2 rfl rfl)

/-- The second hidden projection's weights transposed. -/
theorem v37_at (k : Fin 2048) (j : Fin 5324) :
    val_main_v37 (F := Ideal) W2 (ix2 k j) = un2 W2 j k := by
  rw [val_main_v37_apply]
  exact congrArg W2 (ext2 rfl rfl)

/-- The projection back's weights transposed. -/
theorem v40_at (j : Fin 5324) (q : Fin 2048) :
    val_main_v40 (F := Ideal) W3 (ix2 j q) = un2 W3 q j := by
  rw [val_main_v40_apply]
  exact congrArg W3 (ext2 rfl rfl)

/-- The first hidden projection at `(p, j)`. -/
theorem v35_at (p : Fin 16384) (j : Fin 5324) :
    val_main_v35 (F := Ideal) X St G1 G2 Inw Inb Outw Outb W1 (ix2 p j)
      = ∑ k : Fin 2048, mid (un2 X) (un2 St) (un1 G1) (un1 G2) (un2 Inw) (un1 Inb) (un2 Outw) (un1 Outb) p k * un2 W1 j k := by
  rw [val_main_v35_apply]
  refine Finset.sum_congr rfl fun k _ => ?_
  rw [show lidx_main_v35 (ix2 p j) k = ix2 p k from ext2 rfl rfl,
    show ridx_main_v35 (ix2 p j) k = ix2 k j from ext2 rfl rfl, v33_at, v34_at]

/-- The second hidden projection at `(p, j)`. -/
theorem v38_at (p : Fin 16384) (j : Fin 5324) :
    val_main_v38 (F := Ideal) X St G1 G2 Inw Inb Outw Outb W2 (ix2 p j)
      = ∑ k : Fin 2048, mid (un2 X) (un2 St) (un1 G1) (un1 G2) (un2 Inw) (un1 Inb) (un2 Outw) (un1 Outb) p k * un2 W2 j k := by
  rw [val_main_v38_apply]
  refine Finset.sum_congr rfl fun k _ => ?_
  rw [show lidx_main_v38 (ix2 p j) k = ix2 p k from ext2 rfl rfl,
    show ridx_main_v38 (ix2 p j) k = ix2 k j from ext2 rfl rfl, v33_at, v37_at]

/-- The gate: `t * (1 / (1 + exp (-t)))` is `t * logistic t`. -/
theorem v36_at (p : Fin 16384) (j : Fin 5324) :
    val_main_v36 (F := Ideal) X St G1 G2 Inw Inb Outw Outb W1 (ix2 p j)
      = silu (∑ k : Fin 2048, mid (un2 X) (un2 St) (un1 G1) (un1 G2) (un2 Inw) (un1 Inb) (un2 Outw) (un1 Outb) p k * un2 W1 j k) := by
  rw [val_main_v36_apply, val_main_call2_v5_apply, val_main_call2_v4_apply, val_main_call2_cst_0_apply,
    val_main_call2_v3_apply, val_main_call2_v2_apply, val_main_call2_cst_apply, val_main_call2_v1_apply,
    val_main_call2_v0_apply, v35_at]
  simp only [Ideal.mulf_def, Ideal.hostDivf_def, Ideal.ofBits_def, Ideal.ofBits_one_f32, Ideal.addf_def,
    Ideal.hostUnary_exp_def, Ideal.hostNegf_def, Ideal.negf_def]
  rfl

/-- One gated hidden number at `(p, j)`. -/
theorem v39_at (p : Fin 16384) (j : Fin 5324) :
    val_main_v39 (F := Ideal) X St G1 G2 Inw Inb Outw Outb W1 W2 (ix2 p j)
      = hid (mid (un2 X) (un2 St) (un1 G1) (un1 G2) (un2 Inw) (un1 Inb) (un2 Outw) (un1 Outb) p) (un2 W1 j) (un2 W2 j) := by
  rw [val_main_v39_apply, v36_at, v38_at]
  rfl

/-- The projection back at `(p, q)`. -/
theorem v41_at (p : Fin 16384) (q : Fin 2048) :
    val_main_v41 (F := Ideal) X St G1 G2 Inw Inb Outw Outb W1 W2 W3 (ix2 p q)
      = ∑ j : Fin 5324, hid (mid (un2 X) (un2 St) (un1 G1) (un1 G2) (un2 Inw) (un1 Inb) (un2 Outw) (un1 Outb) p) (un2 W1 j) (un2 W2 j)
          * un2 W3 q j := by
  rw [val_main_v41_apply]
  refine Finset.sum_congr rfl fun j _ => ?_
  rw [show lidx_main_v41 (ix2 p q) j = ix2 p j from ext2 rfl rfl,
    show ridx_main_v41 (ix2 p q) j = ix2 j q from ext2 rfl rfl, v39_at, v40_at]

/-- The block's result at `(p, q)`. -/
theorem v42_at (p : Fin 16384) (q : Fin 2048) :
    val_main_v42 (F := Ideal) X St G1 G2 Inw Inb Outw Outb W1 W2 W3 (ix2 p q)
      = out (un2 X) (un2 St) (un1 G1) (un1 G2) (un2 Inw) (un1 Inb) (un2 Outw) (un1 Outb) (un2 W1) (un2 W2) (un2 W3) p q := by
  rw [val_main_v42_apply, v23_at, v41_at]
  rfl

end

end Cert.RefIsSpec

end
-- ==== Proof.RefIsSpec.lean ====
/-
  The reference's result as the specification: the reference program is a straight line of host operations, and
  its run ends with the result array at their composed term of the argument arrays; read one operation at a
  time at an index, that term is `Cert.BlockSpec.out` of the arguments' entries.
-/
import proofs.«148756_j8615704396127_1_alg».proof.Proof.BlockSpec
import proofs.«148756_j8615704396127_1_alg».proof.Proof.Gen.ReferenceIdeal.Run
import proofs.«148756_j8615704396127_1_alg».proof.Proof.Gen.ReferenceIdeal.Read
import proofs.«148756_j8615704396127_1_alg».proof.Proof.Gen.Pre_finite_inputs
import proofs.«148756_j8615704396127_1_alg».proof.Proof.RefFfn
import proofs.«148756_j8615704396127_1_alg».proof.Defs

noncomputable section

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's result array, as a function of the eleven argument arrays, is the specification's. -/
theorem ref_eq (x0 x1 : (⟨S16384x2048, .f32⟩ : BufTy).Contents (Elt Ideal)) (x2 x3 : (⟨S2048, .f32⟩ : BufTy).Contents (Elt Ideal))
    (x4 : (⟨S6144x2048, .f32⟩ : BufTy).Contents (Elt Ideal)) (x5 : (⟨S6144, .f32⟩ : BufTy).Contents (Elt Ideal))
    (x6 : (⟨S2048x2048, .f32⟩ : BufTy).Contents (Elt Ideal)) (x7 : (⟨S2048, .f32⟩ : BufTy).Contents (Elt Ideal))
    (x8 x9 : (⟨S5324x2048, .f32⟩ : BufTy).Contents (Elt Ideal)) (x10 : (⟨S2048x5324, .f32⟩ : BufTy).Contents (Elt Ideal)) :
    val_main_v42 (F := Ideal) x0 x1 x2 x3 x4 x5 x6 x7 x8 x9 x10
      = Cert.BlockSpec.outArr x0 x1 x2 x3 x4 x5 x6 x7 x8 x9 x10 := by
  funext i
  obtain ⟨p, q, rfl⟩ : ∃ (p : Fin 16384) (q : Fin 2048), i = ix2 p q := ⟨i 0, i 1, eq_ix2 i⟩
  exact v42_at x0 x1 x2 x3 x4 x5 x6 x7 x8 x9 x10 p q

/-- The reference runs: every weakly fair execution terminates with the result array at the specification of the
    argument arrays' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = Cert.BlockSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((val_main_v42_eq m c).trans (ref_eq _ _ _ _ _ _ _ _ _ _ _)), (h c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.RefIsSpec

end
-- ==== Proof.lean ====
/-
  The certificate of one recurrent transformer block against its plain reference, over the extended reals.

  The block adds its input and state, scales each row to unit length (the length floored at a small constant) times
  `2048^(-1/2)` times a gain, passes it through the value and output projections of a one-step attention, adds the
  result back, re-scales with a second gain, and adds a gated feed-forward of 5324 hidden numbers. The kernel does
  this in two regions: one per 256 rows for the attention half, and one per (512 rows, 384 hidden numbers) for the
  feed-forward half, the hidden axis padded with zeros to 14 tiles and accumulated in a scratch buffer.

  Both programs are proved to compute ONE function of the argument arrays (`Cert.BlockSpec.outArr`):
  * the reference, operation by operation, from its run read at an index;
  * the kernel, from what each region's write-backs leave: per block the body's arithmetic at an entry, along a row
    block the accumulator as the sum of the tiles seen so far, and over the whole hidden axis the sum of the 14 tiles
    is the sum over the 5324 true hidden numbers because the padded columns of the third matrix are zero and
    `x * 0 = 0` for every extended real.
  No step uses finiteness: only that addition is commutative and associative with neutral 0. The ideal pass rewrote
  nothing, so the kernel's idealization is its own text and that conjunct is `True`.
  The three frames: the reference's is its run; the kernel's two (word level and ideal) are the run of its ten
  segments, the same text at either instance.
-/
import proofs.«148756_j8615704396127_1_alg».proof.Defs
import proofs.«148756_j8615704396127_1_alg».proof.Proof.Gen.Kernel
import proofs.«148756_j8615704396127_1_alg».proof.Proof.Gen.KernelIdeal
import proofs.«148756_j8615704396127_1_alg».proof.Proof.Gen.ReferenceIdeal
import proofs.«148756_j8615704396127_1_alg».proof.Proof.Gen.Pre_finite_inputs
import proofs.«148756_j8615704396127_1_alg».proof.Proof.KFrame
import proofs.«148756_j8615704396127_1_alg».proof.Proof.KIFrame
import proofs.«148756_j8615704396127_1_alg».proof.Proof.KIAssemble
import proofs.«148756_j8615704396127_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ

theorem frame_ki : Cert.frame_KernelIdeal := fun m ρ _ => Cert.KernelIdeal.Hand.frame_all m ρ

/-- Both programs end with the result array at the specification of the (agreeing) argument arrays. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Hand.result_eq m c), (h c).2⟩)
    (Cert.KernelIdeal.Hand.run_named (F := Ideal) m ρ), ?_⟩
  refine (θ_run Cert.ReferenceIdeal.defs _ _).mono (fun r h c => ⟨(h c).1.trans ?_, (h c).2⟩) (Cert.RefIsSpec.run_spec m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, Cert.RefIsSpec.frame_ri, trivial, algebraic⟩

end Cert.Proof

end
